-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x4096 : Shape := ⟨2, ![1024, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_

variable [Facts]

def fn_part1 {F : FTy → Type} [FloatOps F] (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  main_v18

def fn {F : FTy → Type} [FloatOps F] (main_arg0 : FVec F S4096x1024 .f32) (main_arg1 : FVec F S1024x4096 .f32) (main_arg2 : FVec F S1024x4096 .f32) (main_arg3 : FVec F S1024x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_v13 main_v16
-- ==== Kernel.lean ====
abbrev S4096x1024 : Shape := ⟨2, ![4096, 1024]⟩
abbrev S1024x4096 : Shape := ⟨2, ![1024, 4096]⟩
abbrev S4096x4096 : Shape := ⟨2, ![4096, 4096]⟩
abbrev S512x1024 : Shape := ⟨2, ![512, 1024]⟩
abbrev S1024x512 : Shape := ⟨2, ![1024, 512]⟩
abbrev S512x512 : Shape := ⟨2, ![512, 512]⟩
abbrev S256x4096 : Shape := ⟨2, ![256, 4096]⟩
abbrev S256x1 : Shape := ⟨2, ![256, 1]⟩
abbrev S256x256 : Shape := ⟨2, ![256, 256]⟩
abbrev S256 : Shape := ⟨1, ![256]⟩

abbrev nBuf : Space → Nat
  | .hbm => 8
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S4096x4096, .f32⟩
  | .local _ .vmem, ⟨0, _⟩ => ⟨S512x1024, .f32⟩
  | .local _ .vmem, ⟨1, _⟩ => ⟨S512x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .bf16⟩
  | .local _ .vmem, ⟨13, _⟩ => ⟨S512x512, .bf16⟩
  | .local _ .vmem, ⟨14, _⟩ => ⟨S256x4096, .f32⟩
  | .local _ .vmem, ⟨15, _⟩ => ⟨S256x4096, .f32⟩
  | .local _ .vmem, ⟨16, _⟩ => ⟨S256x4096, .f32⟩
  | .local _ .vmem, ⟨17, _⟩ => ⟨S256x4096, .bf16⟩
  | .local _ .vmem, ⟨18, _⟩ => ⟨S256x4096, .bf16⟩
  | .local _ .vmem, ⟨19, _⟩ => ⟨S256x4096, .f32⟩
  | .local _ .vmem, ⟨20, _⟩ => ⟨S256x4096, .f32⟩
  | .local _ .vmem, ⟨21, _⟩ => ⟨S256x1, .f32⟩
  | .local _ .vmem, ⟨22, _⟩ => ⟨S256x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_25 : BitVec 32 := 0#32
  let v45 : BitVec 1 := Scalar.cmpi .ne v44 c0_i32_25
  v45

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S256x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S256x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

class Facts₀ : Prop where
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  reduces_S256x256_S256 : S256x256.Reduces [1] S256
  shapeCasts_S256_S256x1 : S256.ShapeCasts S256x1
  broadcasts_S256x1_S256x256 : S256x1.Broadcasts S256x256
  broadcasts_S256x1_S256x4096 : S256x1.Broadcasts S256x4096
  dot_S512x1024_S1024x512_S512x512_1_0_0_1_n_n_wf : DotDims.WF S512x1024 S1024x512 S512x512 [1] [0] [0] [1] [] []
  dot_S256x4096_S256x4096_S256x256_1_1_0_0_n_n_wf : DotDims.WF S256x4096 S256x4096 S256x256 [1] [1] [0] [0] [] []
  dot_S256x256_S256x4096_S256x4096_1_0_0_1_n_n_wf : DotDims.WF S256x256 S256x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x4096.size a
  hwx0_1 : ∀ i : grid0.Coords, EltTy.bits .f32 = 32 ∨ (Rect.block (s := S1024x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x4096.size a
  hwx0_2 : ∀ i : grid0.Coords, EltTy.bits .f32 = 32 ∨ (Rect.block (s := S1024x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x4096.size a
  hwx0_3 : ∀ i : grid0.Coords, EltTy.bits .f32 = 32 ∨ (Rect.block (s := S1024x4096) S1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x4096.size a
  hwx0_4 : ∀ i : grid0.Coords, EltTy.bits .f32 = 32 ∨ (Rect.block (s := S4096x4096) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x4096.size a
  hwx0_5 : ∀ i : grid0.Coords, EltTy.bits .f32 = 32 ∨ (Rect.block (s := S4096x4096) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S4096x4096.size a
  hwx0_6 : ∀ i : grid0.Coords, EltTy.bits .bf16 = 32 ∨ (Rect.block (s := S4096x4096) S512x512.size (cc0_transform_6 i) (hinb0_6 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S4096x4096.size a
  hwx1_1 : ∀ i : grid1.Coords, EltTy.bits .f32 = 32 ∨ (Rect.block (s := S4096x4096) S256x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .bf16 = 32 ∨ (Rect.block (s := S4096x4096) S256x4096.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S4096x4096.size a
  hwx1_3 : ∀ i : grid1.Coords, EltTy.bits .f32 = 32 ∨ (Rect.block (s := S4096x4096) S256x4096.size (cc1_transform_3 i) (hinb1_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf
def dot_S256x256_S256x4096_S256x4096_1_0_0_1_n_n : DotDims S256x256 S256x4096 S256x4096 where
  lhsContracting := [1]
  rhsContracting := [0]
  lhsNonContracting := [0]
  rhsNonContracting := [1]
  lhsBatch := []
  rhsBatch := []
  wf := dot_S256x256_S256x4096_S256x4096_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S512x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S256x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S256x4096.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x4096, .f32⟩
  | .hbm, ⟨22, _⟩ => ⟨S4096x4096, .f32⟩
  | .hbm, ⟨23, _⟩ => ⟨S4096x4096, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  transposes_S4096x4096_S4096x4096_1_0 : S4096x4096.Transposes [1, 0] S4096x4096
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x4096_S4096x4096_1_0_0_1_n_n_wf : DotDims.WF S4096x1024 S1024x4096 S4096x4096 [1] [0] [0] [1] [] []
  dot_S4096x4096_S4096x4096_S4096x4096_1_0_0_1_n_n_wf : DotDims.WF S4096x4096 S4096x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.BitsRegion0.lean ====
/-
  Region 0 of the program (the projection kernel `cc0__qkv_kernel` run over its 8 × 8 grid), at an arbitrary
  contents `V` of the TensorCore's buffers when the region is entered.

  At grid point `t` the body reads four whole staging buffers — the activation block `x` (512 × 1024) and one
  block each of the three weight matrices (1024 × 512) — and overwrites three whole staging buffers with
  `Q = x̂ · Ŵq`, `K = x̂ · Ŵk` (f32, 512 × 512) and `V = bf16 (x̂ · Ŵv)` (bf16, 512 × 512), where `x̂`, `Ŵ` are the
  operands rounded to bf16. Nothing is carried from one grid point to the next: what the body leaves in an output
  buffer is a closed function of the input blocks at that point (`out0_4`, `out0_5`, `out0_6`), and each input
  buffer holds, at every point, the block of its array that the window's index map selects there
  (`before0_0` … `before0_3`), whether or not a transfer refreshed it at that point.

  This file states: the blocks (`iblk0`), the three output functions and that each is the stored payload
  (`out0_4_eq` …), the separation-logic triple of the body on whole buffers (`sound_kernel0`), the per-point data
  of the pipeline (`dat0`) and the body obligation at every grid point (`body_obligation0`).
-/
import proofs.«154024_j88905823027932_2_alg».proof.Proof.Gen.Kernel.Launch
import proofs.«154024_j88905823027932_2_alg».proof.Proof.Gen.Kernel.Skeleton
import proofs.«154024_j88905823027932_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at grid point `t`: the entry contents `V` of the window's array, read through the
    rectangle the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activation block; its block row is the second grid coordinate, which changes at every point): for ANY
    per-point data whose array is `V`'s and whose body leaves the block in place, the current staging buffer holds
    the block at every point. A point at which no transfer ran has the block index of the point before, so the
    buffer still holds this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the first weight block; its block column is the first grid coordinate, which changes once every
    8 points): the same statement. Between two moves the buffer keeps the block, which is the block of every
    point in between. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the second weight block): the same statement. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 (the third weight block): the same statement. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

/-- The whole 512 × 1024 buffer as a rectangle: offset (0, 0), unit strides, the buffer's own extents. -/
abbrev r0_x : Rect S512x1024 := Rect.unit (s := S512x1024) ![0, 0] S512x1024.size inb_S512x1024_S512x1024_0_0
/-- The whole 1024 × 512 buffer as a rectangle. -/
abbrev r0_w : Rect S1024x512 := Rect.unit (s := S1024x512) ![0, 0] S1024x512.size inb_S1024x512_S1024x512_0_0
/-- The whole 512 × 512 buffer as a rectangle. -/
abbrev r0_o : Rect S512x512 := Rect.unit (s := S512x512) ![0, 0] S512x512.size inb_S512x512_S512x512_0_0

/-! ## What the body leaves in each output buffer -/

/-- Output window 4 after the body, from the activation block `x0` and the first weight block `x1`: the one store
    through the whole-buffer rectangle, its payload the f32 product of the two operands rounded to bf16. -/
def out0_4 (x0 : Vec F S512x1024 .f32) (x1 : Vec F S1024x512 .f32) : Vec F S512x512 .f32 :=
  View.canon [⟨r0_o, k0_pay2 (View.ld x0 r0_x) (View.ld x1 r0_w)⟩]
/-- Output window 5 after the body, from the activation block `x0` and the second weight block `x2`. -/
def out0_5 (x0 : Vec F S512x1024 .f32) (x2 : Vec F S1024x512 .f32) : Vec F S512x512 .f32 :=
  View.canon [⟨r0_o, k0_pay3 (View.ld x0 r0_x) (View.ld x2 r0_w)⟩]
/-- Output window 6 after the body, from the activation block `x0` and the third weight block `x3`: the product
    rounded once more, to bf16. -/
def out0_6 (x0 : Vec F S512x1024 .f32) (x3 : Vec F S1024x512 .f32) : Vec F S512x512 .bf16 :=
  View.canon [⟨r0_o, k0_pay4 (View.ld x0 r0_x) (View.ld x3 r0_w)⟩]

/-- One store through the whole-buffer rectangle covers the buffer: the rectangle is the single tile of a tiling of
    the 512 × 512 shape by tiles of its own size (checked by evaluation), whatever the payload and element type. -/
theorem cover0_o {e : EltTy} (p0 : Vec F S512x512 e) (y : S512x512.Idx) :
    ∃ pc ∈ ([⟨r0_o, p0⟩] : List (View.Piece (Elt F) S512x512 e)), y ∈ pc.1.set :=
  View.cover_of_tiled [⟨r0_o, p0⟩] S512x512.size (by rfl) y

/-! ## The body's triple -/

set_option maxHeartbeats 1000000 in
/-- The body on whole staging memrefs: with the four input buffers at read contents `x0` … `x3` and the three output
    buffers at ANY contents (the body reads each output buffer once before overwriting it, and uses nothing of what it
    read), it runs without fault to a continuation that holds the inputs as they were and the outputs at
    `out0_4 x0 x1`, `out0_5 x0 x2`, `out0_6 x0 x3`. What a buffer reads after one covering store over any prior
    contents is the canonical contents of that store. -/
theorem sound_kernel0 (c : Dev nD) (E : Set ℕ) (i : grid0.Coords)
    (arg2 : Memref sig .tc .vmem S512x1024 .f32) (harg2 : arg2.IsWhole) (arg3 : Memref sig .tc .vmem S1024x512 .f32) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .bf16) (harg8 : arg8.IsWhole)
    (x0 : Vec F S512x1024 .f32) (x1 : Vec F S1024x512 .f32) (x2 : Vec F S1024x512 .f32) (x3 : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2) ∗ owns (c : Thread nD τ) arg8 fullShare (out0_6 x0 x3)) -∗ K ⟨⟩))
      ⊢ wp frame (wpE (defs₀ (F := F)) Variants.none c none) E (cc0__qkv_kernel i arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  isplitl [H5]
  · iexists _; isplitr
    swap; · iexact H5
    ipureintro
    exact View.read_writes_eq_canon _ _ _ (cover0_o _)
  iexists _; isplitr
  swap; · iexact H6
  ipureintro
  exact View.read_writes_eq_canon _ _ _ (cover0_o _)

/-! ## The pipeline's per-point data -/

/-- The data of the region on core `c`: the arrays as the region finds them (`V`); after the body at point `t`, each
    input buffer at its block and each output buffer at its function of the input blocks; the invariant "every other
    scoped buffer and the generator register are untouched"; full shares; no transfer left owed by the body. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, refreshed there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is entered with at point `t`: the invariant, the owed transfers, and each window's current staging
    buffer at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the same invariant and owed transfers, each buffer at `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers hold their blocks, so the triple on whole buffers applies at the blocks;
    the invariant and the owed transfers pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every grid point. -/
theorem body_obligation0 (c : Dev nD) : BodyObligation (dat0 (F := F) V c) (defs₀ (F := F)) Variants.none () Set.univ := fun t => by
  rw [bigSep_W0, bigSep_W0]
  exact sound_body0 V c t

end Regions

/-! ## The output functions in closed form

A load through the whole-buffer rectangle reads the buffer, and one store through it leaves its payload: so each output
function is the stored payload at the input blocks themselves. -/

/-- The offsets `(0, 0)`, spelt as the constant zero function. -/
private theorem zeros2 : (![0, 0] : Fin 2 → Nat) = fun _ => 0 := funext fun a => by fin_cases a <;> rfl

/-- Window 4 receives the product of the activation block and the first weight block. -/
theorem out0_4_eq (x0 : Vec F S512x1024 .f32) (x1 : Vec F S1024x512 .f32) : out0_4 x0 x1 = k0_pay2 x0 x1 := by
  unfold out0_4
  rw [View.canon_unit_zero (S := S512x512) zeros2 inb_S512x512_S512x512_0_0,
    View.ld_unit_zero (S := S512x1024) zeros2 inb_S512x1024_S512x1024_0_0,
    View.ld_unit_zero (S := S1024x512) zeros2 inb_S1024x512_S1024x512_0_0]
/-- Window 5 receives the product of the activation block and the second weight block. -/
theorem out0_5_eq (x0 : Vec F S512x1024 .f32) (x2 : Vec F S1024x512 .f32) : out0_5 x0 x2 = k0_pay3 x0 x2 := by
  unfold out0_5
  rw [View.canon_unit_zero (S := S512x512) zeros2 inb_S512x512_S512x512_0_0,
    View.ld_unit_zero (S := S512x1024) zeros2 inb_S512x1024_S512x1024_0_0,
    View.ld_unit_zero (S := S1024x512) zeros2 inb_S1024x512_S1024x512_0_0]
/-- Window 6 receives the product of the activation block and the third weight block, rounded to bf16. -/
theorem out0_6_eq (x0 : Vec F S512x1024 .f32) (x3 : Vec F S1024x512 .f32) : out0_6 x0 x3 = k0_pay4 x0 x3 := by
  unfold out0_6
  rw [View.canon_unit_zero (S := S512x512) zeros2 inb_S512x512_S512x512_0_0,
    View.ld_unit_zero (S := S512x1024) zeros2 inb_S512x1024_S512x1024_0_0,
    View.ld_unit_zero (S := S1024x512) zeros2 inb_S1024x512_S1024x512_0_0]

end Cert.Kernel.Hand

end
-- ==== Proof.BitsAttnBase.lean ====
/-
  The attention region (the second pallas_call) of the kernel as printed, the part every control case shares.
  The grid is 16 × 16: point t = 16·qi + kv handles the query rows 256·qi … 256·qi+255 against the key/value
  rows 256·kv … 256·kv+255.  Three scratch buffers live across the points of one query tile: the weighted sum so
  far (256 × 4096), the running row maximum (256 × 1) and the running row denominator (256 × 1).  The body
  resets them where kv = 0 and writes the output block where kv = 15; elsewhere the output window is idle.
-/
import proofs.«154024_j88905823027932_2_alg».proof.Proof.Gen.Kernel.Launch
import proofs.«154024_j88905823027932_2_alg».proof.Proof.Gen.Kernel.Skeleton
import proofs.«154024_j88905823027932_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query block of the point's tile at every point (it is fetched where kv = 0
    and stays in place for the other fifteen points of the tile). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's staging buffer holds the key block of the point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's staging buffer holds the value block of the point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two conditions, decided over the grid -/

/-- "kv = 0": the point is the first of its query tile. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "kv = 15": the point is the last of its query tile. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point of a tile the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last point of a tile it is live. -/
theorem liveAt1_3 : ∀ t : Fin cfg1.N, cond1_1 (grid1.coords t) → cfg1.idle 3 (grid1.coords t) = false := by decide +kernel

/-! ## The memrefs the body is called with -/

abbrev VO1_3 : View sig .tc .vmem S256x4096 .f32 := (Memref.whole cc1_stg3_0 : Memref sig .tc .vmem S256x4096 .f32).view
abbrev ms1_0 (t : Fin cfg1.N) : Memref sig .tc .vmem S256x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .f32 := win1_3.stage (cfg1.slots t 3)
abbrev hs1_3 (t : Fin cfg1.N) : (ms1_3 t).IsWhole := hstage1_3 ((cfg1.slots t 3).cast nbuf1_3)
/-- The three scratch operands: the weighted sum, the running maximum, the running denominator. -/
abbrev scM1_0 : Memref sig .tc .vmem S256x4096 .f32 := Memref.whole cc1_scratch0
abbrev scM1_1 : Memref sig .tc .vmem S256x1 .f32 := Memref.whole cc1_scratch1
abbrev scM1_2 : Memref sig .tc .vmem S256x1 .f32 := Memref.whole cc1_scratch2
abbrev VS1_0 : View sig .tc .vmem S256x4096 .f32 := scM1_0.view
abbrev VS1_1 : View sig .tc .vmem S256x1 .f32 := scM1_1.view
abbrev VS1_2 : View sig .tc .vmem S256x1 .f32 := scM1_2.view

/-- A scoped buffer of the core held whole at some contents. -/
abbrev stgAny (c : Dev nD) (b : Ref sig .tc) : sProp 𝕄 :=
  iprop(∃ f : Buf (Elt F) ((c : Thread nD τ).loc b), ((c : Thread nD τ).loc b) ↦{fullShare} f)

/-- The projection region's fourteen staging buffers: scoped buffers of the core this region never touches. -/
def other1 (c : Dev nD) : sProp 𝕄 :=
  iprop(stgAny (F := F) c cc0_stg0_0 ∗ stgAny (F := F) c cc0_stg0_1 ∗ stgAny (F := F) c cc0_stg1_0 ∗ stgAny (F := F) c cc0_stg1_1 ∗ stgAny (F := F) c cc0_stg2_0 ∗ stgAny (F := F) c cc0_stg2_1 ∗ stgAny (F := F) c cc0_stg3_0 ∗ stgAny (F := F) c cc0_stg3_1 ∗ stgAny (F := F) c cc0_stg4_0 ∗ stgAny (F := F) c cc0_stg4_1 ∗ stgAny (F := F) c cc0_stg5_0 ∗ stgAny (F := F) c cc0_stg5_1 ∗ stgAny (F := F) c cc0_stg6_0 ∗ stgAny (F := F) c cc0_stg6_1)

/-- The region's scoped rest: those fourteen buffers and the three scratch buffers, each whole at some contents. -/
theorem PhiA1_eq (c : Dev nD) :
    (Pipeline.ΦA spec1 c : sProp 𝕄)
      = iprop(iprop(stgAny (F := F) c cc0_stg0_0 ∗ stgAny (F := F) c cc0_stg0_1 ∗ stgAny (F := F) c cc0_stg1_0 ∗ stgAny (F := F) c cc0_stg1_1 ∗ stgAny (F := F) c cc0_stg2_0 ∗ stgAny (F := F) c cc0_stg2_1 ∗ stgAny (F := F) c cc0_stg3_0 ∗ stgAny (F := F) c cc0_stg3_1 ∗ stgAny (F := F) c cc0_stg4_0 ∗ stgAny (F := F) c cc0_stg4_1 ∗ stgAny (F := F) c cc0_stg5_0 ∗ stgAny (F := F) c cc0_stg5_1 ∗ stgAny (F := F) c cc0_stg6_0 ∗ stgAny (F := F) c cc0_stg6_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The scoped rest split into the untouched part, the three scratch buffers and the generator register. -/
theorem PhiA1_split (c : Dev nD) :
    (Pipeline.ΦA spec1 c : sProp 𝕄) ⊢ iprop(other1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold other1
  iintro ⟨⟨H0, H1, H2, H3, H4, H5, H6, H7, H8, H9, H10, H11, H12, H13, HS0, HS1, HS2⟩, Hg⟩
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [HS0]; · iexact HS0
  isplitl [HS1]; · iexact HS1
  isplitl [HS2]; · iexact HS2
  iexact Hg

/-- … and put back together. -/
theorem PhiA1_join (c : Dev nD) :
    iprop(other1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  rw [PhiA1_eq]; unfold other1
  iintro ⟨⟨H0, H1, H2, H3, H4, H5, H6, H7, H8, H9, H10, H11, H12, H13⟩, HS0, HS1, HS2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    iexact HS2
  iexact Hg

end Cert.Kernel.Hand

end
-- ==== Proof.BitsAttnRunA.lean ====
/-
  The attention body at the first point of a query tile (not the last): it resets the three scratch buffers
  (maximum −∞, denominator 0, weighted sum 0) whatever they held, then accumulates the first block; the output
  window is left untouched.
-/
import proofs.«154024_j88905823027932_2_alg».proof.Proof.BitsAttnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first), with the proof that the body runs to the continuation holding them written. -/
noncomputable def kernelRun1_A (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S256x4096 .f32) (x2 : Vec F S256x4096 .bf16) :
    Σ' (LS0 : List (View.Piece (Elt F) S256x4096 .f32)) (LS1 : List (View.Piece (Elt F) S256x1 .f32)), { LS2 : List (View.Piece (Elt F) S256x1 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.BitsAttnRunB.lean ====
/-
  The attention body at a point that is neither the first nor the last of its query tile: it finds the three
  scratch buffers at what the point before left, rescales them by exp(old maximum − new maximum), adds the
  block's contribution, and leaves the output window untouched.
-/
import proofs.«154024_j88905823027932_2_alg».proof.Proof.BitsAttnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three scratch buffers (last first), with the proof that the body runs
    from the inputs at their blocks, the idle output buffer at any contents (handed back untouched) and the scratch
    at the previous point's contents to the continuation holding those pieces written. -/
noncomputable def kernelRun1_B (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S256x4096 .f32) (x2 : Vec F S256x4096 .bf16)
    (xs0 : Vec F S256x4096 .f32) (xs1 : Vec F S256x1 .f32) (xs2 : Vec F S256x1 .f32) :
    Σ' (LS0 : List (View.Piece (Elt F) S256x4096 .f32)) (LS1 : List (View.Piece (Elt F) S256x1 .f32)), { LS2 : List (View.Piece (Elt F) S256x1 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.BitsAttnRunC.lean ====
/-
  The attention body at the last point of a query tile (not the first): it updates the three scratch buffers as at
  any later point and then stores the quotient weighted sum / denominator into the output block.
-/
import proofs.«154024_j88905823027932_2_alg».proof.Proof.BitsAttnBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first), with the proof that the body runs to the continuation holding them written. -/
noncomputable def kernelRun1_C (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S256x4096 .f32) (x2 : Vec F S256x4096 .bf16)
    (xs0 : Vec F S256x4096 .f32) (xs1 : Vec F S256x1 .f32) (xs2 : Vec F S256x1 .f32) :
    Σ' (L3 : List (View.Piece (Elt F) S256x4096 .f32)) (LS0 : List (View.Piece (Elt F) S256x4096 .f32)) (LS1 : List (View.Piece (Elt F) S256x1 .f32)), { LS2 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.BitsAttnFrame.lean ====
/-
  The attention region of the kernel as printed, point by point: what each control case leaves in the three scratch
  buffers and the output block, the recursion over the 256 grid points, the invariant that carries the scratch
  buffers from one point to the next, and the body obligation of the pipeline's proof data.
-/
import proofs.«154024_j88905823027932_2_alg».proof.Proof.BitsAttnRunA
import proofs.«154024_j88905823027932_2_alg».proof.Proof.BitsAttnRunB
import proofs.«154024_j88905823027932_2_alg».proof.Proof.BitsAttnRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- In this case the body's stores into scratch 0 cover it. -/
theorem scover1_A_0 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) (y : S256x4096.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S256x4096.size (by sl_kernel_rfl) y

/-- What this case leaves in scratch 0: its pieces read back. -/
def sout1_A_0 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) : Vec F S256x4096 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)

/-- In this case the body's stores into scratch 1 cover it. -/
theorem scover1_A_1 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) (y : S256x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S256x1.size (by sl_kernel_rfl) y

/-- What this case leaves in scratch 1: its pieces read back. -/
def sout1_A_1 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) : Vec F S256x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)

/-- In this case the body's stores into scratch 2 cover it. -/
theorem scover1_A_2 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) (y : S256x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S256x1.size (by sl_kernel_rfl) y

/-- What this case leaves in scratch 2: its pieces read back. -/
def sout1_A_2 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) : Vec F S256x1 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.1)

/-- In this case the body's stores into scratch 0 cover it. -/
theorem scover1_B_0 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x4096.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S256x4096.size (by sl_kernel_rfl) y

/-- What this case leaves in scratch 0: its pieces read back. -/
def sout1_B_0 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x4096 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).1)

/-- In this case the body's stores into scratch 1 cover it. -/
theorem scover1_B_1 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S256x1.size (by sl_kernel_rfl) y

/-- What this case leaves in scratch 1: its pieces read back. -/
def sout1_B_1 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.1)

/-- In this case the body's stores into scratch 2 cover it. -/
theorem scover1_B_2 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S256x1.size (by sl_kernel_rfl) y

/-- What this case leaves in scratch 2: its pieces read back. -/
def sout1_B_2 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x1 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.1)

/-- In this case the body's stores into scratch 0 cover it. -/
theorem scover1_C_0 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x4096.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S256x4096.size (by sl_kernel_rfl) y

/-- What this case leaves in scratch 0: its pieces read back. -/
def sout1_C_0 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x4096 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- In this case the body's stores into scratch 1 cover it. -/
theorem scover1_C_1 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S256x1.size (by sl_kernel_rfl) y

/-- What this case leaves in scratch 1: its pieces read back. -/
def sout1_C_1 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- In this case the body's stores into scratch 2 cover it. -/
theorem scover1_C_2 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x1.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S256x1.size (by sl_kernel_rfl) y

/-- What this case leaves in scratch 2: its pieces read back. -/
def sout1_C_2 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x1 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- At the last point of a tile the body's store covers the output block. -/
theorem cover1_C_3 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x4096.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S256x4096.size (by sl_kernel_rfl) y

/-- What the last point of a tile leaves in the output block. -/
def out1_C_3 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x4096 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- A placeholder for the output block where the window is idle (nothing reads it there). -/
def out1_idle : Vec F S256x4096 .f32 := VO1_3.read (Elt F) VO1_3.junk

section
variable (V : (c : Dev nD) → (b : Ref sig .tc) → Buf (Elt F) ((c : Thread nD τ).loc b))

/-! ## What the output block and the three scratch buffers hold after each point -/

/-- After the body at position `n`: (the output block, the weighted sum, the running maximum, the running denominator).
    A first point of a tile starts afresh; any other point continues from what the point before left. -/
def outsAt1 (c : Dev nD) : (n : ℕ) → n < cfg1.N → Vec F S256x4096 .f32 × Vec F S256x4096 .f32 × Vec F S256x1 .f32 × Vec F S256x1 .f32
  | 0, hn => (out1_idle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_idle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_idle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 16 = 0) (h1 : ¬t.val % 16 = 15) :
    outsAt1 V c t.val t.isLt = (out1_idle, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_idle, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's start the scoped rest as the launch left it; afterwards the projection
    region's buffers untouched, the three scratch buffers at what the point before left, the generator register. -/
def PhiS1 (c : Dev nD) : (n : ℕ) → n ≤ cfg1.N → sProp 𝕄
  | 0, _ => Pipeline.ΦA spec1 c
  | n + 1, hn => iprop(other1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(other1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl

theorem PhiS1_pos (c : Dev nD) (n : ℕ) (h : n ≤ cfg1.N) (hz : n ≠ 0) :
    PhiS1 V c n h = iprop(other1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-! ## The proof data -/

/-- The region's proof data on core `c`: the arrays as the region finds them; after the body at point `t` each input
    buffer at its block and the output buffer at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point: the inputs' buffers hold their blocks; the point's position in its tile says which case runs;
    the invariant hands the body the scratch buffers (at anything before the very first point, else at what the point
    before left) and takes them back at this point's contents; the output buffer is stored only at a tile's last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨Hoth, HS0, HS1, HS2, Hg⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        · isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [Hoth HS0 HS1 HS2 Hg]
          · isplitl [Hoth]; · iexact Hoth
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
      · rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        · isplitl [H0]; · iexact H0
          isplitl [H1]; · iexact H1
          isplitl [H2]; · iexact H2
          isplitl [H3]; · iexact H3
          isplitl [HS0]; · iexists _; iexact HS0
          isplitl [HS1]; · iexists _; iexact HS1
          isplitl [HS2]; · iexists _; iexact HS2
          iintro ⟨H0, H1, H2, H3, ⟨%es0, HS0⟩, ⟨%es1, HS1⟩, ⟨%es2, HS2⟩⟩
          isplitl [Hoth HS0 HS1 HS2 Hg]
          · isplitl [Hoth]; · iexact Hoth
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
  · by_cases h1 : t.val % 16 = 15
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [show (dat1 V c).leavesExact 3 t = owns (c : Thread nD τ) (ms1_3 t) fullShare ((dat1 V c).after 3 t) from by
          unfold Dat.leavesExact; rw [liveAt1_3 t ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        · isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [Hoth HS0 HS1 HS2 Hg]
          · isplitl [Hoth]; · iexact Hoth
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
        · isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [Hoth HS0 HS1 HS2 Hg]
          · isplitl [Hoth]; · iexact Hoth
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            isplitl [HS2]
            · unfold owns; iexists _; isplitr
              swap; · iexact HS2
              ipureintro; exact View.read_writes_of_cover _ _ _ _ _ (scover1_B_2 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the scoped rest back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨Hoth, HS0, HS1, HS2, Hg⟩
  iapply (PhiA1_join (F := F) c)
  isplitl [Hoth]; · iexact Hoth
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 256 := N_1; omega)

end

end Cert.Kernel.Hand

end
-- ==== Proof.BitsRun.lean ====
/-
  The whole run of the kernel as printed's @main: the projection region, then the attention region, each entered from
  the unscoped buffers at the contents the one before left.  At the end every unscoped buffer of the core holds what
  the two regions' write-backs leave (`W2`): the argument arrays as launched, the projections, and the result.
-/
import proofs.«154024_j88905823027932_2_alg».proof.Proof.BitsRegion0
import proofs.«154024_j88905823027932_2_alg».proof.Proof.BitsAttnFrame
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the projection region: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the attention region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched: each is an input array of the projection region and no array of the attention region -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = V0 m c main_arg0 := (W1_arr m c 0).trans (((dat0 (V0 m) c).arrAt_in 0 rfl _).trans (A_eq0 (V0 m) c 0))
    _ = m ((c : Thread nD τ).loc main_arg0) := rfl

theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = V0 m c main_arg1 := (W1_arr m c 1).trans (((dat0 (V0 m) c).arrAt_in 1 rfl _).trans (A_eq0 (V0 m) c 1))
    _ = m ((c : Thread nD τ).loc main_arg1) := rfl

theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = V0 m c main_arg2 := (W1_arr m c 2).trans (((dat0 (V0 m) c).arrAt_in 2 rfl _).trans (A_eq0 (V0 m) c 2))
    _ = m ((c : Thread nD τ).loc main_arg2) := rfl

theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = V0 m c main_arg3 := (W1_arr m c 3).trans (((dat0 (V0 m) c).arrAt_in 3 rfl _).trans (A_eq0 (V0 m) c 3))
    _ = m ((c : Thread nD τ).loc main_arg3) := rfl

/-- The result array at the end is what the attention region's write-backs leave. -/
theorem W2_main_v1 (c : Dev nD) : W2 m c (Proc.devRef .tc main_v1) = (dat1 (V1 m) c).arrAt 3 cfg1.N := W2_arr m c 3
/-- The three projections, as the attention region finds them. -/
theorem V1_main_v0_0 (c : Dev nD) : V1 m c main_v0_0 = (dat0 (V0 m) c).arrAt 4 cfg0.N := W1_arr m c 4
theorem V1_main_v0_1 (c : Dev nD) : V1 m c main_v0_1 = (dat0 (V0 m) c).arrAt 5 cfg0.N := W1_arr m c 5
theorem V1_main_v0_2 (c : Dev nD) : V1 m c main_v0_2 = (dat0 (V0 m) c).arrAt 6 cfg0.N := W1_arr m c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The projection region: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from `W1`, left at `W2`; its invariant carries the scratch buffers between points. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (V1 m) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V1 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and every
    unscoped buffer of every core ends at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_main_arg0 m c), (h c _ (mem_uc main_arg1 (by decide))).trans (W2_main_arg1 m c),
     (h c _ (mem_uc main_arg2 (by decide))).trans (W2_main_arg2 m c), (h c _ (mem_uc main_arg3 (by decide))).trans (W2_main_arg3 m c)⟩) (run_all m ρ)

/-- The same run with the result array named: what the attention region's write-backs leave in it. -/
theorem run_value : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1 (by decide))).trans (W2_main_v1 m c),
     (h c _ (mem_uc main_arg0 (by decide))).trans (W2_main_arg0 m c), (h c _ (mem_uc main_arg1 (by decide))).trans (W2_main_arg1 m c),
     (h c _ (mem_uc main_arg2 (by decide))).trans (W2_main_arg2 m c), (h c _ (mem_uc main_arg3 (by decide))).trans (W2_main_arg3 m c)⟩) (run_all m ρ)

end Cert.Kernel.Hand

end
-- ==== Proof.IdealRegion0.lean ====
/-
  Region 0 of the program (the projection kernel `cc0__qkv_kernel` run over its 8 × 8 grid), at an arbitrary
  contents `V` of the TensorCore's buffers when the region is entered.

  At grid point `t` the body reads four whole staging buffers — the activation block `x` (512 × 1024) and one
  block each of the three weight matrices (1024 × 512) — and overwrites three whole staging buffers with
  `Q = x̂ · Ŵq`, `K = x̂ · Ŵk` (f32, 512 × 512) and `V = bf16 (x̂ · Ŵv)` (bf16, 512 × 512), where `x̂`, `Ŵ` are the
  operands rounded to bf16. Nothing is carried from one grid point to the next: what the body leaves in an output
  buffer is a closed function of the input blocks at that point (`out0_4`, `out0_5`, `out0_6`), and each input
  buffer holds, at every point, the block of its array that the window's index map selects there
  (`before0_0` … `before0_3`), whether or not a transfer refreshed it at that point.

  This file states: the blocks (`iblk0`), the three output functions and that each is the stored payload
  (`out0_4_eq` …), the separation-logic triple of the body on whole buffers (`sound_kernel0`), the per-point data
  of the pipeline (`dat0`) and the body obligation at every grid point (`body_obligation0`).
-/
import proofs.«154024_j88905823027932_2_alg».proof.Proof.Gen.KernelIdeal.Launch
import proofs.«154024_j88905823027932_2_alg».proof.Proof.Gen.KernelIdeal.Skeleton
import proofs.«154024_j88905823027932_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! ## The windows' blocks -/

/-- Window `w`'s block at grid point `t`: the entry contents `V` of the window's array, read through the
    rectangle the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 (the activation block; its block row is the second grid coordinate, which changes at every point): for ANY
    per-point data whose array is `V`'s and whose body leaves the block in place, the current staging buffer holds
    the block at every point. A point at which no transfer ran has the block index of the point before, so the
    buffer still holds this point's block. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 (the first weight block; its block column is the first grid coordinate, which changes once every
    8 points): the same statement. Between two moves the buffer keeps the block, which is the block of every
    point in between. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 (the second weight block): the same statement. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 (the third weight block): the same statement. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

/-- The whole 512 × 1024 buffer as a rectangle: offset (0, 0), unit strides, the buffer's own extents. -/
abbrev r0_x : Rect S512x1024 := Rect.unit (s := S512x1024) ![0, 0] S512x1024.size inb_S512x1024_S512x1024_0_0
/-- The whole 1024 × 512 buffer as a rectangle. -/
abbrev r0_w : Rect S1024x512 := Rect.unit (s := S1024x512) ![0, 0] S1024x512.size inb_S1024x512_S1024x512_0_0
/-- The whole 512 × 512 buffer as a rectangle. -/
abbrev r0_o : Rect S512x512 := Rect.unit (s := S512x512) ![0, 0] S512x512.size inb_S512x512_S512x512_0_0

/-! ## What the body leaves in each output buffer -/

/-- Output window 4 after the body, from the activation block `x0` and the first weight block `x1`: the one store
    through the whole-buffer rectangle, its payload the f32 product of the two operands rounded to bf16. -/
def out0_4 (x0 : Vec F S512x1024 .f32) (x1 : Vec F S1024x512 .f32) : Vec F S512x512 .f32 :=
  View.canon [⟨r0_o, k0_pay2 (View.ld x0 r0_x) (View.ld x1 r0_w)⟩]
/-- Output window 5 after the body, from the activation block `x0` and the second weight block `x2`. -/
def out0_5 (x0 : Vec F S512x1024 .f32) (x2 : Vec F S1024x512 .f32) : Vec F S512x512 .f32 :=
  View.canon [⟨r0_o, k0_pay3 (View.ld x0 r0_x) (View.ld x2 r0_w)⟩]
/-- Output window 6 after the body, from the activation block `x0` and the third weight block `x3`: the product
    rounded once more, to bf16. -/
def out0_6 (x0 : Vec F S512x1024 .f32) (x3 : Vec F S1024x512 .f32) : Vec F S512x512 .bf16 :=
  View.canon [⟨r0_o, k0_pay4 (View.ld x0 r0_x) (View.ld x3 r0_w)⟩]

/-- One store through the whole-buffer rectangle covers the buffer: the rectangle is the single tile of a tiling of
    the 512 × 512 shape by tiles of its own size (checked by evaluation), whatever the payload and element type. -/
theorem cover0_o {e : EltTy} (p0 : Vec F S512x512 e) (y : S512x512.Idx) :
    ∃ pc ∈ ([⟨r0_o, p0⟩] : List (View.Piece (Elt F) S512x512 e)), y ∈ pc.1.set :=
  View.cover_of_tiled [⟨r0_o, p0⟩] S512x512.size (by rfl) y

/-! ## The body's triple -/

set_option maxHeartbeats 1000000 in
/-- The body on whole staging memrefs: with the four input buffers at read contents `x0` … `x3` and the three output
    buffers at ANY contents (the body reads each output buffer once before overwriting it, and uses nothing of what it
    read), it runs without fault to a continuation that holds the inputs as they were and the outputs at
    `out0_4 x0 x1`, `out0_5 x0 x2`, `out0_6 x0 x3`. What a buffer reads after one covering store over any prior
    contents is the canonical contents of that store. -/
theorem sound_kernel0 (c : Dev nD) (E : Set ℕ) (i : grid0.Coords)
    (arg2 : Memref sig .tc .vmem S512x1024 .f32) (harg2 : arg2.IsWhole) (arg3 : Memref sig .tc .vmem S1024x512 .f32) (harg3 : arg3.IsWhole)
    (arg4 : Memref sig .tc .vmem S1024x512 .f32) (harg4 : arg4.IsWhole) (arg5 : Memref sig .tc .vmem S1024x512 .f32) (harg5 : arg5.IsWhole)
    (arg6 : Memref sig .tc .vmem S512x512 .f32) (harg6 : arg6.IsWhole) (arg7 : Memref sig .tc .vmem S512x512 .f32) (harg7 : arg7.IsWhole)
    (arg8 : Memref sig .tc .vmem S512x512 .bf16) (harg8 : arg8.IsWhole)
    (x0 : Vec F S512x1024 .f32) (x1 : Vec F S1024x512 .f32) (x2 : Vec F S1024x512 .f32) (x3 : Vec F S1024x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (out0_4 x0 x1) ∗ owns (c : Thread nD τ) arg7 fullShare (out0_5 x0 x2) ∗ owns (c : Thread nD τ) arg8 fullShare (out0_6 x0 x3)) -∗ K ⟨⟩))
      ⊢ wp frame (wpE (defs₀ (F := F)) Variants.none c none) E (cc0__qkv_kernel i arg2 harg2 arg3 harg3 arg4 harg4 arg5 harg5 arg6 harg6 arg7 harg7 arg8 harg8) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_o _)
  isplitl [H5]
  · iexists _; isplitr
    swap; · iexact H5
    ipureintro
    exact View.read_writes_eq_canon _ _ _ (cover0_o _)
  iexists _; isplitr
  swap; · iexact H6
  ipureintro
  exact View.read_writes_eq_canon _ _ _ (cover0_o _)

/-! ## The pipeline's per-point data -/

/-- The data of the region on core `c`: the arrays as the region finds them (`V`); after the body at point `t`, each
    input buffer at its block and each output buffer at its function of the input blocks; the invariant "every other
    scoped buffer and the generator register are untouched"; full shares; no transfer left owed by the body. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, refreshed there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is entered with at point `t`: the invariant, the owed transfers, and each window's current staging
    buffer at what the pipeline left there. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What it returns: the same invariant and owed transfers, each buffer at `after`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the input buffers hold their blocks, so the triple on whole buffers applies at the blocks;
    the invariant and the owed transfers pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the region, at every grid point. -/
theorem body_obligation0 (c : Dev nD) : BodyObligation (dat0 (F := F) V c) (defs₀ (F := F)) Variants.none () Set.univ := fun t => by
  rw [bigSep_W0, bigSep_W0]
  exact sound_body0 V c t

end Regions

/-! ## The output functions in closed form

A load through the whole-buffer rectangle reads the buffer, and one store through it leaves its payload: so each output
function is the stored payload at the input blocks themselves. -/

/-- The offsets `(0, 0)`, spelt as the constant zero function. -/
private theorem zeros2 : (![0, 0] : Fin 2 → Nat) = fun _ => 0 := funext fun a => by fin_cases a <;> rfl

/-- Window 4 receives the product of the activation block and the first weight block. -/
theorem out0_4_eq (x0 : Vec F S512x1024 .f32) (x1 : Vec F S1024x512 .f32) : out0_4 x0 x1 = k0_pay2 x0 x1 := by
  unfold out0_4
  rw [View.canon_unit_zero (S := S512x512) zeros2 inb_S512x512_S512x512_0_0,
    View.ld_unit_zero (S := S512x1024) zeros2 inb_S512x1024_S512x1024_0_0,
    View.ld_unit_zero (S := S1024x512) zeros2 inb_S1024x512_S1024x512_0_0]
/-- Window 5 receives the product of the activation block and the second weight block. -/
theorem out0_5_eq (x0 : Vec F S512x1024 .f32) (x2 : Vec F S1024x512 .f32) : out0_5 x0 x2 = k0_pay3 x0 x2 := by
  unfold out0_5
  rw [View.canon_unit_zero (S := S512x512) zeros2 inb_S512x512_S512x512_0_0,
    View.ld_unit_zero (S := S512x1024) zeros2 inb_S512x1024_S512x1024_0_0,
    View.ld_unit_zero (S := S1024x512) zeros2 inb_S1024x512_S1024x512_0_0]
/-- Window 6 receives the product of the activation block and the third weight block, rounded to bf16. -/
theorem out0_6_eq (x0 : Vec F S512x1024 .f32) (x3 : Vec F S1024x512 .f32) : out0_6 x0 x3 = k0_pay4 x0 x3 := by
  unfold out0_6
  rw [View.canon_unit_zero (S := S512x512) zeros2 inb_S512x512_S512x512_0_0,
    View.ld_unit_zero (S := S512x1024) zeros2 inb_S512x1024_S512x1024_0_0,
    View.ld_unit_zero (S := S1024x512) zeros2 inb_S1024x512_S1024x512_0_0]

end Cert.KernelIdeal.Hand

end
-- ==== Proof.IdealAttnBase.lean ====
/-
  The attention region (the second pallas_call) of the idealized kernel, the part every control case shares.
  The grid is 16 × 16: point t = 16·qi + kv handles the query rows 256·qi … 256·qi+255 against the key/value
  rows 256·kv … 256·kv+255.  Three scratch buffers live across the points of one query tile: the weighted sum so
  far (256 × 4096), the running row maximum (256 × 1) and the running row denominator (256 × 1).  The body
  resets them where kv = 0 and writes the output block where kv = 15; elsewhere the output window is idle.
-/
import proofs.«154024_j88905823027932_2_alg».proof.Proof.Gen.KernelIdeal.Launch
import proofs.«154024_j88905823027932_2_alg».proof.Proof.Gen.KernelIdeal.Skeleton
import proofs.«154024_j88905823027932_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds the query block of the point's tile at every point (it is fetched where kv = 0
    and stays in place for the other fifteen points of the tile). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The key window's staging buffer holds the key block of the point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The value window's staging buffer holds the value block of the point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
end

/-! ## The body's two conditions, decided over the grid -/

/-- "kv = 0": the point is the first of its query tile. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 16 = 0 :=
  (by decide +kernel : ∀ t : Fin grid1.N, cond1_0 (grid1.coords t) ↔ t.val % 16 = 0)
/-- "kv = 15": the point is the last of its query tile. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last point of a tile the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last point of a tile it is live. -/
theorem liveAt1_3 : ∀ t : Fin cfg1.N, cond1_1 (grid1.coords t) → cfg1.idle 3 (grid1.coords t) = false := by decide +kernel

/-! ## The memrefs the body is called with -/

abbrev VO1_3 : View sig .tc .vmem S256x4096 .f32 := (Memref.whole cc1_stg3_0 : Memref sig .tc .vmem S256x4096 .f32).view
abbrev ms1_0 (t : Fin cfg1.N) : Memref sig .tc .vmem S256x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .f32 := win1_3.stage (cfg1.slots t 3)
abbrev hs1_3 (t : Fin cfg1.N) : (ms1_3 t).IsWhole := hstage1_3 ((cfg1.slots t 3).cast nbuf1_3)
/-- The three scratch operands: the weighted sum, the running maximum, the running denominator. -/
abbrev scM1_0 : Memref sig .tc .vmem S256x4096 .f32 := Memref.whole cc1_scratch0
abbrev scM1_1 : Memref sig .tc .vmem S256x1 .f32 := Memref.whole cc1_scratch1
abbrev scM1_2 : Memref sig .tc .vmem S256x1 .f32 := Memref.whole cc1_scratch2
abbrev VS1_0 : View sig .tc .vmem S256x4096 .f32 := scM1_0.view
abbrev VS1_1 : View sig .tc .vmem S256x1 .f32 := scM1_1.view
abbrev VS1_2 : View sig .tc .vmem S256x1 .f32 := scM1_2.view

/-- A scoped buffer of the core held whole at some contents. -/
abbrev stgAny (c : Dev nD) (b : Ref sig .tc) : sProp 𝕄 :=
  iprop(∃ f : Buf (Elt F) ((c : Thread nD τ).loc b), ((c : Thread nD τ).loc b) ↦{fullShare} f)

/-- The projection region's fourteen staging buffers: scoped buffers of the core this region never touches. -/
def other1 (c : Dev nD) : sProp 𝕄 :=
  iprop(stgAny (F := F) c cc0_stg0_0 ∗ stgAny (F := F) c cc0_stg0_1 ∗ stgAny (F := F) c cc0_stg1_0 ∗ stgAny (F := F) c cc0_stg1_1 ∗ stgAny (F := F) c cc0_stg2_0 ∗ stgAny (F := F) c cc0_stg2_1 ∗ stgAny (F := F) c cc0_stg3_0 ∗ stgAny (F := F) c cc0_stg3_1 ∗ stgAny (F := F) c cc0_stg4_0 ∗ stgAny (F := F) c cc0_stg4_1 ∗ stgAny (F := F) c cc0_stg5_0 ∗ stgAny (F := F) c cc0_stg5_1 ∗ stgAny (F := F) c cc0_stg6_0 ∗ stgAny (F := F) c cc0_stg6_1)

/-- The region's scoped rest: those fourteen buffers and the three scratch buffers, each whole at some contents. -/
theorem PhiA1_eq (c : Dev nD) :
    (Pipeline.ΦA spec1 c : sProp 𝕄)
      = iprop(iprop(stgAny (F := F) c cc0_stg0_0 ∗ stgAny (F := F) c cc0_stg0_1 ∗ stgAny (F := F) c cc0_stg1_0 ∗ stgAny (F := F) c cc0_stg1_1 ∗ stgAny (F := F) c cc0_stg2_0 ∗ stgAny (F := F) c cc0_stg2_1 ∗ stgAny (F := F) c cc0_stg3_0 ∗ stgAny (F := F) c cc0_stg3_1 ∗ stgAny (F := F) c cc0_stg4_0 ∗ stgAny (F := F) c cc0_stg4_1 ∗ stgAny (F := F) c cc0_stg5_0 ∗ stgAny (F := F) c cc0_stg5_1 ∗ stgAny (F := F) c cc0_stg6_0 ∗ stgAny (F := F) c cc0_stg6_1 ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-- The scoped rest split into the untouched part, the three scratch buffers and the generator register. -/
theorem PhiA1_split (c : Dev nD) :
    (Pipeline.ΦA spec1 c : sProp 𝕄) ⊢ iprop(other1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  rw [PhiA1_eq]; unfold other1
  iintro ⟨⟨H0, H1, H2, H3, H4, H5, H6, H7, H8, H9, H10, H11, H12, H13, HS0, HS1, HS2⟩, Hg⟩
  isplitl [H0 H1 H2 H3 H4 H5 H6 H7 H8 H9 H10 H11 H12 H13]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  isplitl [HS0]; · iexact HS0
  isplitl [HS1]; · iexact HS1
  isplitl [HS2]; · iexact HS2
  iexact Hg

/-- … and put back together. -/
theorem PhiA1_join (c : Dev nD) :
    iprop(other1 (F := F) c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  rw [PhiA1_eq]; unfold other1
  iintro ⟨⟨H0, H1, H2, H3, H4, H5, H6, H7, H8, H9, H10, H11, H12, H13⟩, HS0, HS1, HS2, Hg⟩
  isplitr [Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    iexact HS2
  iexact Hg

end Cert.KernelIdeal.Hand

end
-- ==== Proof.IdealAttnRunA.lean ====
/-
  The attention body at the first point of a query tile (not the last): it resets the three scratch buffers
  (maximum −∞, denominator 0, weighted sum 0) whatever they held, then accumulates the first block; the output
  window is left untouched.
-/
import proofs.«154024_j88905823027932_2_alg».proof.Proof.IdealAttnBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first), with the proof that the body runs to the continuation holding them written. -/
noncomputable def kernelRun1_A (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i)
    (x0 : Vec F S256x4096 .f32) (x1 : Vec F S256x4096 .f32) (x2 : Vec F S256x4096 .bf16) :
    Σ' (LS0 : List (View.Piece (Elt F) S256x4096 .f32)) (LS1 : List (View.Piece (Elt F) S256x1 .f32)), { LS2 : List (View.Piece (Elt F) S256x1 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.IdealAttnRunB.lean ====
/-
  The attention body at a point that is neither the first nor the last of its query tile: it finds the three
  scratch buffers at what the point before left, rescales them by exp(old maximum − new maximum), adds the
  block's contribution, and leaves the output window untouched.
-/
import proofs.«154024_j88905823027932_2_alg».proof.Proof.IdealAttnBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the three scratch buffers (last first), with the proof that the body runs
    from the inputs at their blocks, the idle output buffer at any contents (handed back untouched) and the scratch
    at the previous point's contents to the continuation holding those pieces written. -/
noncomputable def kernelRun1_B (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i)
    (x0 : Vec F S256x4096 .f32) (x1 : Vec F S256x4096 .f32) (x2 : Vec F S256x4096 .bf16)
    (xs0 : Vec F S256x4096 .f32) (xs1 : Vec F S256x1 .f32) (xs2 : Vec F S256x1 .f32) :
    Σ' (LS0 : List (View.Piece (Elt F) S256x4096 .f32)) (LS1 : List (View.Piece (Elt F) S256x1 .f32)), { LS2 : List (View.Piece (Elt F) S256x1 .f32) //
      ∀ (xi3 : Vec F S256x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.IdealAttnRunC.lean ====
/-
  The attention body at the last point of a query tile (not the first): it updates the three scratch buffers as at
  any later point and then stores the quotient weighted sum / denominator into the output block.
-/
import proofs.«154024_j88905823027932_2_alg».proof.Proof.IdealAttnBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave (last first), with the proof that the body runs to the continuation holding them written. -/
noncomputable def kernelRun1_C (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i)
    (x0 : Vec F S256x4096 .f32) (x1 : Vec F S256x4096 .f32) (x2 : Vec F S256x4096 .bf16)
    (xs0 : Vec F S256x4096 .f32) (xs1 : Vec F S256x1 .f32) (xs2 : Vec F S256x1 .f32) :
    Σ' (L3 : List (View.Piece (Elt F) S256x4096 .f32)) (LS0 : List (View.Piece (Elt F) S256x4096 .f32)) (LS1 : List (View.Piece (Elt F) S256x1 .f32)), { LS2 : List (View.Piece (Elt F) S256x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.IdealAttnFrame.lean ====
/-
  The attention region of the idealized kernel, point by point: what each control case leaves in the three scratch
  buffers and the output block, the recursion over the 256 grid points, the invariant that carries the scratch
  buffers from one point to the next, and the body obligation of the pipeline's proof data.
-/
import proofs.«154024_j88905823027932_2_alg».proof.Proof.IdealAttnRunA
import proofs.«154024_j88905823027932_2_alg».proof.Proof.IdealAttnRunB
import proofs.«154024_j88905823027932_2_alg».proof.Proof.IdealAttnRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- In this case the body's stores into scratch 0 cover it. -/
theorem scover1_A_0 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) (y : S256x4096.Idx) :
    ∃ pc ∈ (kernelRun1_A c i arg2 harg2 arg3 harg3 arg4 harg4 arg5 harg5 arg6 harg6 arg7 harg7 arg8 harg8 hc0 hc1 x0 x1 x2).1, y ∈ pc.1.set :=
  View.cover_of_tiledL (kernelRun1_A c i arg2 harg2 arg3 harg3 arg4 harg4 arg5 harg5 arg6 harg6 arg7 harg7 arg8 harg8 hc0 hc1 x0 x1 x2).1 S256x4096.size (by sl_kernel_rfl) y

/-- What this case leaves in scratch 0: its pieces read back. -/
def sout1_A_0 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) : Vec F S256x4096 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).1)

/-- In this case the body's stores into scratch 1 cover it. -/
theorem scover1_A_1 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) (y : S256x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S256x1.size (by sl_kernel_rfl) y

/-- What this case leaves in scratch 1: its pieces read back. -/
def sout1_A_1 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) : Vec F S256x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.1)

/-- In this case the body's stores into scratch 2 cover it. -/
theorem scover1_A_2 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) (y : S256x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S256x1.size (by sl_kernel_rfl) y

/-- What this case leaves in scratch 2: its pieces read back. -/
def sout1_A_2 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) : Vec F S256x1 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.1)

/-- In this case the body's stores into scratch 0 cover it. -/
theorem scover1_B_0 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x4096.Idx) :
    ∃ pc ∈ (kernelRun1_B c i arg2 harg2 arg3 harg3 arg4 harg4 arg5 harg5 arg6 harg6 arg7 harg7 arg8 harg8 hc0 hc1 x0 x1 x2 xs0 xs1 xs2).1, y ∈ pc.1.set :=
  View.cover_of_tiledL (kernelRun1_B c i arg2 harg2 arg3 harg3 arg4 harg4 arg5 harg5 arg6 harg6 arg7 harg7 arg8 harg8 hc0 hc1 x0 x1 x2 xs0 xs1 xs2).1 S256x4096.size (by sl_kernel_rfl) y

/-- What this case leaves in scratch 0: its pieces read back. -/
def sout1_B_0 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x4096 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).1)

/-- In this case the body's stores into scratch 1 cover it. -/
theorem scover1_B_1 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S256x1.size (by sl_kernel_rfl) y

/-- What this case leaves in scratch 1: its pieces read back. -/
def sout1_B_1 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.1)

/-- In this case the body's stores into scratch 2 cover it. -/
theorem scover1_B_2 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S256x1.size (by sl_kernel_rfl) y

/-- What this case leaves in scratch 2: its pieces read back. -/
def sout1_B_2 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x1 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.1)

/-- In this case the body's stores into scratch 0 cover it. -/
theorem scover1_C_0 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x4096.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S256x4096.size (by sl_kernel_rfl) y

/-- What this case leaves in scratch 0: its pieces read back. -/
def sout1_C_0 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x4096 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- In this case the body's stores into scratch 1 cover it. -/
theorem scover1_C_1 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S256x1.size (by sl_kernel_rfl) y

/-- What this case leaves in scratch 1: its pieces read back. -/
def sout1_C_1 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- In this case the body's stores into scratch 2 cover it. -/
theorem scover1_C_2 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x1.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S256x1.size (by sl_kernel_rfl) y

/-- What this case leaves in scratch 2: its pieces read back. -/
def sout1_C_2 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x1 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-- At the last point of a tile the body's store covers the output block. -/
theorem cover1_C_3 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) (y : S256x4096.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S256x4096.size (by sl_kernel_rfl) y

/-- What the last point of a tile leaves in the output block. -/
def out1_C_3 (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) : Vec F S256x4096 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- A placeholder for the output block where the window is idle (nothing reads it there). -/
def out1_idle : Vec F S256x4096 .f32 := VO1_3.read (Elt F) VO1_3.junk

section
variable (V : (c : Dev nD) → (b : Ref sig .tc) → Buf (Elt F) ((c : Thread nD τ).loc b))

/-! ## What the output block and the three scratch buffers hold after each point -/

/-- After the body at position `n`: (the output block, the weighted sum, the running maximum, the running denominator).
    A first point of a tile starts afresh; any other point continues from what the point before left. -/
def outsAt1 (c : Dev nD) : (n : ℕ) → n < cfg1.N → Vec F S256x4096 .f32 × Vec F S256x4096 .f32 × Vec F S256x1 .f32 × Vec F S256x1 .f32
  | 0, hn => (out1_idle, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 16 = 0 then
      if h1 : (n + 1) % 16 = 15 then
        False.elim (by omega)
      else
        (out1_idle, sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 16 = 15 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)
      else
        (out1_idle, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2, sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2.1 (outsAt1 c n (Nat.lt_of_succ_lt hn)).2.2.2)

theorem outsAt1_A (c : Dev nD) (t : Fin cfg1.N) (h0 : t.val % 16 = 0) (h1 : ¬t.val % 16 = 15) :
    outsAt1 V c t.val t.isLt = (out1_idle, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_idle, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the region's start the scoped rest as the launch left it; afterwards the projection
    region's buffers untouched, the three scratch buffers at what the point before left, the generator register. -/
def PhiS1 (c : Dev nD) : (n : ℕ) → n ≤ cfg1.N → sProp 𝕄
  | 0, _ => Pipeline.ΦA spec1 c
  | n + 1, hn => iprop(other1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(other1 (F := F) c ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2) ∗ (∃ r, prngReg c r)) := rfl

theorem PhiS1_pos (c : Dev nD) (n : ℕ) (h : n ≤ cfg1.N) (hz : n ≠ 0) :
    PhiS1 V c n h = iprop(other1 (F := F) c ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2) ∗ (∃ r, prngReg c r)) := by
  cases n with
  | zero => exact absurd rfl hz
  | succ n => rfl

/-! ## The proof data -/

/-- The region's proof data on core `c`: the arrays as the region finds them; after the body at point `t` each input
    buffer at its block and the output buffer at `outsAt1`'s first component; the invariant `PhiS1`; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point: the inputs' buffers hold their blocks; the point's position in its tile says which case runs;
    the invariant hands the body the scratch buffers (at anything before the very first point, else at what the point
    before left) and takes them back at this point's contents; the output buffer is stored only at a tile's last point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold sout1_A_0 sout1_A_1 sout1_A_2; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_split (F := F) c) $$ HΦ
        icases HΦ' with ⟨Hoth, HS0, HS1, HS2, Hg⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        · isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [Hoth HS0 HS1 HS2 Hg]
          · isplitl [Hoth]; · iexact Hoth
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
      · rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        · isplitl [H0]; · iexact H0
          isplitl [H1]; · iexact H1
          isplitl [H2]; · iexact H2
          isplitl [H3]; · iexact H3
          isplitl [HS0]; · iexists _; iexact HS0
          isplitl [HS1]; · iexists _; iexact HS1
          isplitl [HS2]; · iexists _; iexact HS2
          iintro ⟨H0, H1, H2, H3, ⟨%es0, HS0⟩, ⟨%es1, HS1⟩, ⟨%es2, HS2⟩⟩
          isplitl [Hoth HS0 HS1 HS2 Hg]
          · isplitl [Hoth]; · iexact Hoth
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            isplitl [HS2]
            · unfold owns; iexists _; isplitr
              swap; · iexact HS2
              ipureintro; exact View.read_writes_of_cover _ _ _ _ _ (scover1_A_2 c _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3
  · by_cases h1 : t.val % 16 = 15
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [show (dat1 V c).leavesExact 3 t = owns (c : Thread nD τ) (ms1_3 t) fullShare ((dat1 V c).after 3 t) from by
          unfold Dat.leavesExact; rw [liveAt1_3 t ((hcond1_1 t).mpr h1)], after1_3]
      rw [outsAt1_C V c t h0 h1]
      unfold out1_C_3 sout1_C_0 sout1_C_1 sout1_C_2; (try dsimp only)
      by_cases hz : t.val = 0
      · exfalso; omega
      · rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        · isplitl [H0]; · iexact H0
          isplitl [H1]; · iexact H1
          isplitl [H2]; · iexact H2
          isplitl [H3]; · iexists _; iexact H3
          isplitl [HS0]; · iexact HS0
          isplitl [HS1]; · iexact HS1
          isplitl [HS2]; · iexact HS2
          iintro ⟨H0, H1, H2, ⟨%e3, H3⟩, ⟨%es0, HS0⟩, ⟨%es1, HS1⟩, ⟨%es2, HS2⟩⟩
          isplitl [Hoth HS0 HS1 HS2 Hg]
          · isplitl [Hoth]; · iexact Hoth
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            isplitl [HS2]
            · unfold owns; iexists _; isplitr
              swap; · iexact HS2
              ipureintro; exact View.read_writes_of_cover _ _ _ _ _ (scover1_C_2 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          unfold owns; iexists _; isplitr
          swap; · iexact H3
          ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
          unfold Dat.leavesExact; rw [liveAt1_0 t], after1_0]
      rw [show (dat1 V c).leavesExact 1 t = owns (c : Thread nD τ) (ms1_1 t) fullShare ((dat1 V c).after 1 t) from by
          unfold Dat.leavesExact; rw [liveAt1_1 t], after1_1]
      rw [show (dat1 V c).leavesExact 2 t = owns (c : Thread nD τ) (ms1_2 t) fullShare ((dat1 V c).after 2 t) from by
          unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B_0 sout1_B_1 sout1_B_2; (try dsimp only)
      by_cases hz : t.val = 0
      · exfalso; omega
      · rw [PhiS1_castSucc V c t, PhiS1_pos V c _ _ hz]
        iintro ⟨⟨Hoth, HS0, HS1, HS2, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
        · isplitl [H0]; · iexact H0
          isplitl [H1]; · iexact H1
          isplitl [H2]; · iexact H2
          isplitl [H3]; · iexact H3
          isplitl [HS0]; · iexact HS0
          isplitl [HS1]; · iexact HS1
          isplitl [HS2]; · iexact HS2
          iintro ⟨H0, H1, H2, H3, ⟨%es0, HS0⟩, ⟨%es1, HS1⟩, ⟨%es2, HS2⟩⟩
          isplitl [Hoth HS0 HS1 HS2 Hg]
          · isplitl [Hoth]; · iexact Hoth
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            isplitl [HS2]
            · unfold owns; iexists _; isplitr
              swap; · iexact HS2
              ipureintro; exact View.read_writes_of_cover _ _ _ _ _ (scover1_B_2 c _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the scoped rest back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht]
  iintro ⟨Hoth, HS0, HS1, HS2, Hg⟩
  iapply (PhiA1_join (F := F) c)
  isplitl [Hoth]; · iexact Hoth
  isplitl [HS0]; · iexists _; iexact HS0
  isplitl [HS1]; · iexists _; iexact HS1
  isplitl [HS2]; · iexists _; iexact HS2
  iexact Hg

theorem hout1 (c : Dev nD) : (dat1 V c).Φ (Fin.last cfg1.N) ⊢ Pipeline.ΦA spec1 c :=
  Phi_out1 V c _ (by rw [Fin.val_last]; have : cfg1.N = 256 := N_1; omega)

end

end Cert.KernelIdeal.Hand

end
-- ==== Proof.IdealRun.lean ====
/-
  The whole run of the idealized kernel's @main: the projection region, then the attention region, each entered from
  the unscoped buffers at the contents the one before left.  At the end every unscoped buffer of the core holds what
  the two regions' write-backs leave (`W2`): the argument arrays as launched, the projections, and the result.
-/
import proofs.«154024_j88905823027932_2_alg».proof.Proof.IdealRegion0
import proofs.«154024_j88905823027932_2_alg».proof.Proof.IdealAttnFrame
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev W0 : Dev nD → Valuation τ sig (Elt F) := fun c b => m (c, b)
abbrev V0 : (c : Dev nD) → (b : Ref sig .tc) → Buf (Elt F) ((c : Thread nD τ).loc b) := fun c b => W0 m c b
/-- After the projection region: its arrays at what the pipeline leaves, every other buffer as launched. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)
/-- After the attention region. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-! ## The arguments end as launched: each is an input array of the projection region and no array of the attention region -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = V0 m c main_arg0 := (W1_arr m c 0).trans (((dat0 (V0 m) c).arrAt_in 0 rfl _).trans (A_eq0 (V0 m) c 0))
    _ = m ((c : Thread nD τ).loc main_arg0) := rfl

theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = V0 m c main_arg1 := (W1_arr m c 1).trans (((dat0 (V0 m) c).arrAt_in 1 rfl _).trans (A_eq0 (V0 m) c 1))
    _ = m ((c : Thread nD τ).loc main_arg1) := rfl

theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = V0 m c main_arg2 := (W1_arr m c 2).trans (((dat0 (V0 m) c).arrAt_in 2 rfl _).trans (A_eq0 (V0 m) c 2))
    _ = m ((c : Thread nD τ).loc main_arg2) := rfl

theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = V0 m c main_arg3 := (W1_arr m c 3).trans (((dat0 (V0 m) c).arrAt_in 3 rfl _).trans (A_eq0 (V0 m) c 3))
    _ = m ((c : Thread nD τ).loc main_arg3) := rfl

/-- The result array at the end is what the attention region's write-backs leave. -/
theorem W2_main_v1 (c : Dev nD) : W2 m c (Proc.devRef .tc main_v1) = (dat1 (V1 m) c).arrAt 3 cfg1.N := W2_arr m c 3
/-- The three projections, as the attention region finds them. -/
theorem V1_main_v0_0 (c : Dev nD) : V1 m c main_v0_0 = (dat0 (V0 m) c).arrAt 4 cfg0.N := W1_arr m c 4
theorem V1_main_v0_1 (c : Dev nD) : V1 m c main_v0_1 = (dat0 (V0 m) c).arrAt 5 cfg0.N := W1_arr m c 5
theorem V1_main_v0_2 (c : Dev nD) : V1 m c main_v0_2 = (dat0 (V0 m) c).arrAt 6 cfg0.N := W1_arr m c 6

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
/-- The projection region: entered from the launch contents, left at `W1`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from `W1`, left at `W2`; its invariant carries the scratch buffers between points. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 1).pre c (fun _ => fullShare) (adm (F := F) 1).1 ∗ Pipeline.scopedRest spec1 c)
        ⊢ (Pipeline.ΦA spec1 c : sProp 𝕄) := by
      unfold Pipeline.ΦA
      iintro ⟨Hp, -, Hr⟩
      isplitl [Hr]; · iexact Hr
      iexact Hp
    exact h1.trans (hin1 (V1 m) c)
  hout c := by
    rw [Pipeline.ownSems0_none]
    have h2 : (Pipeline.ΦA spec1 c : sProp 𝕄) ⊢ iprop((∃ r, prngReg c r) ∗ BI.emp ∗ Pipeline.scopedRest spec1 c) := by
      unfold Pipeline.ΦA
      iintro ⟨Hr, Hp⟩
      isplitl [Hp]; · iexact Hp
      isplitr; · iempintro
      iexact Hr
    exact (hout1 (V1 m) c).trans h2
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and every
    unscoped buffer of every core ends at `W2`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_main_arg0 m c), (h c _ (mem_uc main_arg1 (by decide))).trans (W2_main_arg1 m c),
     (h c _ (mem_uc main_arg2 (by decide))).trans (W2_main_arg2 m c), (h c _ (mem_uc main_arg3 (by decide))).trans (W2_main_arg3 m c)⟩) (run_all m ρ)

/-- The same run with the result array named: what the attention region's write-backs leave in it. -/
theorem run_value : θ_run defs (onTc (τ := τ) (main (F := F))) ⟨m, fun _ => 0, ρ⟩ (fun r => ∀ c : Dev nD,
      r.2.mem ((c.tc : Thread nD τ).loc main_v1) = (dat1 (V1 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1 (by decide))).trans (W2_main_v1 m c),
     (h c _ (mem_uc main_arg0 (by decide))).trans (W2_main_arg0 m c), (h c _ (mem_uc main_arg1 (by decide))).trans (W2_main_arg1 m c),
     (h c _ (mem_uc main_arg2 (by decide))).trans (W2_main_arg2 m c), (h c _ (mem_uc main_arg3 (by decide))).trans (W2_main_arg3 m c)⟩) (run_all m ρ)

end Cert.KernelIdeal.Hand

end
-- ==== Proof.IdealAttnPieces.lean ====
/-
  The attention region's per-point results in closed form.

  At a grid point with query block `x0`, key block `x1` and value block `x2`, the body finds the three carried
  buffers at `acc` (the weighted sum so far, 256 × 4096), `mm` (the running row maximum, 256 × 1) and `ll` (the
  running row denominator, 256 × 1) and leaves them at

    mm'  = max (mm, rowmax S)                      S = x0 · x1ᵀ   (256 × 256, contracted at f32 precision)
    ll'  = exp (mm − mm') · ll + rowsum P          P = exp (S − mm')
    acc' = exp (mm − mm') · acc + bf16 (P) · x2    (x2 is held in bf16; the product accumulates in f32)

  each a composition of the body's named pure values. A first point of a query tile starts from mm = −∞, ll = 0,
  acc = 0; a last point additionally writes the quotient acc' / ll' to the output block. Every store of the body
  covers its whole buffer, so what a buffer holds afterwards is the payload of the LAST store into it, and a load
  that follows a store reads that store's payload back.
-/
import proofs.«154024_j88905823027932_2_alg».proof.Proof.IdealAttnFrame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## One step of the running softmax, as a composition of the body's pure values -/

/-- The new running maximum: the old one against the row maxima of the score block. -/
def stepM (x0 x1 : Vec F S256x4096 .f32) (mm : Vec F S256x1 .f32) : Vec F S256x1 .f32 := k1_pay3 (k1_pay9 x0 x1 mm)
/-- The new running denominator: the old one rescaled by exp (old maximum − new maximum), plus the row sums of the
    exponentiated score block. -/
def stepL (x0 x1 : Vec F S256x4096 .f32) (mm ll : Vec F S256x1 .f32) : Vec F S256x1 .f32 := k1_pay12 x0 x1 mm ll
/-- The new weighted sum: the old one rescaled by exp (old maximum − new maximum), plus the exponentiated score block
    (rounded to bf16) times the value block. The two identity reshapes around the stores are kept as the body has them. -/
def stepA (x0 x1 : Vec F S256x4096 .f32) (x2 : Vec F S256x4096 .bf16) (mm : Vec F S256x1 .f32) (acc : Vec F S256x4096 .f32) : Vec F S256x4096 .f32 :=
  k1_pay2 (k1_pay13 x0 x1 x2 mm) (k1_pay1 (k1_pay14 x0 x1 mm acc))

/-- The offsets `(0, 0)`, spelt as the constant zero function. -/
private theorem hz2 : (![0, 0] : Fin 2 → Nat) = fun _ => 0 := funext fun a => by fin_cases a <;> rfl

/-! ## A middle point of a query tile: the buffers continue from what the point before left -/

set_option maxHeartbeats 1000000 in
/-- The weighted sum is stored twice, whole each time; the second store's payload reads the first back. -/
theorem sout1_B_0_eq (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) :
    sout1_B_0 c i arg2 harg2 arg3 harg3 arg4 harg4 arg5 harg5 arg6 harg6 arg7 harg7 arg8 harg8 hc0 hc1 x0 x1 x2 xs0 xs1 xs2 = stepA x0 x1 x2 xs1 xs0 := by
  unfold sout1_B_0
  rw [View.read_writes_eq_canon _ _ _ (scover1_B_0 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero (S := S256x4096) hz2]
  simp only [View.readCov_cons_toLoadRect, View.readAt_eq_ld, harg2.read_unread, harg3.read_unread, harg4.read_unread, harg5.read_unread, harg6.read_unread, harg7.read_unread, harg8.read_unread, View.ld_unit_zero (S := S256x4096) hz2, View.ld_unit_zero (S := S256x1) hz2]
  rfl

set_option maxHeartbeats 1000000 in
/-- The running maximum after a middle point. -/
theorem sout1_B_1_eq (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) :
    sout1_B_1 c i arg2 harg2 arg3 harg3 arg4 harg4 arg5 harg5 arg6 harg6 arg7 harg7 arg8 harg8 hc0 hc1 x0 x1 x2 xs0 xs1 xs2 = stepM x0 x1 xs1 := by
  unfold sout1_B_1
  rw [View.read_writes_eq_canon _ _ _ (scover1_B_1 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero (S := S256x1) hz2]
  simp only [View.readCov_cons_toLoadRect, View.readAt_eq_ld, harg2.read_unread, harg3.read_unread, harg4.read_unread, harg5.read_unread, harg6.read_unread, harg7.read_unread, harg8.read_unread, View.ld_unit_zero (S := S256x4096) hz2, View.ld_unit_zero (S := S256x1) hz2]
  rfl

set_option maxHeartbeats 1000000 in
/-- The running denominator after a middle point. -/
theorem sout1_B_2_eq (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : ¬cond1_1 i) (x0 : Vec F S256x4096 .f32) (x1 : Vec F S256x4096 .f32) (x2 : Vec F S256x4096 .bf16) (xs0 : Vec F S256x4096 .f32) (xs1 : Vec F S256x1 .f32) (xs2 : Vec F S256x1 .f32) :
    sout1_B_2 c i arg2 harg2 arg3 harg3 arg4 harg4 arg5 harg5 arg6 harg6 arg7 harg7 arg8 harg8 hc0 hc1 x0 x1 x2 xs0 xs1 xs2 = stepL x0 x1 xs1 xs2 := by
  unfold sout1_B_2
  rw [View.read_writes_eq_canon _ _ _ (scover1_B_2 c i arg2 harg2 arg3 harg3 arg4 harg4 arg5 harg5 arg6 harg6 arg7 harg7 arg8 harg8 hc0 hc1 x0 x1 x2 xs0 xs1 xs2)]
  unfold kernelRun1_B
  dsimp only
  sl_unfold_words
  rw [View.canon_cons_unit_zero (S := S256x1) hz2]
  simp only [View.readCov_cons_toLoadRect, View.readAt_eq_ld, harg2.read_unread, harg3.read_unread, harg4.read_unread, harg5.read_unread, harg6.read_unread, harg7.read_unread, harg8.read_unread, View.ld_unit_zero (S := S256x4096) hz2, View.ld_unit_zero (S := S256x1) hz2]
  rfl

/-! ## The last point of a query tile: the same step, then the quotient into the output block -/

set_option maxHeartbeats 1000000 in
/-- The weighted sum after the last point. -/
theorem sout1_C_0_eq (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) :
    sout1_C_0 c i arg2 harg2 arg3 harg3 arg4 harg4 arg5 harg5 arg6 harg6 arg7 harg7 arg8 harg8 hc0 hc1 x0 x1 x2 xs0 xs1 xs2 = stepA x0 x1 x2 xs1 xs0 := by
  unfold sout1_C_0
  rw [View.read_writes_eq_canon _ _ _ (scover1_C_0 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S256x4096) hz2]
  simp only [View.readCov_cons_toLoadRect, View.readAt_eq_ld, harg2.read_unread, harg3.read_unread, harg4.read_unread, harg5.read_unread, harg6.read_unread, harg7.read_unread, harg8.read_unread, View.ld_unit_zero (S := S256x4096) hz2, View.ld_unit_zero (S := S256x1) hz2]
  rfl

set_option maxHeartbeats 1000000 in
/-- The running maximum after the last point. -/
theorem sout1_C_1_eq (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) :
    sout1_C_1 c i arg2 harg2 arg3 harg3 arg4 harg4 arg5 harg5 arg6 harg6 arg7 harg7 arg8 harg8 hc0 hc1 x0 x1 x2 xs0 xs1 xs2 = stepM x0 x1 xs1 := by
  unfold sout1_C_1
  rw [View.read_writes_eq_canon _ _ _ (scover1_C_1 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S256x1) hz2]
  simp only [View.readCov_cons_toLoadRect, View.readAt_eq_ld, harg2.read_unread, harg3.read_unread, harg4.read_unread, harg5.read_unread, harg6.read_unread, harg7.read_unread, harg8.read_unread, View.ld_unit_zero (S := S256x4096) hz2, View.ld_unit_zero (S := S256x1) hz2]
  rfl

set_option maxHeartbeats 1000000 in
/-- The running denominator after the last point. -/
theorem sout1_C_2_eq (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) :
    sout1_C_2 c i arg2 harg2 arg3 harg3 arg4 harg4 arg5 harg5 arg6 harg6 arg7 harg7 arg8 harg8 hc0 hc1 x0 x1 x2 xs0 xs1 xs2 = stepL x0 x1 xs1 xs2 := by
  unfold sout1_C_2
  rw [View.read_writes_eq_canon _ _ _ (scover1_C_2 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S256x1) hz2]
  simp only [View.readCov_cons_toLoadRect, View.readAt_eq_ld, harg2.read_unread, harg3.read_unread, harg4.read_unread, harg5.read_unread, harg6.read_unread, harg7.read_unread, harg8.read_unread, View.ld_unit_zero (S := S256x4096) hz2, View.ld_unit_zero (S := S256x1) hz2]
  rfl

set_option maxHeartbeats 1000000 in
/-- The output block: the final weighted sum divided, row by row, by the final denominator (both read back from the buffers just stored). -/
theorem out1_C_3_eq (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : ¬cond1_0 i) (hc1 : cond1_1 i) (x0 : Vec F S256x4096 .f32) (x1 : Vec F S256x4096 .f32) (x2 : Vec F S256x4096 .bf16) (xs0 : Vec F S256x4096 .f32) (xs1 : Vec F S256x1 .f32) (xs2 : Vec F S256x1 .f32) :
    out1_C_3 c i arg2 harg2 arg3 harg3 arg4 harg4 arg5 harg5 arg6 harg6 arg7 harg7 arg8 harg8 hc0 hc1 x0 x1 x2 xs0 xs1 xs2 = k1_pay4 (stepA x0 x1 x2 xs1 xs0) (stepL x0 x1 xs1 xs2) := by
  unfold out1_C_3
  rw [View.read_writes_eq_canon _ _ _ (cover1_C_3 c i arg2 harg2 arg3 harg3 arg4 harg4 arg5 harg5 arg6 harg6 arg7 harg7 arg8 harg8 hc0 hc1 x0 x1 x2 xs0 xs1 xs2)]
  unfold kernelRun1_C
  dsimp only
  sl_unfold_words
  rw [View.canon_cons_unit_zero (S := S256x4096) hz2]
  simp only [View.readCov_cons_toLoadRect, View.readAt_eq_ld, harg2.read_unread, harg3.read_unread, harg4.read_unread, harg5.read_unread, harg6.read_unread, harg7.read_unread, harg8.read_unread, View.ld_unit_zero (S := S256x4096) hz2, View.ld_unit_zero (S := S256x1) hz2]
  rfl

/-! ## The first point of a query tile: the buffers are reset (maximum −∞, denominator 0, sum 0), then the same step -/

set_option maxHeartbeats 1000000 in
/-- The weighted sum after the first point: three whole stores, the reset first. -/
theorem sout1_A_0_eq (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) :
    sout1_A_0 c i arg2 harg2 arg3 harg3 arg4 harg4 arg5 harg5 arg6 harg6 arg7 harg7 arg8 harg8 hc0 hc1 x0 x1 x2 = stepA x0 x1 x2 k1_pay5 k1_pay7 := by
  unfold sout1_A_0
  rw [View.read_writes_eq_canon _ _ _ (scover1_A_0 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S256x4096) hz2]
  simp only [View.readCov_cons_toLoadRect, View.readAt_eq_ld, harg2.read_unread, harg3.read_unread, harg4.read_unread, harg5.read_unread, harg6.read_unread, harg7.read_unread, harg8.read_unread, View.ld_unit_zero (S := S256x4096) hz2, View.ld_unit_zero (S := S256x1) hz2]
  rfl

set_option maxHeartbeats 1000000 in
/-- The running maximum after the first point. -/
theorem sout1_A_1_eq (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) :
    sout1_A_1 c i arg2 harg2 arg3 harg3 arg4 harg4 arg5 harg5 arg6 harg6 arg7 harg7 arg8 harg8 hc0 hc1 x0 x1 x2 = stepM x0 x1 k1_pay5 := by
  unfold sout1_A_1
  rw [View.read_writes_eq_canon _ _ _ (scover1_A_1 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S256x1) hz2]
  simp only [View.readCov_cons_toLoadRect, View.readAt_eq_ld, harg2.read_unread, harg3.read_unread, harg4.read_unread, harg5.read_unread, harg6.read_unread, harg7.read_unread, harg8.read_unread, View.ld_unit_zero (S := S256x4096) hz2, View.ld_unit_zero (S := S256x1) hz2]
  rfl

set_option maxHeartbeats 1000000 in
/-- The running denominator after the first point. -/
theorem sout1_A_2_eq (c : Dev nD) (i : grid1.Coords) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole) (arg5 : Memref sig .tc .vmem S256x4096 .f32) (harg5 : arg5.IsWhole) (arg6 : Memref sig .tc .vmem S256x4096 .f32) (harg6 : arg6.IsWhole) (arg7 : Memref sig .tc .vmem S256x1 .f32) (harg7 : arg7.IsWhole) (arg8 : Memref sig .tc .vmem S256x1 .f32) (harg8 : arg8.IsWhole) (hc0 : cond1_0 i) (hc1 : ¬cond1_1 i) (x0 : Vec F S256x4096 .f32) (x1 : Vec F S256x4096 .f32) (x2 : Vec F S256x4096 .bf16) :
    sout1_A_2 c i arg2 harg2 arg3 harg3 arg4 harg4 arg5 harg5 arg6 harg6 arg7 harg7 arg8 harg8 hc0 hc1 x0 x1 x2 = stepL x0 x1 k1_pay5 k1_pay6 := by
  unfold sout1_A_2
  rw [View.read_writes_eq_canon _ _ _ (scover1_A_2 c i arg2 harg2 arg3 harg3 arg4 harg4 arg5 harg5 arg6 harg6 arg7 harg7 arg8 harg8 hc0 hc1 x0 x1 x2)]
  unfold kernelRun1_A
  dsimp only
  sl_unfold_words
  rw [View.canon_cons_unit_zero (S := S256x1) hz2]
  simp only [View.readCov_cons_toLoadRect, View.readAt_eq_ld, harg2.read_unread, harg3.read_unread, harg4.read_unread, harg5.read_unread, harg6.read_unread, harg7.read_unread, harg8.read_unread, View.ld_unit_zero (S := S256x4096) hz2, View.ld_unit_zero (S := S256x1) hz2]
  rfl

end Cert.KernelIdeal.Hand

end
-- ==== Proof.IdealPayloads.lean ====
import proofs.«154024_j88905823027932_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! ## A column vector: the keepdims layout forms -/

section Layout
variable {α : Type}

/-- An `[a]` array cast to the column `[a, 1]` reads, at `(i, u)`, the operand at `i`, whatever the unit
coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row's sum and a row's maximum -/

section Rows

/-- The literal `0xFF800000` is `-∞`, the bottom of the extended reals. -/
theorem ofBits_neg_inf_f32 : Ideal.ofBits .f32 0xFF800000#32 = (⊥ : EReal) := by
  simp [Ideal.ofBits, Ideal.ieee]

/-- A sum over the columns of a `256 × 256` matrix, read at row `r`. -/
theorem rowSum_apply (src : FVec Ideal S256x256 .f32) (h : S256x256.Reduces [1] S256) (hφ : FKind.Formats .f32)
    (hacc : (0x00000000#32 : BitVec 32) = 0x00000000#32) (r : Fin 256) :
    multiReduction .add [1] S256 src 0x00000000#32 h hφ hacc (ix1 r) = ∑ j : Fin 256, src (ix2 r j) := by
  refine (Ideal.multiReduction_add_single src 0x00000000#32 h hφ hacc (ix1 r)).trans ?_
  refine Finset.sum_congr rfl fun k _ => congrArg src (funext fun a => Fin.ext ?_)
  match a with
  | ⟨0, _⟩ => rfl
  | ⟨1, _⟩ => rfl

/-- A maximum over the columns of a `256 × 256` matrix, read at row `r`: the supremum of the row. -/
theorem rowMax_apply (src : FVec Ideal S256x256 .f32) (h : S256x256.Reduces [1] S256) (hφ : FKind.Formats .f32)
    (hacc : (0xFF800000#32 : BitVec 32) = 0xFF800000#32) (r : Fin 256) :
    multiReduction .maximumf [1] S256 src 0xFF800000#32 h hφ hacc (ix1 r)
      = (Finset.univ : Finset (Fin 256)).sup fun j => src (ix2 r j) := by
  refine (Ideal.multiReduction_maximumf_single src 0xFF800000#32 h hφ hacc (ix1 r)).trans ?_
  rw [Ideal.ofBits_def, ofBits_neg_inf_f32]
  refine (Finset.fold_congr (g := fun j : Fin 256 => src (ix2 r j)) fun k _ => ?_).trans rfl
  refine congrArg src (funext fun a => Fin.ext ?_)
  match a with
  | ⟨0, _⟩ => rfl
  | ⟨1, _⟩ => rfl

end Rows

/-! ## The three matrix products, read at an entry -/

section Products
variable {φ₁ φ₂ : FTy}

theorem proj_lhs_keep (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
theorem proj_rhs_keep (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- `[512, 1024] × [1024, 512]`: the left operand's columns are contracted with the right operand's rows. -/
theorem proj_apply (prec : Option ContractPrecision) (x : FVec Ideal S512x1024 φ₁) (w : FVec Ideal S1024x512 φ₂) (a b : Fin 512) :
    matmul dot_S512x1024_S1024x512_S512x512_1_0_0_1_n_n prec x w (constant (F := Ideal) S512x512 .f32 0x00000000#32) (ix2 a b)
      = ∑ d : Fin 1024, x (ix2 a d) * w (ix2 d b) := by
  refine (Ideal.matmul_constant_zero_apply dot_S512x1024_S1024x512_S512x512_1_0_0_1_n_n prec x w (ix2 a b)).trans ?_
  rw [← Equiv.sum_comp (contrEquiv1 dot_S512x1024_S1024x512_S512x512_1_0_0_1_n_n 1024 rfl rfl).symm]
  refine Finset.sum_congr rfl fun d _ => ?_
  have hd := contrEquiv1_symm_val dot_S512x1024_S1024x512_S512x512_1_0_0_1_n_n 1024 rfl rfl d
  have el : dot_S512x1024_S1024x512_S512x512_1_0_0_1_n_n.lhsIdx (ix2 a b) ((contrEquiv1 dot_S512x1024_S1024x512_S512x512_1_0_0_1_n_n 1024 rfl rfl).symm d) = ix2 a d :=
    funext fun ax => Fin.ext (by
      match ax with
      | ⟨0, _⟩ => exact proj_lhs_keep _ _
      | ⟨1, _⟩ => exact (dot_S512x1024_S1024x512_S512x512_1_0_0_1_n_n.lhsIdx_val_of_single rfl _ _).trans hd)
  have er : dot_S512x1024_S1024x512_S512x512_1_0_0_1_n_n.rhsIdx (ix2 a b) ((contrEquiv1 dot_S512x1024_S1024x512_S512x512_1_0_0_1_n_n 1024 rfl rfl).symm d) = ix2 d b :=
    funext fun ax => Fin.ext (by
      match ax with
      | ⟨0, _⟩ => exact (dot_S512x1024_S1024x512_S512x512_1_0_0_1_n_n.rhsIdx_val_of_single rfl _ _).trans hd
      | ⟨1, _⟩ => exact proj_rhs_keep _ _)
  rw [el, er]

theorem scores_lhs_keep (i : S256x256.Idx) (q : dot_S256x4096_S256x4096_S256x256_1_1_0_0_n_n.contr.Idx) :
    (dot_S256x4096_S256x4096_S256x256_1_1_0_0_n_n.lhsIdx i q 0).val = (i 0).val := by
  unfold DotDims.lhsIdx
  rw [dif_neg (show ¬(0 : Fin S256x4096.rank) ∈ dot_S256x4096_S256x4096_S256x256_1_1_0_0_n_n.lhsBatch by decide),
    dif_pos (show (0 : Fin S256x4096.rank) ∈ dot_S256x4096_S256x4096_S256x256_1_1_0_0_n_n.lhsNonContracting by decide)]
  rfl
theorem scores_rhs_keep (i : S256x256.Idx) (q : dot_S256x4096_S256x4096_S256x256_1_1_0_0_n_n.contr.Idx) :
    (dot_S256x4096_S256x4096_S256x256_1_1_0_0_n_n.rhsIdx i q 0).val = (i 1).val := by
  unfold DotDims.rhsIdx
  rw [dif_neg (show ¬(0 : Fin S256x4096.rank) ∈ dot_S256x4096_S256x4096_S256x256_1_1_0_0_n_n.rhsBatch by decide),
    dif_pos (show (0 : Fin S256x4096.rank) ∈ dot_S256x4096_S256x4096_S256x256_1_1_0_0_n_n.rhsNonContracting by decide)]
  rfl

/-- `[256, 4096] × [256, 4096]ᵀ`: both operands are contracted along their columns, so the entry `(r, j)` pairs row
`r` of the left operand with row `j` of the right one. -/
theorem scores_apply (prec : Option ContractPrecision) (q : FVec Ideal S256x4096 φ₁) (k : FVec Ideal S256x4096 φ₂) (r j : Fin 256) :
    matmul dot_S256x4096_S256x4096_S256x256_1_1_0_0_n_n prec q k (constant (F := Ideal) S256x256 .f32 0x00000000#32) (ix2 r j)
      = ∑ n : Fin 4096, q (ix2 r n) * k (ix2 j n) := by
  refine (Ideal.matmul_constant_zero_apply dot_S256x4096_S256x4096_S256x256_1_1_0_0_n_n prec q k (ix2 r j)).trans ?_
  rw [← Equiv.sum_comp (contrEquiv1 dot_S256x4096_S256x4096_S256x256_1_1_0_0_n_n 4096 rfl rfl).symm]
  refine Finset.sum_congr rfl fun n _ => ?_
  have hn := contrEquiv1_symm_val dot_S256x4096_S256x4096_S256x256_1_1_0_0_n_n 4096 rfl rfl n
  have el : dot_S256x4096_S256x4096_S256x256_1_1_0_0_n_n.lhsIdx (ix2 r j) ((contrEquiv1 dot_S256x4096_S256x4096_S256x256_1_1_0_0_n_n 4096 rfl rfl).symm n) = ix2 r n :=
    funext fun ax => Fin.ext (by
      match ax with
      | ⟨0, _⟩ => exact scores_lhs_keep _ _
      | ⟨1, _⟩ => exact (dot_S256x4096_S256x4096_S256x256_1_1_0_0_n_n.lhsIdx_val_of_single rfl _ _).trans hn)
  have er : dot_S256x4096_S256x4096_S256x256_1_1_0_0_n_n.rhsIdx (ix2 r j) ((contrEquiv1 dot_S256x4096_S256x4096_S256x256_1_1_0_0_n_n 4096 rfl rfl).symm n) = ix2 j n :=
    funext fun ax => Fin.ext (by
      match ax with
      | ⟨0, _⟩ => exact scores_rhs_keep _ _
      | ⟨1, _⟩ => exact (dot_S256x4096_S256x4096_S256x256_1_1_0_0_n_n.rhsIdx_val_of_single rfl _ _).trans hn)
  rw [el, er]

theorem weighted_lhs_keep (i : S256x4096.Idx) (q : dot_S256x256_S256x4096_S256x4096_1_0_0_1_n_n.contr.Idx) :
    (dot_S256x256_S256x4096_S256x4096_1_0_0_1_n_n.lhsIdx i q 0).val = (i 0).val := by
  unfold DotDims.lhsIdx
  rw [dif_neg (show ¬(0 : Fin S256x256.rank) ∈ dot_S256x256_S256x4096_S256x4096_1_0_0_1_n_n.lhsBatch by decide),
    dif_pos (show (0 : Fin S256x256.rank) ∈ dot_S256x256_S256x4096_S256x4096_1_0_0_1_n_n.lhsNonContracting by decide)]
  rfl
theorem weighted_rhs_keep (i : S256x4096.Idx) (q : dot_S256x256_S256x4096_S256x4096_1_0_0_1_n_n.contr.Idx) :
    (dot_S256x256_S256x4096_S256x4096_1_0_0_1_n_n.rhsIdx i q 1).val = (i 1).val := by
  unfold DotDims.rhsIdx
  rw [dif_neg (show ¬(1 : Fin S256x4096.rank) ∈ dot_S256x256_S256x4096_S256x4096_1_0_0_1_n_n.rhsBatch by decide),
    dif_pos (show (1 : Fin S256x4096.rank) ∈ dot_S256x256_S256x4096_S256x4096_1_0_0_1_n_n.rhsNonContracting by decide)]
  rfl

/-- `[256, 256] × [256, 4096]`: the left operand's columns are contracted with the right operand's rows. -/
theorem weighted_apply (prec : Option ContractPrecision) (p : FVec Ideal S256x256 φ₁) (v : FVec Ideal S256x4096 φ₂) (r : Fin 256) (c : Fin 4096) :
    matmul dot_S256x256_S256x4096_S256x4096_1_0_0_1_n_n prec p v (constant (F := Ideal) S256x4096 .f32 0x00000000#32) (ix2 r c)
      = ∑ j : Fin 256, p (ix2 r j) * v (ix2 j c) := by
  refine (Ideal.matmul_constant_zero_apply dot_S256x256_S256x4096_S256x4096_1_0_0_1_n_n prec p v (ix2 r c)).trans ?_
  rw [← Equiv.sum_comp (contrEquiv1 dot_S256x256_S256x4096_S256x4096_1_0_0_1_n_n 256 rfl rfl).symm]
  refine Finset.sum_congr rfl fun j _ => ?_
  have hj := contrEquiv1_symm_val dot_S256x256_S256x4096_S256x4096_1_0_0_1_n_n 256 rfl rfl j
  have el : dot_S256x256_S256x4096_S256x4096_1_0_0_1_n_n.lhsIdx (ix2 r c) ((contrEquiv1 dot_S256x256_S256x4096_S256x4096_1_0_0_1_n_n 256 rfl rfl).symm j) = ix2 r j :=
    funext fun ax => Fin.ext (by
      match ax with
      | ⟨0, _⟩ => exact weighted_lhs_keep _ _
      | ⟨1, _⟩ => exact (dot_S256x256_S256x4096_S256x4096_1_0_0_1_n_n.lhsIdx_val_of_single rfl _ _).trans hj)
  have er : dot_S256x256_S256x4096_S256x4096_1_0_0_1_n_n.rhsIdx (ix2 r c) ((contrEquiv1 dot_S256x256_S256x4096_S256x4096_1_0_0_1_n_n 256 rfl rfl).symm j) = ix2 j c :=
    funext fun ax => Fin.ext (by
      match ax with
      | ⟨0, _⟩ => exact (dot_S256x256_S256x4096_S256x4096_1_0_0_1_n_n.rhsIdx_val_of_single rfl _ _).trans hj
      | ⟨1, _⟩ => exact weighted_rhs_keep _ _)
  rw [el, er]

end Products

/-! ## The projection kernel's payloads -/

section Projections

/-- The first projection at `(a, b)`: the row `a` of the block of activations against the column `b` of the block
of weights (the rounding of the operands to bf16 is the identity on extended reals). -/
theorem pay2_apply (x : FVec Ideal S512x1024 .f32) (w : FVec Ideal S1024x512 .f32) (a b : Fin 512) :
    k0_pay2 (F := Ideal) x w (ix2 a b) = ∑ d : Fin 1024, x (ix2 a d) * w (ix2 d b) := by
  unfold k0_pay2
  exact proj_apply none _ _ a b

/-- The second projection, likewise. -/
theorem pay3_apply (x : FVec Ideal S512x1024 .f32) (w : FVec Ideal S1024x512 .f32) (a b : Fin 512) :
    k0_pay3 (F := Ideal) x w (ix2 a b) = ∑ d : Fin 1024, x (ix2 a d) * w (ix2 d b) := by
  unfold k0_pay3
  exact proj_apply none _ _ a b

/-- The third projection, whose result is stored in bf16: the same sum. -/
theorem k0_pay4_apply (x : FVec Ideal S512x1024 .f32) (w : FVec Ideal S1024x512 .f32) (a b : Fin 512) :
    k0_pay4 (F := Ideal) x w (ix2 a b) = ∑ d : Fin 1024, x (ix2 a d) * w (ix2 d b) := by
  unfold k0_pay4
  exact proj_apply none _ _ a b

end Projections

/-! ## The attention kernel's payloads -/

section Attention

/-- The scores of a query block against a key block: entry `(r, j)` is the inner product of query row `r` and key
row `j`. -/
theorem pay8_apply (q k : FVec Ideal S256x4096 .f32) (r j : Fin 256) :
    k1_pay8 (F := Ideal) q k (ix2 r j) = ∑ n : Fin 4096, q (ix2 r n) * k (ix2 j n) := by
  unfold k1_pay8
  simp only [shapeCast_self]
  exact scores_apply (some .fp32) q k r j

/-- The new running maximum of row `r`: the old one against the largest score of the row in this key block. -/
theorem pay9_apply (q k : FVec Ideal S256x4096 .f32) (mm : FVec Ideal S256x1 .f32) (r : Fin 256) :
    k1_pay9 (F := Ideal) q k mm (ix2 r 0)
      = max (mm (ix2 r 0)) ((Finset.univ : Finset (Fin 256)).sup fun j => k1_pay8 (F := Ideal) q k (ix2 r j)) := by
  unfold k1_pay9
  show max (mm (ix2 r 0)) (shapeCast S256x1 (multiReduction .maximumf [1] S256 (k1_pay8 (F := Ideal) q k) 0xFF800000#32 _ _ _) _ (ix2 r 0)) = _
  refine congrArg (max (mm (ix2 r 0))) ?_
  refine (shapeCast_a_a1_apply _ _ r 0).trans ?_
  exact rowMax_apply _ _ _ _ r

/-- The factor that rescales what row `r` has accumulated so far: `exp (old maximum − new maximum)`. -/
theorem pay10_apply (q k : FVec Ideal S256x4096 .f32) (mm : FVec Ideal S256x1 .f32) (r : Fin 256) :
    k1_pay10 (F := Ideal) q k mm (ix2 r 0) = Ideal.exp (mm (ix2 r 0) - k1_pay9 (F := Ideal) q k mm (ix2 r 0)) := by
  unfold k1_pay10
  rfl

/-- The unnormalised weights of this key block: `exp (score − new maximum of the row)`. -/
theorem pay11_apply (q k : FVec Ideal S256x4096 .f32) (mm : FVec Ideal S256x1 .f32) (r j : Fin 256) :
    k1_pay11 (F := Ideal) q k mm (ix2 r j)
      = Ideal.exp (k1_pay8 (F := Ideal) q k (ix2 r j) - k1_pay9 (F := Ideal) q k mm (ix2 r 0)) := by
  unfold k1_pay11
  show Ideal.exp (k1_pay8 (F := Ideal) q k (ix2 r j) - broadcastTo S256x256 (k1_pay9 (F := Ideal) q k mm) _ (ix2 r j)) = _
  rw [broadcastTo_a1_ab_apply]

/-- The new running denominator of row `r`: the old one rescaled, plus the row's weights of this key block. -/
theorem pay12_apply (q k : FVec Ideal S256x4096 .f32) (mm ll : FVec Ideal S256x1 .f32) (r : Fin 256) :
    k1_pay12 (F := Ideal) q k mm ll (ix2 r 0)
      = k1_pay10 (F := Ideal) q k mm (ix2 r 0) * ll (ix2 r 0) + ∑ j : Fin 256, k1_pay11 (F := Ideal) q k mm (ix2 r j) := by
  unfold k1_pay12
  simp only [shapeCast_self]
  show k1_pay10 (F := Ideal) q k mm (ix2 r 0) * ll (ix2 r 0)
      + shapeCast S256x1 (multiReduction .add [1] S256 (k1_pay11 (F := Ideal) q k mm) 0x00000000#32 _ _ _) _ (ix2 r 0) = _
  refine congrArg (k1_pay10 (F := Ideal) q k mm (ix2 r 0) * ll (ix2 r 0) + ·) ?_
  refine (shapeCast_a_a1_apply _ _ r 0).trans ?_
  exact rowSum_apply _ _ _ _ r

/-- The weights of this key block applied to its block of values (rounding the weights to bf16 is the identity on
extended reals). -/
theorem pay13_apply (q k : FVec Ideal S256x4096 .f32) (v : FVec Ideal S256x4096 .bf16) (mm : FVec Ideal S256x1 .f32)
    (r : Fin 256) (c : Fin 4096) :
    k1_pay13 (F := Ideal) q k v mm (ix2 r c) = ∑ j : Fin 256, k1_pay11 (F := Ideal) q k mm (ix2 r j) * v (ix2 j c) := by
  unfold k1_pay13
  simp only [shapeCast_self]
  exact weighted_apply none _ v r c

/-- The accumulated numerator rescaled by the row's factor. -/
theorem pay14_apply (q k : FVec Ideal S256x4096 .f32) (mm : FVec Ideal S256x1 .f32) (acc : FVec Ideal S256x4096 .f32)
    (r : Fin 256) (c : Fin 4096) :
    k1_pay14 (F := Ideal) q k mm acc (ix2 r c) = k1_pay10 (F := Ideal) q k mm (ix2 r 0) * acc (ix2 r c) := by
  unfold k1_pay14
  show broadcastTo S256x4096 (k1_pay10 (F := Ideal) q k mm) _ (ix2 r c) * acc (ix2 r c) = _
  rw [broadcastTo_a1_ab_apply]

/-- A same-shape cast stores what it is given. -/
theorem pay1_eq (y : FVec Ideal S256x4096 .f32) : k1_pay1 (F := Ideal) y = y := by
  unfold k1_pay1
  exact shapeCast_self y _

/-- Likewise for the column of running maxima. -/
theorem pay3_eq (y : FVec Ideal S256x1 .f32) : k1_pay3 (F := Ideal) y = y := by
  unfold k1_pay3
  exact shapeCast_self y _

/-- The accumulator update: the loaded accumulator plus this block's contribution. -/
theorem pay2_apply' (p acc : FVec Ideal S256x4096 .f32) (i : S256x4096.Idx) :
    k1_pay2 (F := Ideal) p acc i = acc i + p i := by
  unfold k1_pay2
  simp only [shapeCast_self]
  rfl

/-- The final normalisation: the numerator at `(r, c)` over the denominator of row `r`. -/
theorem pay4_apply (acc : FVec Ideal S256x4096 .f32) (l : FVec Ideal S256x1 .f32) (r : Fin 256) (c : Fin 4096) :
    k1_pay4 (F := Ideal) acc l (ix2 r c) = Ideal.div (acc (ix2 r c)) (l (ix2 r 0)) := by
  unfold k1_pay4
  show Ideal.div (acc (ix2 r c)) (broadcastTo S256x4096 l _ (ix2 r c)) = _
  rw [broadcastTo_a1_ab_apply]

/-- The running maximum starts at `-∞`. -/
theorem pay5_apply (i : S256x1.Idx) : k1_pay5 (F := Ideal) i = (⊥ : EReal) := by
  unfold k1_pay5
  simp only [shapeCast_self]
  exact ofBits_neg_inf_f32

/-- The running denominator starts at zero. -/
theorem pay6_apply (i : S256x1.Idx) : k1_pay6 (F := Ideal) i = 0 := by
  unfold k1_pay6
  simp only [shapeCast_self]
  exact Ideal.ofBits_zero_f32

/-- The accumulated numerator starts at zero. -/
theorem pay7_apply (i : S256x4096.Idx) : k1_pay7 (F := Ideal) i = 0 := by
  unfold k1_pay7
  simp only [shapeCast_self]
  exact Ideal.ofBits_zero_f32

end Attention

end Cert.KernelIdeal.Pay

end
-- ==== Proof.LibOnlineSoftmax.lean ====
import Mathlib
import Idealize.ShloMosaic.PureOps.Ideal

/-!
# The online softmax recurrence, and consecutive blocks of columns

A softmax-weighted sum `∑ j, exp (s j - m) * v j / ∑ j, exp (s j - m)` (with `m` the
maximum of the scores `s`) can be accumulated block by block: one keeps a running maximum, a
running denominator and a running numerator, and each time a new block of columns arrives the
two running sums are rescaled by `exp (old maximum - new maximum)` before the block's own terms
are added. This file proves, over the extended reals with exact operations, that the state of
that recurrence after a set `S` of columns is the closed form over `S`, and that the final
quotient is the one-pass sum of quotients.

All scores and values are real; only the running maximum of the empty set is `⊥` (that is `-∞`),
and there `exp ⊥ = 0` makes the rescaled empty sums vanish.

The second part describes the consecutive blocks `[n * b, (n + 1) * b)` of `Fin (T * b)`.
-/

namespace Cert.Lib.OnlineSoftmax

open Idealize.ShloMosaic

/-- The inclusion of the reals in the extended reals commutes with finite sums. -/
theorem coe_finset_sum {ι : Type*} (S : Finset ι) (f : ι → ℝ) :
    ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

variable {ι : Type} [DecidableEq ι] (s v : ι → ℝ)

/-- The running maximum of the scores over the columns `S`; it is `⊥` on the empty set. -/
noncomputable def runMax (S : Finset ι) : EReal := S.sup fun j => ((s j : ℝ) : EReal)

/-- The running denominator: the sum over `S` of `exp (s j - running maximum)`. -/
noncomputable def runDen (S : Finset ι) : EReal := ∑ j ∈ S, Ideal.exp ((s j : EReal) - runMax s S)

/-- The running numerator: the sum over `S` of `exp (s j - running maximum) * v j`. -/
noncomputable def runNum (S : Finset ι) : EReal :=
  ∑ j ∈ S, Ideal.exp ((s j : EReal) - runMax s S) * (v j : EReal)

/-- The running maximum of the empty set is `⊥`. -/
@[simp] theorem runMax_empty : runMax s (∅ : Finset ι) = ⊥ := Finset.sup_empty

/-- The running denominator of the empty set is `0`. -/
@[simp] theorem runDen_empty : runDen s (∅ : Finset ι) = 0 := Finset.sum_empty

/-- The running numerator of the empty set is `0`. -/
@[simp] theorem runNum_empty : runNum s v (∅ : Finset ι) = 0 := Finset.sum_empty

/-- The running maximum over a union is the larger of the two running maxima. -/
theorem runMax_union (S B : Finset ι) : runMax s (S ∪ B) = max (runMax s S) (runMax s B) := by
  unfold runMax
  rw [Finset.sup_union]

/-- Over a nonempty set the running maximum is the (real) maximum of the scores. -/
theorem runMax_coe {S : Finset ι} (h : S.Nonempty) :
    runMax s S = ((S.sup' h s : ℝ) : EReal) := by
  unfold runMax
  rw [← Finset.sup'_eq_sup h]
  exact (Finset.comp_sup'_eq_sup'_comp h (fun r : ℝ => (r : EReal))
    (fun x y => EReal.coe_strictMono.monotone.map_max)).symm

/-- Over a nonempty set the running numerator is the real sum
`∑ j ∈ S, exp (s j - m) * v j`, with `m` the maximum of the scores over `S`. -/
theorem runNum_coe {S : Finset ι} (h : S.Nonempty) :
    runNum s v S = ((∑ j ∈ S, Real.exp (s j - S.sup' h s) * v j : ℝ) : EReal) := by
  unfold runNum
  rw [runMax_coe s h, coe_finset_sum]
  refine Finset.sum_congr rfl fun j _ => ?_
  rw [← EReal.coe_sub, Ideal.exp_coe, EReal.coe_mul]

/-- The running denominator is the running numerator of the constant values `1`. -/
theorem runDen_eq_runNum_one (S : Finset ι) : runDen s S = runNum s (fun _ => (1 : ℝ)) S := by
  unfold runDen runNum
  refine Finset.sum_congr rfl fun j _ => ?_
  rw [EReal.coe_one, mul_one]

/-- Over a nonempty set the running denominator is the real sum `∑ j ∈ S, exp (s j - m)`,
with `m` the maximum of the scores over `S`. -/
theorem runDen_coe {S : Finset ι} (h : S.Nonempty) :
    runDen s S = ((∑ j ∈ S, Real.exp (s j - S.sup' h s) : ℝ) : EReal) := by
  rw [runDen_eq_runNum_one, runNum_coe s _ h]
  simp only [mul_one]

/-- Over a nonempty set the running denominator is a positive real. -/
theorem runDen_coe_pos {S : Finset ι} (h : S.Nonempty) :
    ∃ L : ℝ, 0 < L ∧ runDen s S = (L : EReal) :=
  ⟨_, Finset.sum_pos (fun _ _ => Real.exp_pos _) h, runDen_coe s h⟩

/-- One step of the recurrence for the numerator: when a nonempty block `B` of new columns
arrives, the old numerator is rescaled by `exp (old maximum - new maximum)` and the block's
terms, taken against the new maximum, are added. It holds from the empty state too, where the
rescaling factor is `exp ⊥ = 0`. -/
theorem step_num (S B : Finset ι) (hB : B.Nonempty) (hd : Disjoint S B) :
    runNum s v (S ∪ B) = Ideal.exp (runMax s S - runMax s (S ∪ B)) * runNum s v S
      + ∑ j ∈ B, Ideal.exp ((s j : EReal) - runMax s (S ∪ B)) * (v j : EReal) := by
  rcases S.eq_empty_or_nonempty with rfl | hS
  · rw [runMax_empty, EReal.bot_sub, Ideal.exp_bot, runNum_empty, mul_zero, zero_add,
      Finset.empty_union]
    rfl
  · have hU : (S ∪ B).Nonempty := hS.mono Finset.subset_union_left
    have hBsum : ∑ j ∈ B, Ideal.exp ((s j : EReal) - runMax s (S ∪ B)) * (v j : EReal)
        = ((∑ j ∈ B, Real.exp (s j - (S ∪ B).sup' hU s) * v j : ℝ) : EReal) := by
      rw [runMax_coe s hU, coe_finset_sum]
      refine Finset.sum_congr rfl fun j _ => ?_
      rw [← EReal.coe_sub, Ideal.exp_coe, EReal.coe_mul]
    rw [hBsum, runNum_coe s v hU, runNum_coe s v hS, runMax_coe s hS, runMax_coe s hU,
      ← EReal.coe_sub, Ideal.exp_coe, ← EReal.coe_mul, ← EReal.coe_add]
    congr 1
    rw [Finset.sum_union hd, Finset.mul_sum]
    congr 1
    refine Finset.sum_congr rfl fun j _ => ?_
    rw [← mul_assoc, ← Real.exp_add]
    congr 2
    ring

/-- One step of the recurrence for the denominator: the old denominator is rescaled by
`exp (old maximum - new maximum)` and the block's terms against the new maximum are added. It
holds from the empty state too. -/
theorem step_den (S B : Finset ι) (hB : B.Nonempty) (hd : Disjoint S B) :
    runDen s (S ∪ B) = Ideal.exp (runMax s S - runMax s (S ∪ B)) * runDen s S
      + ∑ j ∈ B, Ideal.exp ((s j : EReal) - runMax s (S ∪ B)) := by
  rw [runDen_eq_runNum_one, runDen_eq_runNum_one, step_num s _ S B hB hd]
  congr 1
  refine Finset.sum_congr rfl fun j _ => ?_
  rw [EReal.coe_one, mul_one]

/-- The final quotient of the recurrence is the one-pass softmax-weighted sum: dividing the
numerator by the denominator equals summing the normalised weights times the values. -/
theorem quotient_eq (S : Finset ι) (h : S.Nonempty) :
    Ideal.div (runNum s v S) (runDen s S)
      = ∑ j ∈ S, Ideal.div (Ideal.exp ((s j : EReal) - runMax s S)) (runDen s S)
          * (v j : EReal) := by
  have hL : (∑ j ∈ S, Real.exp (s j - S.sup' h s)) ≠ 0 :=
    (Finset.sum_pos (fun _ _ => Real.exp_pos _) h).ne'
  rw [runDen_coe s h, Ideal.div_coe hL, runNum_coe s v h, ← EReal.coe_mul, Finset.sum_mul,
    coe_finset_sum]
  refine Finset.sum_congr rfl fun j _ => ?_
  rw [Ideal.div_coe hL, runMax_coe s h, ← EReal.coe_sub, Ideal.exp_coe, ← EReal.coe_mul,
    ← EReal.coe_mul]
  congr 1
  ring

end Cert.Lib.OnlineSoftmax

namespace Cert.Lib.Blocks

variable (b T : ℕ)

/-- The columns before block `n`: the indices below `n * b`. -/
def upto (n : ℕ) : Finset (Fin (T * b)) := Finset.univ.filter fun j => j.val < n * b

/-- Block `n` of columns: the indices in `[n * b, (n + 1) * b)`. -/
def blk (n : ℕ) : Finset (Fin (T * b)) :=
  Finset.univ.filter fun j => n * b ≤ j.val ∧ j.val < (n + 1) * b

/-- Membership in the columns before block `n`. -/
theorem mem_upto {n : ℕ} {j : Fin (T * b)} : j ∈ upto b T n ↔ j.val < n * b := by
  simp [upto]

/-- Membership in block `n`, with the upper end written `n * b + b`. -/
theorem mem_blk {n : ℕ} {j : Fin (T * b)} :
    j ∈ blk b T n ↔ n * b ≤ j.val ∧ j.val < n * b + b := by
  simp [blk, add_one_mul]

/-- No column lies before block `0`. -/
theorem upto_zero : upto b T 0 = ∅ := by
  ext j
  simp [mem_upto]

/-- The columns before block `n + 1` are those before block `n` together with block `n`. -/
theorem upto_succ (n : ℕ) : upto b T (n + 1) = upto b T n ∪ blk b T n := by
  ext j
  rw [Finset.mem_union, mem_upto, mem_upto, mem_blk, add_one_mul]
  omega

/-- Block `n` is disjoint from the columns before it. -/
theorem upto_blk_disjoint (n : ℕ) : Disjoint (upto b T n) (blk b T n) := by
  rw [Finset.disjoint_left]
  intro j h1 h2
  rw [mem_upto] at h1
  rw [mem_blk] at h2
  omega

/-- After all `T` blocks every column has been seen. -/
theorem upto_full : upto b T T = Finset.univ := by
  ext j
  simp [mem_upto]

/-- The `jj`-th column of block `n` is a column of `Fin (T * b)` when `n < T`. -/
theorem blk_bound {n : ℕ} (hn : n < T) (jj : Fin b) : n * b + jj.val < T * b := by
  have h1 : (n + 1) * b ≤ T * b := Nat.mul_le_mul_right b hn
  have h2 := jj.isLt
  rw [add_one_mul] at h1
  omega

/-- Block `n` is the image of `Fin b` under `jj ↦ n * b + jj`. -/
theorem blk_eq_image {n : ℕ} (hn : n < T) :
    blk b T n = Finset.univ.image
      (fun jj : Fin b => (⟨n * b + jj.val, blk_bound b T hn jj⟩ : Fin (T * b))) := by
  ext j
  rw [mem_blk, Finset.mem_image]
  constructor
  · rintro ⟨h1, h2⟩
    refine ⟨⟨j.val - n * b, by omega⟩, Finset.mem_univ _, ?_⟩
    apply Fin.ext
    show n * b + (j.val - n * b) = j.val
    omega
  · rintro ⟨jj, _, rfl⟩
    have h2 := jj.isLt
    show n * b ≤ n * b + jj.val ∧ n * b + jj.val < n * b + b
    omega

/-- The map `jj ↦ n * b + jj` into the columns is injective. -/
theorem blk_emb_injective {n : ℕ} (hn : n < T) :
    Function.Injective
      (fun jj : Fin b => (⟨n * b + jj.val, blk_bound b T hn jj⟩ : Fin (T * b))) := by
  intro x y hxy
  have h := congrArg Fin.val hxy
  apply Fin.ext
  change n * b + x.val = n * b + y.val at h
  omega

/-- A block is nonempty when the block length is positive. -/
theorem blk_nonempty (hb : 0 < b) {n : ℕ} (hn : n < T) : (blk b T n).Nonempty := by
  rw [blk_eq_image b T hn]
  exact ⟨_, Finset.mem_image_of_mem _ (Finset.mem_univ (⟨0, hb⟩ : Fin b))⟩

/-- A sum over the positions inside block `n` is the sum over the block. -/
theorem sum_blk {M : Type} [AddCommMonoid M] {n : ℕ} (hn : n < T) (f : Fin (T * b) → M) :
    ∑ jj : Fin b, f ⟨n * b + jj.val, blk_bound b T hn jj⟩ = ∑ j ∈ blk b T n, f j := by
  rw [blk_eq_image b T hn,
    Finset.sum_image fun x _ y _ hxy => blk_emb_injective b T hn hxy]

/-- A supremum over the positions inside block `n` is the supremum over the block, in any
semilattice with a bottom element. -/
theorem sup_blk_gen {α : Type} [SemilatticeSup α] [OrderBot α] {n : ℕ} (hn : n < T)
    (f : Fin (T * b) → α) :
    (Finset.univ : Finset (Fin b)).sup (fun jj => f ⟨n * b + jj.val, blk_bound b T hn jj⟩)
      = (blk b T n).sup f := by
  rw [blk_eq_image b T hn, Finset.sup_image]
  rfl

/-- A supremum of extended reals over the positions inside block `n` is the supremum over the
block. -/
theorem sup_blk {n : ℕ} (hn : n < T) (f : Fin (T * b) → EReal) :
    (Finset.univ : Finset (Fin b)).sup (fun jj => f ⟨n * b + jj.val, blk_bound b T hn jj⟩)
      = (blk b T n).sup f :=
  sup_blk_gen b T hn f

/-- Sixteen blocks of 256 columns make 4096 columns. -/
example : Fin (16 * 256) = Fin 4096 := rfl

/-- The sum over a block, for 16 blocks of 256 columns, with the columns typed `Fin 4096`. -/
theorem sum_blk_4096 {M : Type} [AddCommMonoid M] {n : ℕ} (hn : n < 16) (f : Fin 4096 → M) :
    ∑ jj : Fin 256, f ⟨n * 256 + jj.val, blk_bound 256 16 hn jj⟩ = ∑ j ∈ blk 256 16 n, f j :=
  sum_blk 256 16 hn f

/-- The supremum over a block, for 16 blocks of 256 columns, with the columns typed
`Fin 4096`. -/
theorem sup_blk_4096 {n : ℕ} (hn : n < 16) (f : Fin 4096 → EReal) :
    (Finset.univ : Finset (Fin 256)).sup
        (fun jj => f ⟨n * 256 + jj.val, blk_bound 256 16 hn jj⟩)
      = (blk 256 16 n).sup f :=
  sup_blk 256 16 hn f

end Cert.Lib.Blocks
-- ==== Proof.IdealStep.lean ====
import proofs.«154024_j88905823027932_2_alg».proof.Proof.IdealPayloads
import proofs.«154024_j88905823027932_2_alg».proof.Proof.LibOnlineSoftmax

noncomputable section

open scoped BigOperators

namespace Cert.KernelIdeal.Step

open Cert.KernelIdeal Cert.KernelIdeal.Gen Cert.KernelIdeal.Pay Idealize.ShloMosaic Idealize.ShloMosaic.ValueIdx
open Cert.Lib.OnlineSoftmax Cert.Lib.Blocks

/-! ## One key block of the online softmax

The attention kernel walks over 16 blocks of 256 keys. Before block `kv` it holds, for each query row `r`, the running
maximum, denominator and numerator of the scores `s r` over the keys of the first `kv` blocks; the payloads of one
grid point turn that state into the state over the first `kv + 1` blocks. -/

section OneBlock
variable (q k : FVec Ideal S256x4096 .f32) (v : FVec Ideal S256x4096 .bf16) (mm ll : FVec Ideal S256x1 .f32)
  (acc : FVec Ideal S256x4096 .f32) (s : Fin 256 → Fin 4096 → ℝ) (vv : Fin 4096 → Fin 4096 → ℝ) (kv : ℕ) (hkv : kv < 16)

/-- The new running maximum of row `r`: the old maximum against the largest score of the block is the maximum over
the keys seen so far together with the block. -/
theorem newMax_closed
    (hs : ∀ (r j : Fin 256), k1_pay8 (F := Ideal) q k (ix2 r j) = ((s r ⟨kv * 256 + j.val, blk_bound 256 16 hkv j⟩ : ℝ) : EReal))
    (hm : ∀ r : Fin 256, mm (ix2 r 0) = runMax (s r) (upto 256 16 kv)) (r : Fin 256) :
    k1_pay9 (F := Ideal) q k mm (ix2 r 0) = runMax (s r) (upto 256 16 kv ∪ blk 256 16 kv) := by
  refine (pay9_apply q k mm r).trans ?_
  refine ((congrArg₂ max (hm r) ?_).trans (runMax_union (s r) (upto 256 16 kv) (blk 256 16 kv)).symm)
  have h8 : (fun j : Fin 256 => k1_pay8 (F := Ideal) q k (ix2 r j))
      = fun j : Fin 256 => ((s r ⟨kv * 256 + j.val, blk_bound 256 16 hkv j⟩ : ℝ) : EReal) := funext (hs r)
  exact (congrArg (Finset.sup Finset.univ) h8).trans (sup_blk_4096 hkv fun j => ((s r j : ℝ) : EReal))

/-- One grid point of the attention kernel: from the state over the first `kv` key blocks to the state over the first
`kv + 1`. -/
theorem step_closed
    (hs : ∀ (r j : Fin 256), k1_pay8 (F := Ideal) q k (ix2 r j) = ((s r ⟨kv * 256 + j.val, blk_bound 256 16 hkv j⟩ : ℝ) : EReal))
    (hv : ∀ (j : Fin 256) (cc : Fin 4096), v (ix2 j cc) = ((vv ⟨kv * 256 + j.val, blk_bound 256 16 hkv j⟩ cc : ℝ) : EReal))
    (hm : ∀ r : Fin 256, mm (ix2 r 0) = runMax (s r) (upto 256 16 kv))
    (hl : ∀ r : Fin 256, ll (ix2 r 0) = runDen (s r) (upto 256 16 kv))
    (ha : ∀ (r : Fin 256) (cc : Fin 4096), acc (ix2 r cc) = runNum (s r) (fun j => vv j cc) (upto 256 16 kv)) :
    (∀ r : Fin 256, k1_pay3 (F := Ideal) (k1_pay9 (F := Ideal) q k mm) (ix2 r 0) = runMax (s r) (upto 256 16 (kv + 1)))
    ∧ (∀ r : Fin 256, k1_pay12 (F := Ideal) q k mm ll (ix2 r 0) = runDen (s r) (upto 256 16 (kv + 1)))
    ∧ (∀ (r : Fin 256) (cc : Fin 4096),
        k1_pay2 (F := Ideal) (k1_pay13 (F := Ideal) q k v mm) (k1_pay1 (F := Ideal) (k1_pay14 (F := Ideal) q k mm acc)) (ix2 r cc)
          = runNum (s r) (fun j => vv j cc) (upto 256 16 (kv + 1))) := by
  have hM := newMax_closed q k mm s kv hkv hs hm
  have hB : (blk 256 16 kv).Nonempty := blk_nonempty 256 16 (by decide) hkv
  have hd : Disjoint (upto 256 16 kv) (blk 256 16 kv) := upto_blk_disjoint 256 16 kv
  -- the rescaling factor of row `r`
  have h10 : ∀ r : Fin 256, k1_pay10 (F := Ideal) q k mm (ix2 r 0)
      = Ideal.exp (runMax (s r) (upto 256 16 kv) - runMax (s r) (upto 256 16 kv ∪ blk 256 16 kv)) := fun r => by
    rw [pay10_apply, hm r, hM r]
  -- the weight of key `j` of the block in row `r`
  have h11 : ∀ r j : Fin 256, k1_pay11 (F := Ideal) q k mm (ix2 r j)
      = Ideal.exp (((s r ⟨kv * 256 + j.val, blk_bound 256 16 hkv j⟩ : ℝ) : EReal) - runMax (s r) (upto 256 16 kv ∪ blk 256 16 kv)) :=
    fun r j => by rw [pay11_apply, hs r j, hM r]
  refine ⟨fun r => ?_, fun r => ?_, fun r cc => ?_⟩
  · rw [pay3_eq, upto_succ]
    exact hM r
  · rw [upto_succ]
    refine Eq.trans ?_ (step_den (s r) (upto 256 16 kv) (blk 256 16 kv) hB hd).symm
    refine (pay12_apply q k mm ll r).trans ?_
    rw [h10 r, hl r]
    refine congrArg₂ (· + · : EReal → EReal → EReal) rfl ?_
    refine (Finset.sum_congr rfl fun j _ => h11 r j).trans ?_
    exact sum_blk_4096 hkv fun j => Ideal.exp (((s r j : ℝ) : EReal) - runMax (s r) (upto 256 16 kv ∪ blk 256 16 kv))
  · rw [upto_succ]
    refine Eq.trans ?_ (step_num (s r) (fun j => vv j cc) (upto 256 16 kv) (blk 256 16 kv) hB hd).symm
    refine (pay2_apply' _ _ _).trans ?_
    rw [pay1_eq, pay14_apply, h10 r, ha r cc]
    refine congrArg₂ (· + · : EReal → EReal → EReal) rfl ?_
    refine (pay13_apply q k v mm r cc).trans ?_
    refine (Finset.sum_congr rfl fun j _ => ?_).trans
      (sum_blk_4096 hkv fun j => Ideal.exp (((s r j : ℝ) : EReal) - runMax (s r) (upto 256 16 kv ∪ blk 256 16 kv)) * ((vv j cc : ℝ) : EReal))
    rw [h11 r j, hv j cc]

end OneBlock

/-- Before the first key block the state is that of the empty set of keys: maximum `-∞`, both sums zero. -/
theorem init_closed (s : Fin 256 → Fin 4096 → ℝ) (vv : Fin 4096 → Fin 4096 → ℝ) :
    (∀ r : Fin 256, k1_pay5 (F := Ideal) (ix2 r 0) = runMax (s r) (upto 256 16 0))
    ∧ (∀ r : Fin 256, k1_pay6 (F := Ideal) (ix2 r 0) = runDen (s r) (upto 256 16 0))
    ∧ (∀ (r : Fin 256) (cc : Fin 4096), k1_pay7 (F := Ideal) (ix2 r cc) = runNum (s r) (fun j => vv j cc) (upto 256 16 0)) := by
  refine ⟨fun r => ?_, fun r => ?_, fun r cc => ?_⟩
  · rw [pay5_apply, upto_zero, runMax_empty]
  · rw [pay6_apply, upto_zero, runDen_empty]
  · rw [pay7_apply, upto_zero, runNum_empty]

/-- After the last key block the stored quotient is the numerator over all keys divided by the denominator over all
keys. -/
theorem out_closed (acc : FVec Ideal S256x4096 .f32) (l : FVec Ideal S256x1 .f32)
    (s : Fin 256 → Fin 4096 → ℝ) (vv : Fin 4096 → Fin 4096 → ℝ)
    (hl : ∀ r : Fin 256, l (ix2 r 0) = runDen (s r) (upto 256 16 16))
    (ha : ∀ (r : Fin 256) (cc : Fin 4096), acc (ix2 r cc) = runNum (s r) (fun j => vv j cc) (upto 256 16 16)) :
    ∀ (r : Fin 256) (cc : Fin 4096),
      k1_pay4 (F := Ideal) acc l (ix2 r cc) = Ideal.div (runNum (s r) (fun j => vv j cc) Finset.univ) (runDen (s r) Finset.univ) := by
  intro r cc
  rw [pay4_apply, ha r cc, hl r, upto_full]

end Cert.KernelIdeal.Step

end
-- ==== Proof.IdealAttnValue.lean ====
/-
  The value of the attention region at the ideal instance.  Point t = 16·qi + kv reads the query rows
  256·qi + r, the key and value rows 256·kv + j.  With the three projections real matrices q, k, v and
  s i j = Σ_n q i n · k j n, the three scratch buffers hold, after the point, the running maximum, denominator and
  weighted sum of row 256·qi + r over the first 256·(kv+1) columns; at kv = 15 the output block is their quotient.
-/
import proofs.«154024_j88905823027932_2_alg».proof.Proof.IdealAttnFrame
import proofs.«154024_j88905823027932_2_alg».proof.Proof.IdealAttnPieces
import proofs.«154024_j88905823027932_2_alg».proof.Proof.IdealStep
import proofs.«154024_j88905823027932_2_alg».proof.Proof.LibOnlineSoftmax
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.Pay Cert.KernelIdeal.Step
open Idealize.ShloMosaic Idealize.ShloMosaic.TcCoe ValueIdx
open Idealize.SL.Sem
open Idealize.ShloMosaic.Pipeline (Dat)
open Cert.Lib.OnlineSoftmax Cert.Lib.Blocks

/-- The windows' block indices at point t: the query and output windows move with t / 16, the key and value windows with t % 16. -/
theorem idx1_facts : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val % 16 ∧ win1_2.index t (1 : Fin 2) = 0
    ∧ win1_3.index t (0 : Fin 2) = t.val / 16 ∧ win1_3.index t (1 : Fin 2) = 0 :=
  (by decide +kernel : ∀ t : Fin grid1.N, _)

theorem row_bound {t : ℕ} (ht : t < 256) (r : Fin 256) : t / 16 * 256 + r.val < 4096 := by
  have := r.isLt; omega
theorem col_bound {t : ℕ} (r : Fin 256) : t % 16 * 256 + r.val < 4096 := by
  have := r.isLt; omega

section
variable (V : (c : Dev nD) → (b : Ref sig .tc) → Buf (Elt Ideal) ((c : Thread nD τ).loc b)) (c : Dev nD)
variable (qR kR vR : Fin 4096 → Fin 4096 → ℝ)

/-- The score of query row i against key row j. -/
def sR (i j : Fin 4096) : ℝ := ∑ n : Fin 4096, qR i n * kR j n

variable (hq : ∀ (i n : Fin 4096), V c main_v0_0 (ix2 i n) = ((qR i n : ℝ) : EReal))
  (hk : ∀ (j n : Fin 4096), V c main_v0_1 (ix2 j n) = ((kR j n : ℝ) : EReal))
  (hv : ∀ (j cc : Fin 4096), V c main_v0_2 (ix2 j cc) = ((vR j cc : ℝ) : EReal))
include hq in
/-- The query block of point t. -/
theorem blkQ (t : Fin cfg1.N) (r : Fin 256) (n : Fin 4096) :
    iblk1 V c 0 t (ix2 r n) = ((qR ⟨t.val / 16 * 256 + r.val, row_bound (lt_of_lt_of_eq t.isLt N_1) r⟩ n : ℝ) : EReal) := by
  have e : ((cfg1.win 0).blk t).view.emb (ix2 r n) = ix2 (⟨t.val / 16 * 256 + r.val, row_bound (lt_of_lt_of_eq t.isLt N_1) r⟩ : Fin 4096) n := by
    funext a; apply Fin.ext
    match a with
    | ⟨0, _⟩ => show win1_0.index t (0 : Fin 2) * 256 + 1 * r.val = t.val / 16 * 256 + r.val; rw [(idx1_facts t).1]; omega
    | ⟨1, _⟩ => show win1_0.index t (1 : Fin 2) * 4096 + 1 * n.val = n.val; rw [(idx1_facts t).2.1]; omega
  show V c main_v0_0 (((cfg1.win 0).blk t).view.emb (ix2 r n)) = _
  rw [e]; exact hq _ _
include hk in
/-- The key block of point t. -/
theorem blkK (t : Fin cfg1.N) (j : Fin 256) (n : Fin 4096) :
    iblk1 V c 1 t (ix2 j n) = ((kR ⟨t.val % 16 * 256 + j.val, col_bound j⟩ n : ℝ) : EReal) := by
  have e : ((cfg1.win 1).blk t).view.emb (ix2 j n) = ix2 (⟨t.val % 16 * 256 + j.val, col_bound j⟩ : Fin 4096) n := by
    funext a; apply Fin.ext
    match a with
    | ⟨0, _⟩ => show win1_1.index t (0 : Fin 2) * 256 + 1 * j.val = t.val % 16 * 256 + j.val; rw [(idx1_facts t).2.2.1]; omega
    | ⟨1, _⟩ => show win1_1.index t (1 : Fin 2) * 4096 + 1 * n.val = n.val; rw [(idx1_facts t).2.2.2.1]; omega
  show V c main_v0_1 (((cfg1.win 1).blk t).view.emb (ix2 j n)) = _
  rw [e]; exact hk _ _
include hv in
/-- The value block of point t. -/
theorem blkV (t : Fin cfg1.N) (j : Fin 256) (cc : Fin 4096) :
    iblk1 V c 2 t (ix2 j cc) = ((vR ⟨t.val % 16 * 256 + j.val, col_bound j⟩ cc : ℝ) : EReal) := by
  have e : ((cfg1.win 2).blk t).view.emb (ix2 j cc) = ix2 (⟨t.val % 16 * 256 + j.val, col_bound j⟩ : Fin 4096) cc := by
    funext a; apply Fin.ext
    match a with
    | ⟨0, _⟩ => show win1_2.index t (0 : Fin 2) * 256 + 1 * j.val = t.val % 16 * 256 + j.val; rw [(idx1_facts t).2.2.2.2.1]; omega
    | ⟨1, _⟩ => show win1_2.index t (1 : Fin 2) * 4096 + 1 * cc.val = cc.val; rw [(idx1_facts t).2.2.2.2.2.1]; omega
  show V c main_v0_2 (((cfg1.win 2).blk t).view.emb (ix2 j cc)) = _
  rw [e]; exact hv _ _

include hq hk in
/-- The block of scores the point computes: row 256·qi + r against column 256·kv + j. -/
theorem blkS (t : Fin cfg1.N) (r j : Fin 256) :
    k1_pay8 (F := Ideal) (iblk1 V c 0 t) (iblk1 V c 1 t) (ix2 r j)
      = ((sR qR kR ⟨t.val / 16 * 256 + r.val, row_bound (lt_of_lt_of_eq t.isLt N_1) r⟩ ⟨t.val % 16 * 256 + j.val, col_bound j⟩ : ℝ) : EReal) := by
  refine (pay8_apply _ _ r j).trans ?_
  unfold sR
  rw [coe_finset_sum]
  refine Finset.sum_congr rfl fun n _ => ?_
  rw [blkQ V c qR hq t r n, blkK V c kR hk t j n, EReal.coe_mul]
end

/-! ## The state after each point -/

section
variable (V : (c : Dev nD) → (b : Ref sig .tc) → Buf (Elt Ideal) ((c : Thread nD τ).loc b)) (c : Dev nD)
variable (qR kR vR : Fin 4096 → Fin 4096 → ℝ)

/-- After point n the three scratch buffers hold the running forms of row 256·(n/16) + r over the first (n%16 + 1) key blocks. -/
def Inv (n : ℕ) (hn : n < cfg1.N) : Prop :=
  ∀ (r : Fin 256) (i : Fin 4096), i.val = n / 16 * 256 + r.val →
    (outsAt1 V c n hn).2.2.1 (ix2 r 0) = runMax (sR qR kR i) (upto 256 16 (n % 16 + 1))
    ∧ (outsAt1 V c n hn).2.2.2 (ix2 r 0) = runDen (sR qR kR i) (upto 256 16 (n % 16 + 1))
    ∧ ∀ cc : Fin 4096, (outsAt1 V c n hn).2.1 (ix2 r cc) = runNum (sR qR kR i) (fun j => vR j cc) (upto 256 16 (n % 16 + 1))

variable (hq : ∀ (i n : Fin 4096), V c main_v0_0 (ix2 i n) = ((qR i n : ℝ) : EReal))
  (hk : ∀ (j n : Fin 4096), V c main_v0_1 (ix2 j n) = ((kR j n : ℝ) : EReal))
  (hv : ∀ (j cc : Fin 4096), V c main_v0_2 (ix2 j cc) = ((vR j cc : ℝ) : EReal))

include hq hk hv in
/-- One point: from the state over the first kv blocks (the reset state when kv = 0) to the state over kv + 1 blocks. -/
theorem step_at (t : Fin cfg1.N) (mm ll : FVec Ideal S256x1 .f32) (acc : FVec Ideal S256x4096 .f32)
    (hm : ∀ r : Fin 256, mm (ix2 r 0) = runMax (sR qR kR ⟨t.val / 16 * 256 + r.val, row_bound (lt_of_lt_of_eq t.isLt N_1) r⟩) (upto 256 16 (t.val % 16)))
    (hl : ∀ r : Fin 256, ll (ix2 r 0) = runDen (sR qR kR ⟨t.val / 16 * 256 + r.val, row_bound (lt_of_lt_of_eq t.isLt N_1) r⟩) (upto 256 16 (t.val % 16)))
    (ha : ∀ (r : Fin 256) (cc : Fin 4096), acc (ix2 r cc) = runNum (sR qR kR ⟨t.val / 16 * 256 + r.val, row_bound (lt_of_lt_of_eq t.isLt N_1) r⟩) (fun j => vR j cc) (upto 256 16 (t.val % 16)))
    (r : Fin 256) (i : Fin 4096) (hi : i.val = t.val / 16 * 256 + r.val) :
    stepM (iblk1 V c 0 t) (iblk1 V c 1 t) mm (ix2 r 0) = runMax (sR qR kR i) (upto 256 16 (t.val % 16 + 1))
    ∧ stepL (iblk1 V c 0 t) (iblk1 V c 1 t) mm ll (ix2 r 0) = runDen (sR qR kR i) (upto 256 16 (t.val % 16 + 1))
    ∧ ∀ cc : Fin 4096, stepA (iblk1 V c 0 t) (iblk1 V c 1 t) (iblk1 V c 2 t) mm acc (ix2 r cc) = runNum (sR qR kR i) (fun j => vR j cc) (upto 256 16 (t.val % 16 + 1)) := by
  obtain rfl : i = ⟨t.val / 16 * 256 + r.val, row_bound (lt_of_lt_of_eq t.isLt N_1) r⟩ := Fin.ext hi
  obtain ⟨h1, h2, h3⟩ := step_closed (iblk1 V c 0 t) (iblk1 V c 1 t) (iblk1 V c 2 t) mm ll acc
    (fun r => sR qR kR ⟨t.val / 16 * 256 + r.val, row_bound (lt_of_lt_of_eq t.isLt N_1) r⟩) vR (t.val % 16) (Nat.mod_lt _ (by decide))
    (fun r j => blkS V c qR kR hq hk t r j) (fun j cc => blkV V c vR hv t j cc) hm hl ha
  exact ⟨h1 r, h2 r, fun cc => h3 r cc⟩

include hq hk hv in
theorem inv_all : ∀ (n : ℕ) (hn : n < cfg1.N), Inv V c qR kR vR n hn := by
  intro n
  induction n with
  | zero =>
    intro hn r i hi
    have e := outsAt1_A V c ⟨0, hn⟩ (Nat.zero_mod _) (by show ¬ (0 : ℕ) % 16 = 15; omega)
    rw [show outsAt1 V c 0 hn = _ from e]
    dsimp only
    rw [sout1_A_1_eq, sout1_A_2_eq, sout1_A_0_eq]
    obtain ⟨i1, i2, i3⟩ := init_closed (fun r => sR qR kR ⟨(0 : ℕ) / 16 * 256 + r.val, row_bound (lt_of_lt_of_eq hn N_1) r⟩) vR
    exact step_at V c qR kR vR hq hk hv ⟨0, hn⟩ _ _ _ i1 i2 i3 r i hi
  | succ n ih =>
    intro hn r i hi
    have hN : n + 1 < 256 := lt_of_lt_of_eq hn N_1
    by_cases h0 : (n + 1) % 16 = 0
    · have h1 : ¬(n + 1) % 16 = 15 := by omega
      have e := outsAt1_A V c ⟨n + 1, hn⟩ h0 h1
      rw [show outsAt1 V c (n + 1) hn = _ from e]
      dsimp only
      rw [sout1_A_1_eq, sout1_A_2_eq, sout1_A_0_eq]
      obtain ⟨i1, i2, i3⟩ := init_closed (fun r => sR qR kR ⟨(n + 1) / 16 * 256 + r.val, row_bound hN r⟩) vR
      have hz : ((⟨n + 1, hn⟩ : Fin cfg1.N).val % 16) = 0 := h0
      have := step_at V c qR kR vR hq hk hv ⟨n + 1, hn⟩ (k1_pay5 (F := Ideal)) (k1_pay6 (F := Ideal)) (k1_pay7 (F := Ideal))
        (by rw [hz]; exact i1) (by rw [hz]; exact i2) (by rw [hz]; exact i3) r i hi
      exact this
    · have hprev := ih (Nat.lt_of_succ_lt hn)
      have e1 : n / 16 = (n + 1) / 16 := by omega
      have e2 : n % 16 + 1 = (n + 1) % 16 := by omega
      have hm : ∀ r : Fin 256, (outsAt1 V c n (Nat.lt_of_succ_lt hn)).2.2.1 (ix2 r 0) = runMax (sR qR kR ⟨(n + 1) / 16 * 256 + r.val, row_bound hN r⟩) (upto 256 16 ((n + 1) % 16)) := fun r => by
        rw [← e2]; exact (hprev r _ (by show (n + 1) / 16 * 256 + r.val = n / 16 * 256 + r.val; rw [e1])).1
      have hl : ∀ r : Fin 256, (outsAt1 V c n (Nat.lt_of_succ_lt hn)).2.2.2 (ix2 r 0) = runDen (sR qR kR ⟨(n + 1) / 16 * 256 + r.val, row_bound hN r⟩) (upto 256 16 ((n + 1) % 16)) := fun r => by
        rw [← e2]; exact (hprev r _ (by show (n + 1) / 16 * 256 + r.val = n / 16 * 256 + r.val; rw [e1])).2.1
      have ha : ∀ (r : Fin 256) (cc : Fin 4096), (outsAt1 V c n (Nat.lt_of_succ_lt hn)).2.1 (ix2 r cc) = runNum (sR qR kR ⟨(n + 1) / 16 * 256 + r.val, row_bound hN r⟩) (fun j => vR j cc) (upto 256 16 ((n + 1) % 16)) := fun r cc => by
        rw [← e2]; exact (hprev r _ (by show (n + 1) / 16 * 256 + r.val = n / 16 * 256 + r.val; rw [e1])).2.2 cc
      by_cases h1 : (n + 1) % 16 = 15
      · have e := outsAt1_C V c ⟨n + 1, hn⟩ h0 h1
        rw [show outsAt1 V c (n + 1) hn = _ from e]
        dsimp only
        rw [sout1_C_1_eq, sout1_C_2_eq, sout1_C_0_eq]
        exact step_at V c qR kR vR hq hk hv ⟨n + 1, hn⟩ _ _ _ hm hl ha r i hi
      · have e := outsAt1_B V c ⟨n + 1, hn⟩ h0 h1
        rw [show outsAt1 V c (n + 1) hn = _ from e]
        dsimp only
        rw [sout1_B_1_eq, sout1_B_2_eq, sout1_B_0_eq]
        exact step_at V c qR kR vR hq hk hv ⟨n + 1, hn⟩ _ _ _ hm hl ha r i hi
end

/-! ## The output array -/

section
variable (V : (c : Dev nD) → (b : Ref sig .tc) → Buf (Elt Ideal) ((c : Thread nD τ).loc b)) (c : Dev nD)
variable (qR kR vR : Fin 4096 → Fin 4096 → ℝ)

/-- Softmax attention over the real matrices q, k, v at (i, c): the weighted sum of column c divided by row i's denominator. -/
def Gout : S4096x4096.Idx → EReal := fun idx =>
  Ideal.div (runNum (sR qR kR (idx 0)) (fun j => vR j (idx 1)) Finset.univ) (runDen (sR qR kR (idx 0)) Finset.univ)

theorem Gout_ix2 (i cc : Fin 4096) : Gout qR kR vR (ix2 i cc)
    = Ideal.div (runNum (sR qR kR i) (fun j => vR j cc) Finset.univ) (runDen (sR qR kR i) Finset.univ) := rfl

/-- Reading an array through the output window's block at point t is reading it at the block's embedded index. -/
theorem read3_apply (t : Fin cfg1.N) (G : S4096x4096.Idx → EReal) (y : S256x4096.Idx) :
    ((cfg1.win 3).blk t).view.read (Elt Ideal) G y = G (((cfg1.win 3).blk t).view.emb y) := rfl

/-- The output window's blocks are whole: what is written back is the buffer's contents as they are. -/
theorem cut3_apply (t : Fin cfg1.N) (X : S256x4096.Idx → EReal) (r : Fin 256) (cc : Fin 4096) :
    (cfg1.win 3).cut (grid1.coords t) X (ix2 r cc) = X (ix2 r cc) := rfl

variable (hq : ∀ (i n : Fin 4096), V c main_v0_0 (ix2 i n) = ((qR i n : ℝ) : EReal))
  (hk : ∀ (j n : Fin 4096), V c main_v0_1 (ix2 j n) = ((kR j n : ℝ) : EReal))
  (hv : ∀ (j cc : Fin 4096), V c main_v0_2 (ix2 j cc) = ((vR j cc : ℝ) : EReal))

include hq hk hv in
/-- At the last point of a query tile the quotient the body stores is softmax attention at the tile's rows. -/
theorem flush_point (t : Fin cfg1.N) (h15 : t.val % 16 = 15) (mm ll : FVec Ideal S256x1 .f32) (acc : FVec Ideal S256x4096 .f32)
    (hm : ∀ r' : Fin 256, mm (ix2 r' 0) = runMax (sR qR kR ⟨t.val / 16 * 256 + r'.val, row_bound (lt_of_lt_of_eq t.isLt N_1) r'⟩) (upto 256 16 (t.val % 16)))
    (hl : ∀ r' : Fin 256, ll (ix2 r' 0) = runDen (sR qR kR ⟨t.val / 16 * 256 + r'.val, row_bound (lt_of_lt_of_eq t.isLt N_1) r'⟩) (upto 256 16 (t.val % 16)))
    (ha : ∀ (r' : Fin 256) (cc : Fin 4096), acc (ix2 r' cc) = runNum (sR qR kR ⟨t.val / 16 * 256 + r'.val, row_bound (lt_of_lt_of_eq t.isLt N_1) r'⟩) (fun j => vR j cc) (upto 256 16 (t.val % 16)))
    (r : Fin 256) (cc : Fin 4096) :
    k1_pay4 (F := Ideal) (stepA (iblk1 V c 0 t) (iblk1 V c 1 t) (iblk1 V c 2 t) mm acc) (stepL (iblk1 V c 0 t) (iblk1 V c 1 t) mm ll) (ix2 r cc)
      = Gout qR kR vR (ix2 (⟨t.val / 16 * 256 + r.val, row_bound (lt_of_lt_of_eq t.isLt N_1) r⟩ : Fin 4096) cc) := by
  have e16 : t.val % 16 + 1 = 16 := by omega
  have hL : ∀ r' : Fin 256, stepL (iblk1 V c 0 t) (iblk1 V c 1 t) mm ll (ix2 r' 0)
      = runDen (sR qR kR ⟨t.val / 16 * 256 + r'.val, row_bound (lt_of_lt_of_eq t.isLt N_1) r'⟩) (upto 256 16 16) := fun r' => by
    have := (step_at V c qR kR vR hq hk hv t mm ll acc hm hl ha r' ⟨t.val / 16 * 256 + r'.val, row_bound (lt_of_lt_of_eq t.isLt N_1) r'⟩ rfl).2.1; rwa [e16] at this
  have hA : ∀ (r' : Fin 256) (cc : Fin 4096), stepA (iblk1 V c 0 t) (iblk1 V c 1 t) (iblk1 V c 2 t) mm acc (ix2 r' cc)
      = runNum (sR qR kR ⟨t.val / 16 * 256 + r'.val, row_bound (lt_of_lt_of_eq t.isLt N_1) r'⟩) (fun j => vR j cc) (upto 256 16 16) := fun r' cc => by
    have := (step_at V c qR kR vR hq hk hv t mm ll acc hm hl ha r' ⟨t.val / 16 * 256 + r'.val, row_bound (lt_of_lt_of_eq t.isLt N_1) r'⟩ rfl).2.2 cc; rwa [e16] at this
  rw [Gout_ix2]
  exact out_closed (stepA (iblk1 V c 0 t) (iblk1 V c 1 t) (iblk1 V c 2 t) mm acc) (stepL (iblk1 V c 0 t) (iblk1 V c 1 t) mm ll)
    (fun r' => sR qR kR ⟨t.val / 16 * 256 + r'.val, row_bound (lt_of_lt_of_eq t.isLt N_1) r'⟩) vR hL hA r cc

include hq hk hv in
/-- What the last point of a query tile writes back is that tile's block of `Gout`. -/
theorem flushed3_eq (t : Fin cfg1.N) (hf : (cfg1.win 3).flush t = true) :
    (dat1 V c).flushed 3 t = ((cfg1.win 3).blk t).view.read (Elt Ideal) (Gout qR kR vR) := by
  have h15 : t.val % 16 = 15 := (flush1_3 t).mp hf
  have h0 : ¬ t.val % 16 = 0 := by omega
  have hN : t.val < 256 := lt_of_lt_of_eq t.isLt N_1
  have hprev := inv_all V c qR kR vR hq hk hv (t.val - 1) (Nat.lt_of_le_of_lt (Nat.sub_le _ _) t.isLt)
  have e1 : (t.val - 1) / 16 = t.val / 16 := by omega
  have e2 : (t.val - 1) % 16 + 1 = t.val % 16 := by omega
  have hm : ∀ r' : Fin 256, (outsAt1 V c (t.val - 1) (Nat.lt_of_le_of_lt (Nat.sub_le _ _) t.isLt)).2.2.1 (ix2 r' 0) = runMax (sR qR kR ⟨t.val / 16 * 256 + r'.val, row_bound (lt_of_lt_of_eq t.isLt N_1) r'⟩) (upto 256 16 (t.val % 16)) := fun r' => by
    rw [← e2]; exact (hprev r' _ (by show t.val / 16 * 256 + r'.val = (t.val - 1) / 16 * 256 + r'.val; rw [e1])).1
  have hl : ∀ r' : Fin 256, (outsAt1 V c (t.val - 1) (Nat.lt_of_le_of_lt (Nat.sub_le _ _) t.isLt)).2.2.2 (ix2 r' 0) = runDen (sR qR kR ⟨t.val / 16 * 256 + r'.val, row_bound (lt_of_lt_of_eq t.isLt N_1) r'⟩) (upto 256 16 (t.val % 16)) := fun r' => by
    rw [← e2]; exact (hprev r' _ (by show t.val / 16 * 256 + r'.val = (t.val - 1) / 16 * 256 + r'.val; rw [e1])).2.1
  have ha : ∀ (r' : Fin 256) (cc : Fin 4096), (outsAt1 V c (t.val - 1) (Nat.lt_of_le_of_lt (Nat.sub_le _ _) t.isLt)).2.1 (ix2 r' cc) = runNum (sR qR kR ⟨t.val / 16 * 256 + r'.val, row_bound (lt_of_lt_of_eq t.isLt N_1) r'⟩) (fun j => vR j cc) (upto 256 16 (t.val % 16)) := fun r' cc => by
    rw [← e2]; exact (hprev r' _ (by show t.val / 16 * 256 + r'.val = (t.val - 1) / 16 * 256 + r'.val; rw [e1])).2.2 cc
  show (cfg1.win 3).cut (grid1.coords t) ((dat1 V c).after 3 t) = _
  rw [after1_3, outsAt1_C V c t h0 h15]
  dsimp only
  rw [out1_C_3_eq]
  funext y
  obtain ⟨r, cc, rfl⟩ : ∃ (r : Fin 256) (cc : Fin 4096), y = ix2 r cc := ⟨y 0, y 1, eq_ix2 y⟩
  have e : ((cfg1.win 3).blk t).view.emb (ix2 r cc) = ix2 (⟨t.val / 16 * 256 + r.val, row_bound hN r⟩ : Fin 4096) cc := by
    funext a; apply Fin.ext
    match a with
    | ⟨0, _⟩ => show win1_3.index t (0 : Fin 2) * 256 + 1 * r.val = t.val / 16 * 256 + r.val; rw [(idx1_facts t).2.2.2.2.2.2.1]; omega
    | ⟨1, _⟩ => show win1_3.index t (1 : Fin 2) * 4096 + 1 * cc.val = cc.val; rw [(idx1_facts t).2.2.2.2.2.2.2]; omega
  refine (cut3_apply t _ r cc).trans ?_
  refine Eq.trans ?_ (read3_apply t (Gout qR kR vR) (ix2 r cc)).symm
  rw [e]
  exact flush_point V c qR kR vR hq hk hv t h15 _ _ _ hm hl ha r cc

/-- An index of the result array is in point t's block iff each coordinate is in the block's range. -/
theorem mem_blk3 (t : Fin cfg1.N) (i : S4096x4096.Idx) :
    i ∈ ((cfg1.win 3).blk t).view.set ↔ ∀ a : Fin 2, win1_3.index t a * S256x4096.size a ≤ (i a).val ∧ (i a).val < win1_3.index t a * S256x4096.size a + S256x4096.size a := by
  show i ∈ ((View.whole main_v1).slice (win1_3.rect t)).set ↔ _
  rw [View.set_slice_whole, Rect.mem_set_unit]
  exact Iff.rfl

/-- Row i of the result lies in the block the last point of tile i / 256 writes back. -/
theorem cover3 (i : S4096x4096.Idx) : ∃ t : Fin cfg1.N, (cfg1.win 3).flush t = true ∧ i ∈ ((cfg1.win 3).blk t).view.set := by
  have hi0 : (i 0).val < 4096 := (i 0).isLt
  have hi1 : (i 1).val < 4096 := (i 1).isLt
  have hlt : (i 0).val / 256 * 16 + 15 < cfg1.N := by rw [show cfg1.N = 256 from N_1]; omega
  refine ⟨⟨(i 0).val / 256 * 16 + 15, hlt⟩, (flush1_3 _).mpr (by show ((i 0).val / 256 * 16 + 15) % 16 = 15; omega), ?_⟩
  rw [mem_blk3]
  have f6 := (idx1_facts ⟨(i 0).val / 256 * 16 + 15, hlt⟩).2.2.2.2.2.2.1
  have f7 := (idx1_facts ⟨(i 0).val / 256 * 16 + 15, hlt⟩).2.2.2.2.2.2.2
  intro a
  match a with
  | ⟨0, _⟩ =>
    show win1_3.index ⟨(i 0).val / 256 * 16 + 15, hlt⟩ (0 : Fin 2) * 256 ≤ (i 0).val ∧ (i 0).val < win1_3.index ⟨(i 0).val / 256 * 16 + 15, hlt⟩ (0 : Fin 2) * 256 + 256
    rw [f6]; show ((i 0).val / 256 * 16 + 15) / 16 * 256 ≤ (i 0).val ∧ (i 0).val < ((i 0).val / 256 * 16 + 15) / 16 * 256 + 256; omega
  | ⟨1, _⟩ =>
    show win1_3.index ⟨(i 0).val / 256 * 16 + 15, hlt⟩ (1 : Fin 2) * 4096 ≤ (i 1).val ∧ (i 1).val < win1_3.index ⟨(i 0).val / 256 * 16 + 15, hlt⟩ (1 : Fin 2) * 4096 + 4096
    rw [f7]; omega

include hq hk hv in
/-- The result array after the region: softmax attention of the three projections. -/
theorem attn_value : (dat1 V c).arrAt 3 cfg1.N = Gout qR kR vR :=
  (dat1 V c).arrAt_eq_of_cover 3 (Gout qR kR vR) (fun t hf => flushed3_eq V c qR kR vR hq hk hv t hf) cover3
end

end Cert.KernelIdeal.Hand

end
-- ==== Proof.IdealProjValue.lean ====
/-
  The projection region's three output arrays, at the ideal values, are matrix products.

  The region runs an 8 × 8 grid. At each point its body multiplies a 512 × 1024 block of the activations by a
  1024 × 512 block of each of three weight matrices and writes the three 512 × 512 products back as blocks of three
  4096 × 4096 arrays. At the ideal values rounding to bf16 is the identity and a product accumulated into zero is a
  plain sum, so each stored block is, entry by entry, `∑ d, x (a, d) · w (d, b)` over the whole shared axis of
  length 1024.

  The activation block at a point holds the rows `r · 512 …` of the activations (all columns) and a weight block
  the columns `s · 512 …` of its matrix (all rows), where `(r, s)` is the output block's position: a block's
  coordinate in its array is always block index × block size + the coordinate inside the block. Hence the block
  written at `(r, s)` is exactly block `(r, s)` of the full product `X · W` (`block_prod`): the contraction is not
  split between points. Every point writes its block back, and the 64 blocks tile the array (entry `(i, n)` lies in
  block `(i / 512, n / 512)`), so after the region each array IS the full product, index by index
  (`arr4_eq`, `arr5_eq`, `arr6_eq`).
-/
import proofs.«154024_j88905823027932_2_alg».proof.Proof.IdealRegion0
import Idealize.ShloMosaic.Lib.Pipeline.Value
import Idealize.ShloMosaic.Lib.ValueIdx
import Idealize.ShloMosaic.PureOps.Ideal.Laws

noncomputable section

namespace Cert.KernelIdeal.Hand.ProjValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx
open scoped BigOperators

/-! ## One block product, read at an index -/

/-! The block product's dimension numbers: a 512 × 1024 left operand and a 1024 × 512 right operand, contracted over
the left operand's columns and the right operand's rows. -/

/-- The left operand is read in the output's row. -/
theorem lhs_row (j : S512x512.Idx) (q : dot_S512x1024_S1024x512_S512x512_1_0_0_1_n_n.contr.Idx) : (dot_S512x1024_S1024x512_S512x512_1_0_0_1_n_n.lhsIdx j q 0).val = (j 0).val := by
  unfold DotDims.lhsIdx
  rw [dif_neg (show ¬(0 : Fin S512x1024.rank) ∈ dot_S512x1024_S1024x512_S512x512_1_0_0_1_n_n.lhsBatch by decide),
    dif_pos (show (0 : Fin S512x1024.rank) ∈ dot_S512x1024_S1024x512_S512x512_1_0_0_1_n_n.lhsNonContracting by decide)]
  rfl
/-- … and in the column the contraction index names. -/
theorem lhs_contr (j : S512x512.Idx) (q : dot_S512x1024_S1024x512_S512x512_1_0_0_1_n_n.contr.Idx) : (dot_S512x1024_S1024x512_S512x512_1_0_0_1_n_n.lhsIdx j q 1).val = (q ⟨0, by decide⟩).val :=
  dot_S512x1024_S1024x512_S512x512_1_0_0_1_n_n.lhsIdx_val_of_single rfl j q
/-- The right operand is read in the row the contraction index names … -/
theorem rhs_contr (j : S512x512.Idx) (q : dot_S512x1024_S1024x512_S512x512_1_0_0_1_n_n.contr.Idx) : (dot_S512x1024_S1024x512_S512x512_1_0_0_1_n_n.rhsIdx j q 0).val = (q ⟨0, by decide⟩).val :=
  dot_S512x1024_S1024x512_S512x512_1_0_0_1_n_n.rhsIdx_val_of_single rfl j q
/-- … and in the output's column. -/
theorem rhs_col (j : S512x512.Idx) (q : dot_S512x1024_S1024x512_S512x512_1_0_0_1_n_n.contr.Idx) : (dot_S512x1024_S1024x512_S512x512_1_0_0_1_n_n.rhsIdx j q 1).val = (j 1).val := by
  unfold DotDims.rhsIdx
  rw [dif_neg (show ¬(1 : Fin S1024x512.rank) ∈ dot_S512x1024_S1024x512_S512x512_1_0_0_1_n_n.rhsBatch by decide),
    dif_pos (show (1 : Fin S1024x512.rank) ∈ dot_S512x1024_S1024x512_S512x512_1_0_0_1_n_n.rhsNonContracting by decide)]
  rfl

/-- At the ideal values the block product accumulated into a zero splat is, at output index `(a, b)`, the sum over
    `d` of `x (a, d) · w (d, b)`: the contraction index is its one coordinate, and the sum is re-indexed through
    that bijection. -/
theorem prod_apply (x : FVec Ideal S512x1024 .bf16) (w : FVec Ideal S1024x512 .bf16) (j : S512x512.Idx) :
    matmul dot_S512x1024_S1024x512_S512x512_1_0_0_1_n_n none x w (constant S512x512 .f32 0x00000000#32) j
      = ∑ d : Fin 1024, x (ix2 (j 0) d) * w (ix2 d (j 1)) := by
  show FloatOps.matmul dot_S512x1024_S1024x512_S512x512_1_0_0_1_n_n none x w (constant S512x512 .f32 0x00000000#32) j = _
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx j ((contrEquiv1 dot_S512x1024_S1024x512_S512x512_1_0_0_1_n_n 1024 rfl rfl).symm k) = ix2 (j 0) k := funext fun a => Fin.ext (by
    match a with
    | ⟨0, _⟩ => exact lhs_row _ _
    | ⟨1, _⟩ => exact (lhs_contr _ _).trans hk)
  have er : dot_S512x1024_S1024x512_S512x512_1_0_0_1_n_n.rhsIdx j ((contrEquiv1 dot_S512x1024_S1024x512_S512x512_1_0_0_1_n_n 1024 rfl rfl).symm k) = ix2 k (j 1) := funext fun a => Fin.ext (by
    match a with
    | ⟨0, _⟩ => exact (rhs_contr _ _).trans hk
    | ⟨1, _⟩ => exact rhs_col _ _)
  exact congrArg₂ (· * ·) (congrArg x el) (congrArg w er)

/-- The first stored payload: rounding an operand to bf16 is the identity at the ideal values, so the payload is the
    product of the two blocks as they are. -/
theorem pay2_apply (x : Vec Ideal S512x1024 .f32) (w : Vec Ideal S1024x512 .f32) (j : S512x512.Idx) :
    k0_pay2 x w j = ∑ d : Fin 1024, x (ix2 (j 0) d) * w (ix2 d (j 1)) := by
  unfold k0_pay2 k0_pay1
  exact prod_apply _ _ j
/-- The second stored payload, likewise. -/
theorem pay3_apply (x : Vec Ideal S512x1024 .f32) (w : Vec Ideal S1024x512 .f32) (j : S512x512.Idx) :
    k0_pay3 x w j = ∑ d : Fin 1024, x (ix2 (j 0) d) * w (ix2 d (j 1)) := by
  unfold k0_pay3 k0_pay1
  exact prod_apply _ _ j
/-- The third stored payload: the product rounded once more to bf16, again the identity at the ideal values. -/
theorem pay4_apply (x : Vec Ideal S512x1024 .f32) (w : Vec Ideal S1024x512 .f32) (j : S512x512.Idx) :
    k0_pay4 x w j = ∑ d : Fin 1024, x (ix2 (j 0) d) * w (ix2 d (j 1)) := by
  unfold k0_pay4 k0_pay1
  exact prod_apply _ _ j

/-! ## The whole-array product -/

/-- Entry `(i, n)` of the product of a 4096 × 1024 matrix `X` and a 1024 × 4096 matrix `W`: `∑ d, X (i, d) · W (d, n)`. -/
def matProd (X : S4096x1024.Idx → EReal) (W : S1024x4096.Idx → EReal) (i n : Fin 4096) : EReal :=
  ∑ d : Fin 1024, X (ix2 i d) * W (ix2 d n)

/-- The product as an array over the 4096 × 4096 index set. -/
def prodArr (X : S4096x1024.Idx → EReal) (W : S1024x4096.Idx → EReal) : S4096x4096.Idx → EReal :=
  fun idx => matProd X W (idx 0) (idx 1)

/-- The product array at an index, spelt out. -/
theorem prodArr_apply (X : S4096x1024.Idx → EReal) (W : S1024x4096.Idx → EReal) (idx : S4096x4096.Idx) :
    prodArr X W idx = ∑ d : Fin 1024, X (ix2 (idx 0) d) * W (ix2 d (idx 1)) := rfl

/-- A block of the product is the product of a row block and a column block. If `x` is the block of `X` whose rows
    start at `r · 512` (all 1024 columns) and `w` the block of `W` whose columns start at `s · 512` (all 1024 rows),
    then the sum over `d` of `x (a, d) · w (d, b)` is entry `(r · 512 + a, s · 512 + b)` of the product of `X` and `W`:
    the contraction runs over the whole shared axis inside the block, so the two sums have the same terms. -/
theorem block_prod (X : S4096x1024.Idx → EReal) (W : S1024x4096.Idx → EReal)
    (x : S512x1024.Idx → EReal) (w : S1024x512.Idx → EReal) (r s : Nat)
    (hx : ∀ (y : S512x1024.Idx) (k : S4096x1024.Idx), (k 0).val = r * 512 + (y 0).val → (k 1).val = (y 1).val → x y = X k)
    (hw : ∀ (y : S1024x512.Idx) (k : S1024x4096.Idx), (k 0).val = (y 0).val → (k 1).val = s * 512 + (y 1).val → w y = W k)
    (j : S512x512.Idx) (i : S4096x4096.Idx) (hi0 : (i 0).val = r * 512 + (j 0).val) (hi1 : (i 1).val = s * 512 + (j 1).val) :
    ∑ d : Fin 1024, x (ix2 (j 0) d) * w (ix2 d (j 1)) = prodArr X W i := by
  unfold prodArr matProd
  refine Finset.sum_congr rfl fun d _ => ?_
  exact congrArg₂ (· * ·) (hx (ix2 (j 0) d) (ix2 (i 0) d) hi0 rfl) (hw (ix2 d (j 1)) (ix2 d (i 1)) rfl hi1)

/-! ## The grid: where each window's block sits

The grid is 8 × 8. Output window 4's block index at a point is (row block, column block); the activation window's
block has the same row block and column block 0; each weight window's block has row block 0 and the same column
block; output windows 5 and 6 sit where window 4 does. Decided once over the 64 points. -/

section Region
-- the TensorCore's buffer contents when the region is entered
variable (V : (c : Dev nD) → (b : Ref sig .tc) → Buf (Elt Ideal) ((c : Thread nD τ).loc b))

theorem index_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_5.index t (0 : Fin 2) = win0_4.index t (0 : Fin 2) ∧ win0_5.index t (1 : Fin 2) = win0_4.index t (1 : Fin 2)
    ∧ win0_6.index t (0 : Fin 2) = win0_4.index t (0 : Fin 2) ∧ win0_6.index t (1 : Fin 2) = win0_4.index t (1 : Fin 2)
    ∧ win0_4.index t (0 : Fin 2) ≤ 7 ∧ win0_4.index t (1 : Fin 2) ≤ 7 :=
  (by decide +kernel : ∀ t : Fin grid0.N, _)

/-- Every (row block, column block) pair is some point's. -/
theorem index_onto : ∀ (q0 q1 : Fin 8), ∃ t : Fin cfg0.N, win0_4.index t = ![q0.val, q1.val] :=
  (by decide +kernel : ∀ (q0 q1 : Fin 8), ∃ t : Fin grid0.N, win0_4.index t = ![q0.val, q1.val])

/-! ## The input blocks as parts of the arrays

A block's coordinate in the array is block index × block size + the coordinate inside the block. -/

/-- The activation block at point `t`: the rows of the array starting at (row block) · 512, all 1024 columns. -/
theorem xblk_apply (c : Dev nD) (t : Fin cfg0.N) (y : S512x1024.Idx) (k : S4096x1024.Idx)
    (hk0 : (k 0).val = win0_4.index t (0 : Fin 2) * 512 + (y 0).val) (hk1 : (k 1).val = (y 1).val) :
    (iblk0 V c 0 t : S512x1024.Idx → EReal) y = (V c main_arg0 : S4096x1024.Idx → EReal) k := by
  obtain ⟨e0, e1, -⟩ := index_facts t
  unfold iblk0
  rw [View.read_apply]
  show V c main_arg0 (((cfg0.win 0).blk t).view.emb y) = V c main_arg0 k
  congr 1
  funext a
  apply Fin.ext
  match a with
  | ⟨0, _⟩ => show win0_0.index t (0 : Fin 2) * 512 + 1 * (y 0).val = (k 0).val; omega
  | ⟨1, _⟩ => show win0_0.index t (1 : Fin 2) * 1024 + 1 * (y 1).val = (k 1).val; omega

/-- The first weight block at point `t`: all 1024 rows, the columns of the array starting at (column block) · 512. -/
theorem wblk1_apply (c : Dev nD) (t : Fin cfg0.N) (y : S1024x512.Idx) (k : S1024x4096.Idx)
    (hk0 : (k 0).val = (y 0).val) (hk1 : (k 1).val = win0_4.index t (1 : Fin 2) * 512 + (y 1).val) :
    (iblk0 V c 1 t : S1024x512.Idx → EReal) y = (V c main_arg1 : S1024x4096.Idx → EReal) k := by
  obtain ⟨e00, e01, e10, e11, e20, e21, e30, e31, e50, e51, e60, e61, b0, b1⟩ := index_facts t
  unfold iblk0
  rw [View.read_apply]
  show V c main_arg1 (((cfg0.win 1).blk t).view.emb y) = V c main_arg1 k
  congr 1
  funext a
  apply Fin.ext
  match a with
  | ⟨0, _⟩ => show win0_1.index t (0 : Fin 2) * 1024 + 1 * (y 0).val = (k 0).val; omega
  | ⟨1, _⟩ => show win0_1.index t (1 : Fin 2) * 512 + 1 * (y 1).val = (k 1).val; omega

/-- The second weight block at point `t`: all 1024 rows, the columns of the array starting at (column block) · 512. -/
theorem wblk2_apply (c : Dev nD) (t : Fin cfg0.N) (y : S1024x512.Idx) (k : S1024x4096.Idx)
    (hk0 : (k 0).val = (y 0).val) (hk1 : (k 1).val = win0_4.index t (1 : Fin 2) * 512 + (y 1).val) :
    (iblk0 V c 2 t : S1024x512.Idx → EReal) y = (V c main_arg2 : S1024x4096.Idx → EReal) k := by
  obtain ⟨e00, e01, e10, e11, e20, e21, e30, e31, e50, e51, e60, e61, b0, b1⟩ := index_facts t
  unfold iblk0
  rw [View.read_apply]
  show V c main_arg2 (((cfg0.win 2).blk t).view.emb y) = V c main_arg2 k
  congr 1
  funext a
  apply Fin.ext
  match a with
  | ⟨0, _⟩ => show win0_2.index t (0 : Fin 2) * 1024 + 1 * (y 0).val = (k 0).val; omega
  | ⟨1, _⟩ => show win0_2.index t (1 : Fin 2) * 512 + 1 * (y 1).val = (k 1).val; omega

/-- The third weight block at point `t`: all 1024 rows, the columns of the array starting at (column block) · 512. -/
theorem wblk3_apply (c : Dev nD) (t : Fin cfg0.N) (y : S1024x512.Idx) (k : S1024x4096.Idx)
    (hk0 : (k 0).val = (y 0).val) (hk1 : (k 1).val = win0_4.index t (1 : Fin 2) * 512 + (y 1).val) :
    (iblk0 V c 3 t : S1024x512.Idx → EReal) y = (V c main_arg3 : S1024x4096.Idx → EReal) k := by
  obtain ⟨e00, e01, e10, e11, e20, e21, e30, e31, e50, e51, e60, e61, b0, b1⟩ := index_facts t
  unfold iblk0
  rw [View.read_apply]
  show V c main_arg3 (((cfg0.win 3).blk t).view.emb y) = V c main_arg3 k
  congr 1
  funext a
  apply Fin.ext
  match a with
  | ⟨0, _⟩ => show win0_3.index t (0 : Fin 2) * 1024 + 1 * (y 0).val = (k 0).val; omega
  | ⟨1, _⟩ => show win0_3.index t (1 : Fin 2) * 512 + 1 * (y 1).val = (k 1).val; omega

/-! ## Output window 4 -/

/-- What point `t` writes back to window 4's array is block `t` of the product of the activations and the first weights. -/
theorem flushed4_eq (c : Dev nD) (t : Fin cfg0.N) :
    (dat0 V c).flushed 4 t = ((cfg0.win 4).blk t).view.read (Elt Ideal) (prodArr (V c main_arg0) (V c main_arg1)) := by
  show (cfg0.win 4).cut (grid0.coords t) ((dat0 V c).after 4 t) = _
  rw [after0_4, out0_4_eq]
  obtain ⟨e00, e01, e10, e11, e20, e21, e30, e31, e50, e51, e60, e61, b0, b1⟩ := index_facts t
  funext j
  show k0_pay2 (iblk0 V c 0 t) (iblk0 V c 1 t) j = prodArr (V c main_arg0) (V c main_arg1) (((cfg0.win 4).blk t).view.emb j)
  refine (pay2_apply _ _ j).trans ?_
  refine block_prod _ _ _ _ (win0_4.index t (0 : Fin 2)) (win0_4.index t (1 : Fin 2)) (xblk_apply V c t) (wblk1_apply V c t) j _ ?_ ?_
  · show win0_4.index t (0 : Fin 2) * 512 + 1 * (j 0).val = _; omega
  · show win0_4.index t (1 : Fin 2) * 512 + 1 * (j 1).val = _; omega

/-- An index of the array is in point `t`'s block iff each coordinate is in the block's range on its axis. -/
theorem mem_blk4 (t : Fin cfg0.N) (i : S4096x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v0_0).slice (win0_4.rect t)).set ↔ _
  rw [View.set_slice_whole, Rect.mem_set_unit]
  exact Iff.rfl

/-- The blocks cover the array: index `(i, n)` is in the block of the point whose row block is `i / 512` and whose
    column block is `n / 512`. -/
theorem cover4 (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ := index_onto ⟨(i 0).val / 512, by omega⟩ ⟨(i 1).val / 512, by omega⟩
  have q0 : win0_4.index t (0 : Fin 2) = (i 0).val / 512 := congrFun ht 0
  have q1 : win0_4.index t (1 : Fin 2) = (i 1).val / 512 := congrFun ht 1
  obtain ⟨e00, e01, e10, e11, e20, e21, e30, e31, e50, e51, e60, e61, b0, b1⟩ := index_facts t
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 512 ≤ (i 1).val ∧ (i 1).val < win0_4.index t (1 : Fin 2) * 512 + 512; omega

/-! ## Output window 5 -/

/-- What point `t` writes back to window 5's array is block `t` of the product of the activations and the second weights. -/
theorem flushed5_eq (c : Dev nD) (t : Fin cfg0.N) :
    (dat0 V c).flushed 5 t = ((cfg0.win 5).blk t).view.read (Elt Ideal) (prodArr (V c main_arg0) (V c main_arg2)) := by
  show (cfg0.win 5).cut (grid0.coords t) ((dat0 V c).after 5 t) = _
  rw [after0_5, out0_5_eq]
  obtain ⟨e00, e01, e10, e11, e20, e21, e30, e31, e50, e51, e60, e61, b0, b1⟩ := index_facts t
  funext j
  show k0_pay3 (iblk0 V c 0 t) (iblk0 V c 2 t) j = prodArr (V c main_arg0) (V c main_arg2) (((cfg0.win 5).blk t).view.emb j)
  refine (pay3_apply _ _ j).trans ?_
  refine block_prod _ _ _ _ (win0_4.index t (0 : Fin 2)) (win0_4.index t (1 : Fin 2)) (xblk_apply V c t) (wblk2_apply V c t) j _ ?_ ?_
  · show win0_5.index t (0 : Fin 2) * 512 + 1 * (j 0).val = _; omega
  · show win0_5.index t (1 : Fin 2) * 512 + 1 * (j 1).val = _; omega

/-- An index of the array is in point `t`'s block iff each coordinate is in the block's range on its axis. -/
theorem mem_blk5 (t : Fin cfg0.N) (i : S4096x4096.Idx) :
    i ∈ ((cfg0.win 5).blk t).view.set ↔ ∀ a : Fin 2, win0_5.index t a * S512x512.size a ≤ (i a).val ∧ (i a).val < win0_5.index t a * S512x512.size a + S512x512.size a := by
  show i ∈ ((View.whole main_v0_1).slice (win0_5.rect t)).set ↔ _
  rw [View.set_slice_whole, Rect.mem_set_unit]
  exact Iff.rfl

/-- The blocks cover the array: index `(i, n)` is in the block of the point whose row block is `i / 512` and whose
    column block is `n / 512`. -/
theorem cover5 (i : S4096x4096.Idx) : ∃ t : Fin cfg0.N, (cfg0.win 5).flush t = true ∧ i ∈ ((cfg0.win 5).blk t).view.set := by
  have hi0 : (i 0).val < 4096 := (i 0).isLt
  have hi1 : (i 1).val < 4096 := (i 1).isLt
  obtain ⟨t, ht⟩ := index_onto ⟨(i 0).val / 512, by omega⟩ ⟨(i 1).val / 512, by omega⟩
  have q0 : win0_4.index t (0 : Fin 2) = (i 0).val / 512 := congrFun ht 0
  have q1 : win0_4.index t (1 : Fin 2) = (i 1).val / 512 := congrFun ht 1
  obtain ⟨e00, e01, e10, e11, e20, e21, e30, e31, e50, e51, e60, e61, b0, b1⟩ := index_facts t
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 512 ≤ (i 1).val ∧ (i 1).val < win0_5.index t (1 : Fin 2) * 512 + 512; omega

/-! ## Output window 6 -/

/-- What point `t` writes back to window 6's array is block `t` of the product of the activations and the third weights. -/
theorem flushed6_eq (c : Dev nD) (t : Fin cfg0.N) :
    (dat0 V c).flushed 6 t = ((cfg0.win 6).blk t).view.read (Elt Ideal) (prodArr (V c main_arg0) (V c main_arg3)) := by
  show (cfg0.win 6).cut (grid0.coords t) ((dat0 V c).after 6 t) = _
  rw [after0_6, out0_6_eq]
  obtain ⟨e00, e01, e10, e11, e20, e21, e30, e31, e50, e51, e60, e61, b0, b1⟩ := index_facts t
  funext j
  show k0_pay4 (iblk0 V c 0 t) (iblk0 V c 3 t) j = prodArr (V c main_arg0) (V c main_arg3) (((cfg0.win 6).blk t).view.emb j)
  refine (pay4_apply _ _ j).trans ?_
  refine block_prod _ _ _ _ (win0_4.index t (0 : Fin 2)) (win0_4.index t (1 : Fin 2)) (xblk_apply V c t) (wblk3_apply V c t) j _ ?_ ?_
  · show win0_6.index t (0 : Fin 2) * 512 + 1 * (j 0).val = _; omega
  · show win0_6.index t (1 : Fin 2) * 512 + 1 * (j 1).val = _; omega

/-- An index of the array is in point `t`'s block iff each coordinate is in the block's range on its axis. -/
theorem mem_blk6 (t : Fin cfg0.N) (i : S4096x4096.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v0_2).slice (win0_6.rect t)).set ↔ _
  rw [View.set_slice_whole, Rect.mem_set_unit]
  exact Iff.rfl

/-- The blocks cover the array: index `(i, n)` is in the block of the point whose row block is `i / 512` and whose
    column block is `n / 512`. -/
theorem cover6 (i : S4096x4096.Idx) : ∃ t : Fin cfg0.N, (cfg0.win 6).flush t = true ∧ i ∈ ((cfg0.win 6).blk t).view.set := by
  have hi0 : (i 0).val < 4096 := (i 0).isLt
  have hi1 : (i 1).val < 4096 := (i 1).isLt
  obtain ⟨t, ht⟩ := index_onto ⟨(i 0).val / 512, by omega⟩ ⟨(i 1).val / 512, by omega⟩
  have q0 : win0_4.index t (0 : Fin 2) = (i 0).val / 512 := congrFun ht 0
  have q1 : win0_4.index t (1 : Fin 2) = (i 1).val / 512 := congrFun ht 1
  obtain ⟨e00, e01, e10, e11, e20, e21, e30, e31, e50, e51, e60, e61, b0, b1⟩ := index_facts t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-! ## The three arrays the region leaves -/

/-- Window 4's array after the region: the activations times the first weights, index by index:
    at `idx` it is `∑ d, x (idx 0, d) · w (d, idx 1)` (`prodArr_apply`). -/
theorem arr4_eq (c : Dev nD) :
    (dat0 V c).arrAt 4 cfg0.N = prodArr (V c main_arg0) (V c main_arg1) :=
  (dat0 V c).arrAt_eq_of_cover 4 (prodArr (V c main_arg0) (V c main_arg1)) (fun t _ => flushed4_eq V c t) cover4

/-- Window 5's array after the region: the activations times the second weights, index by index:
    at `idx` it is `∑ d, x (idx 0, d) · w (d, idx 1)` (`prodArr_apply`). -/
theorem arr5_eq (c : Dev nD) :
    (dat0 V c).arrAt 5 cfg0.N = prodArr (V c main_arg0) (V c main_arg2) :=
  (dat0 V c).arrAt_eq_of_cover 5 (prodArr (V c main_arg0) (V c main_arg2)) (fun t _ => flushed5_eq V c t) cover5

/-- Window 6's array after the region: the activations times the third weights, index by index (the array's bf16 type changes nothing at the ideal values):
    at `idx` it is `∑ d, x (idx 0, d) · w (d, idx 1)` (`prodArr_apply`). -/
theorem arr6_eq (c : Dev nD) :
    (dat0 V c).arrAt 6 cfg0.N = prodArr (V c main_arg0) (V c main_arg3) :=
  (dat0 V c).arrAt_eq_of_cover 6 (prodArr (V c main_arg0) (V c main_arg3)) (fun t _ => flushed6_eq V c t) cover6

end Region

end Cert.KernelIdeal.Hand.ProjValue

end
-- ==== Proof.RefRead.lean ====
/-
  The reference program read back as a function of its argument arrays, index by index.
-/
import proofs.«154024_j88905823027932_2_alg».proof.Defs
import proofs.«154024_j88905823027932_2_alg».proof.Proof.Gen.ReferenceIdeal.Read
import Idealize.ShloMosaic.Lib.ValueIdx
import Idealize.ShloMosaic.PureOps.Ideal.Laws

noncomputable section

namespace Cert.ReferenceIdeal.RefRead

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! ## The reference as a function of its four arrays

With x the 4096 × 1024 input and wq, wk, wv the three 1024 × 4096 weight arrays: q = x·wq, k = x·wk, v = x·wv; the
score of row i against row j is the sum over n of q i n * k j n; each row's scores are shifted by the row's maximum,
exponentiated, divided by the row's sum, and the resulting weights average the rows of v. -/

/-- One entry of a projection x · w. -/
def proj (x : S4096x1024.Idx → EReal) (w : S1024x4096.Idx → EReal) (i n : Fin 4096) : EReal :=
  ∑ d : Fin 1024, x (ix2 i d) * w (ix2 d n)

/-- The score of query row i against key row j: the inner product of row i of x·wq with row j of x·wk. -/
def score (x : S4096x1024.Idx → EReal) (wq wk : S1024x4096.Idx → EReal) (i j : Fin 4096) : EReal :=
  ∑ n : Fin 4096, proj x wq i n * proj x wk j n

/-- The maximum of row i's scores (taken from -∞, and once more against -∞, as the program does). -/
def rowMax (x : S4096x1024.Idx → EReal) (wq wk : S1024x4096.Idx → EReal) (i : Fin 4096) : EReal :=
  max ⊥ ((Finset.univ : Finset (Fin 4096)).sup fun j => score x wq wk i j)

/-- The unnormalised weight: exp (score − row maximum). -/
def wgt (x : S4096x1024.Idx → EReal) (wq wk : S1024x4096.Idx → EReal) (i j : Fin 4096) : EReal :=
  Ideal.exp (score x wq wk i j - rowMax x wq wk i)

/-- Row i's normaliser: the sum of its weights, from the initial value 0. -/
def den (x : S4096x1024.Idx → EReal) (wq wk : S1024x4096.Idx → EReal) (i : Fin 4096) : EReal :=
  0 + ∑ j : Fin 4096, wgt x wq wk i j

/-- Entry (i, c) of the result: column c of x·wv averaged with row i's normalised weights. -/
def Grow (x : S4096x1024.Idx → EReal) (wq wk wv : S1024x4096.Idx → EReal) (i c : Fin 4096) : EReal :=
  ∑ j : Fin 4096, Ideal.div (wgt x wq wk i j) (den x wq wk i) * proj x wv j c

/-- The reference's result array as one function of the four argument arrays. -/
def G (x : S4096x1024.Idx → EReal) (wq wk wv : S1024x4096.Idx → EReal) : S4096x4096.Idx → EReal :=
  fun idx => Grow x wq wk wv (idx 0) (idx 1)

theorem G_ix2 (x : S4096x1024.Idx → EReal) (wq wk wv : S1024x4096.Idx → EReal) (i c : Fin 4096) :
    G x wq wk wv (ix2 i c) = Grow x wq wk wv i c := rfl

/-! ## The three projections -/

theorem v0_read (x : (⟨S4096x1024, .f32⟩ : BufTy).Contents (Elt Ideal)) (w : (⟨S1024x4096, .f32⟩ : BufTy).Contents (Elt Ideal))
    (i n : Fin 4096) : val_main_v0 (F := Ideal) x w (ix2 i n) = proj x w i n := by
  rw [val_main_v0_apply]
  unfold proj
  refine Finset.sum_congr rfl fun d _ => ?_
  have el : lidx_main_v0 (ix2 i n) d = ix2 i d := funext fun a => by match a with | ⟨0, _⟩ => rfl | ⟨1, _⟩ => rfl
  have er : ridx_main_v0 (ix2 i n) d = ix2 d n := funext fun a => by match a with | ⟨0, _⟩ => rfl | ⟨1, _⟩ => rfl
  rw [el, er]

theorem v1_read (x : (⟨S4096x1024, .f32⟩ : BufTy).Contents (Elt Ideal)) (w : (⟨S1024x4096, .f32⟩ : BufTy).Contents (Elt Ideal))
    (i n : Fin 4096) : val_main_v1 (F := Ideal) x w (ix2 i n) = proj x w i n := by
  rw [val_main_v1_apply]
  unfold proj
  refine Finset.sum_congr rfl fun d _ => ?_
  have el : lidx_main_v1 (ix2 i n) d = ix2 i d := funext fun a => by match a with | ⟨0, _⟩ => rfl | ⟨1, _⟩ => rfl
  have er : ridx_main_v1 (ix2 i n) d = ix2 d n := funext fun a => by match a with | ⟨0, _⟩ => rfl | ⟨1, _⟩ => rfl
  rw [el, er]

theorem v2_read (x : (⟨S4096x1024, .f32⟩ : BufTy).Contents (Elt Ideal)) (w : (⟨S1024x4096, .f32⟩ : BufTy).Contents (Elt Ideal))
    (i n : Fin 4096) : val_main_v2 (F := Ideal) x w (ix2 i n) = proj x w i n := by
  rw [val_main_v2_apply]
  unfold proj
  refine Finset.sum_congr rfl fun d _ => ?_
  have el : lidx_main_v2 (ix2 i n) d = ix2 i d := funext fun a => by match a with | ⟨0, _⟩ => rfl | ⟨1, _⟩ => rfl
  have er : ridx_main_v2 (ix2 i n) d = ix2 d n := funext fun a => by match a with | ⟨0, _⟩ => rfl | ⟨1, _⟩ => rfl
  rw [el, er]

/-! ## The scores: the second factor is the transposed key projection, so it is read at (j, n) -/

theorem v4_read (x : (⟨S4096x1024, .f32⟩ : BufTy).Contents (Elt Ideal)) (wq wk : (⟨S1024x4096, .f32⟩ : BufTy).Contents (Elt Ideal))
    (i j : Fin 4096) : val_main_v4 (F := Ideal) x wq wk (ix2 i j) = score x wq wk i j := by
  rw [val_main_v4_apply]
  unfold score
  refine Finset.sum_congr rfl fun n _ => ?_
  have el : lidx_main_v4 (ix2 i j) n = ix2 i n := funext fun a => by match a with | ⟨0, _⟩ => rfl | ⟨1, _⟩ => rfl
  have er : ridx_main_v4 (ix2 i j) n = ix2 n j := funext fun a => by match a with | ⟨0, _⟩ => rfl | ⟨1, _⟩ => rfl
  have et : idx_main_v3 (ix2 n j) = ix2 j n := funext fun a => by match a with | ⟨0, _⟩ => rfl | ⟨1, _⟩ => rfl
  rw [el, er, val_main_v3_apply, et, v0_read, v1_read]

/-! ## The row maximum

The max-reduce over axis 1 is, at row i, the fold of max from the initial value over the row's 4096 scores; a fold of
max from b over a finite family is max b (the family's supremum). -/

/-- A fold of the extended reals' maximum from b over a finite family is max b of the family's supremum. -/
theorem fold_maximumf_eq_sup {ι : Type} (s : Finset ι) (f : ι → EReal) (b : EReal) :
    s.fold (FloatOps.maximumf (F := Ideal) (φ := .f32)) b f = max b (s.sup f) := by
  classical
  induction s using Finset.induction_on with
  | empty => rw [Finset.fold_empty, Finset.sup_empty]; exact (max_bot_right b).symm
  | insert a s ha ih =>
    rw [Finset.fold_insert ha, ih, Finset.sup_insert]
    show max (f a) (max b (s.sup f)) = max b (max (f a) (s.sup f))
    exact max_left_comm _ _ _

/-- The bit pattern 0xFF800000 is -∞. -/
theorem ofBits_neg_inf_f32 : Ideal.ofBits .f32 0xFF800000#32 = (⊥ : EReal) := by simp [Ideal.ofBits, Ideal.ieee]

theorem v5_read (x : (⟨S4096x1024, .f32⟩ : BufTy).Contents (Elt Ideal)) (wq wk : (⟨S1024x4096, .f32⟩ : BufTy).Contents (Elt Ideal))
    (i : Fin 4096) : val_main_v5 (F := Ideal) x wq wk (ix1 i) = rowMax x wq wk i := by
  unfold val_main_v5
  have h : S4096x4096.Reduces [1] S4096 := by decide
  refine (Host.reduce_eq_fold_single (α := EReal) (FloatOps.maximumf (F := Ideal) (φ := .f32)) (val_main_v4 (F := Ideal) x wq wk)
    (val_main_cst (F := Ideal)) reducesTo_S4096x4096_S4096_d1 h h_S_ (ix1 i)).trans ?_
  rw [fold_maximumf_eq_sup, val_main_cst_apply, Ideal.ofBits_def, ofBits_neg_inf_f32]
  unfold rowMax
  refine congrArg (max ⊥) (Finset.sup_congr rfl fun (j : Fin 4096) _ => ?_)
  have e : h.lift (ix1 i) j = ix2 i j := funext fun a => Fin.ext (by match a with | ⟨0, _⟩ => rfl | ⟨1, _⟩ => rfl)
  show val_main_v4 (F := Ideal) x wq wk (h.lift (ix1 i) j) = _
  rw [e, v4_read]

/-- The maximum once more against the broadcast -∞: still the row maximum. -/
theorem v7_read (x : (⟨S4096x1024, .f32⟩ : BufTy).Contents (Elt Ideal)) (wq wk : (⟨S1024x4096, .f32⟩ : BufTy).Contents (Elt Ideal))
    (i : Fin 4096) : val_main_v7 (F := Ideal) x wq wk (ix1 i) = rowMax x wq wk i := by
  rw [val_main_v7_apply, val_main_v6_apply, val_main_cst_0_apply, v5_read, Ideal.ofBits_def, ofBits_neg_inf_f32,
    Ideal.maximumf_def]
  unfold rowMax
  rw [← max_assoc, max_self]

/-! ## The weights, their row sums, and the quotient -/

theorem v11_read (x : (⟨S4096x1024, .f32⟩ : BufTy).Contents (Elt Ideal)) (wq wk : (⟨S1024x4096, .f32⟩ : BufTy).Contents (Elt Ideal))
    (i j : Fin 4096) : val_main_v11 (F := Ideal) x wq wk (ix2 i j) = wgt x wq wk i j := by
  have e : idx_main_v8 (idx_main_v9 (ix2 i j)) = ix1 i := funext fun a => by match a with | ⟨0, _⟩ => rfl
  rw [val_main_v11_apply, val_main_v10_apply, val_main_v9_apply, val_main_v8_apply, e, v7_read, v4_read,
    Ideal.subf_def, Ideal.hostUnary_exp_def]
  rfl

theorem v12_read (x : (⟨S4096x1024, .f32⟩ : BufTy).Contents (Elt Ideal)) (wq wk : (⟨S1024x4096, .f32⟩ : BufTy).Contents (Elt Ideal))
    (i : Fin 4096) : val_main_v12 (F := Ideal) x wq wk (ix1 i) = den x wq wk i := by
  rw [val_main_v12_apply, val_main_cst_1_apply, Ideal.ofBits_def, Ideal.ofBits_zero_f32]
  unfold den
  refine congrArg (0 + ·) (Finset.sum_congr rfl fun j _ => ?_)
  have e : idx_main_v12 (ix1 i) j = ix2 i j := funext fun a => by match a with | ⟨0, _⟩ => rfl | ⟨1, _⟩ => rfl
  rw [e, v11_read]

theorem v15_read (x : (⟨S4096x1024, .f32⟩ : BufTy).Contents (Elt Ideal)) (wq wk : (⟨S1024x4096, .f32⟩ : BufTy).Contents (Elt Ideal))
    (i j : Fin 4096) :
    val_main_v15 (F := Ideal) x wq wk (ix2 i j) = Ideal.div (wgt x wq wk i j) (den x wq wk i) := by
  have e : idx_main_v13 (idx_main_v14 (ix2 i j)) = ix1 i := funext fun a => by match a with | ⟨0, _⟩ => rfl
  rw [val_main_v15_apply, val_main_v14_apply, val_main_v13_apply, e, v12_read, v11_read, Ideal.hostDivf_def]

/-! ## The result -/

theorem v16_read (x : (⟨S4096x1024, .f32⟩ : BufTy).Contents (Elt Ideal)) (wq wk wv : (⟨S1024x4096, .f32⟩ : BufTy).Contents (Elt Ideal))
    (i c : Fin 4096) : val_main_v16 (F := Ideal) x wq wk wv (ix2 i c) = Grow x wq wk wv i c := by
  rw [val_main_v16_apply]
  unfold Grow
  refine Finset.sum_congr rfl fun j _ => ?_
  have el : lidx_main_v16 (ix2 i c) j = ix2 i j := funext fun a => by match a with | ⟨0, _⟩ => rfl | ⟨1, _⟩ => rfl
  have er : ridx_main_v16 (ix2 i c) j = ix2 j c := funext fun a => by match a with | ⟨0, _⟩ => rfl | ⟨1, _⟩ => rfl
  rw [el, er, v15_read, v2_read]

/-- The reference's result, as the generated reading states it, is G of the four argument arrays. -/
theorem ref_eq (x0 : (⟨S4096x1024, .f32⟩ : BufTy).Contents (Elt Ideal)) (x1 x2 x3 : (⟨S1024x4096, .f32⟩ : BufTy).Contents (Elt Ideal)) :
    Cert.ReferenceIdeal.Read.val_main_v16 (F := Ideal) x0 x1 x2 x3 = G x0 x1 x2 x3 := by
  funext idx
  obtain ⟨i, c, rfl⟩ : ∃ (i c : Fin 4096), idx = ix2 i c := ⟨idx 0, idx 1, eq_ix2 idx⟩
  rw [v16_read, G_ix2]

/-! ## The run -/

/-- Every weakly fair execution of the reference terminates with its result array at G of the four argument arrays'
    launch contents, the arguments unchanged. -/
theorem run_G (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = G (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((val_main_v16_eq _ _ _ _).trans (ref_eq _ _ _ _)), (h c).2⟩)
    (Cert.ReferenceIdeal.Value.run (F := Ideal) m ρ)

end Cert.ReferenceIdeal.RefRead

end
-- ==== Proof.IdealSpec.lean ====
/-
  The meeting point of the two programs.  With every input entry a real number, write q = x·Wq, k = x·Wk, v = x·Wv
  (real matrices) and s i j = Σ_n q i n · k j n.  Both the kernel and the reference compute, at (i, c),

      ( Σ_j exp (s i j − M i) · v j c ) / ( Σ_j exp (s i j − M i) ),   M i = max_j s i j,

  the kernel block by block with a running maximum, the reference in one pass with each weight divided first.
  `KG` is that quotient, written over the running forms at the full column set.
-/
import proofs.«154024_j88905823027932_2_alg».proof.Proof.LibOnlineSoftmax
import Idealize.ShloMosaic.Lib.ValueIdx

noncomputable section

namespace Cert.KernelIdeal.Spec

open Idealize.ShloMosaic ValueIdx Cert.Lib.OnlineSoftmax

abbrev Sx : Shape := ⟨2, ![4096, 1024]⟩
abbrev Sw : Shape := ⟨2, ![1024, 4096]⟩
abbrev So : Shape := ⟨2, ![4096, 4096]⟩

variable (x : Sx.Idx → EReal) (wq wk wv w : Sw.Idx → EReal)

/-- A projection x·W at (i, n), over the reals. -/
def projR (i n : Fin 4096) : ℝ := ∑ d : Fin 1024, (x (ix2 i d)).toReal * (w (ix2 d n)).toReal
/-- The score of query row i against key row j. -/
def scoreR (i j : Fin 4096) : ℝ := ∑ n : Fin 4096, projR x wq i n * projR x wk j n
/-- Softmax attention at (i, c): the weighted sum of the value column c divided by the denominator of row i. -/
def KGrow (i c : Fin 4096) : EReal :=
  Ideal.div (runNum (scoreR x wq wk i) (fun j => projR x wv j c) Finset.univ) (runDen (scoreR x wq wk i) Finset.univ)
def KG : So.Idx → EReal := fun idx => KGrow x wq wk wv (idx 0) (idx 1)

theorem KG_ix2 (i c : Fin 4096) : KG x wq wk wv (ix2 i c) = KGrow x wq wk wv i c := rfl

/-- "Every entry is a real", in the form the algebra uses. -/
def Real (S : Shape) (f : S.Idx → EReal) : Prop := ∀ i, f i = ((f i).toReal : EReal)

theorem real_of_exists {S : Shape} {f : S.Idx → EReal} (h : ∀ i, ∃ r : ℝ, f i = (r : EReal)) : Real S f := fun i => by
  obtain ⟨r, hr⟩ := h i; rw [hr, EReal.toReal_coe]

end Cert.KernelIdeal.Spec

end
-- ==== Proof.IdealBridgeRef.lean ====
/-
  With every input entry a real number, the reference's function of its four arrays is the softmax-attention closed form:
  each projection and each score is the inclusion of its real counterpart, the row maximum is the running maximum over all
  columns, the row sum is the running denominator over all columns, and the one-pass sum of normalised weights times values
  is the quotient of the running numerator by the running denominator.
-/
import proofs.«154024_j88905823027932_2_alg».proof.Proof.RefRead
import proofs.«154024_j88905823027932_2_alg».proof.Proof.IdealSpec

noncomputable section

namespace Cert.KernelIdeal.BridgeRef

open Idealize.ShloMosaic Idealize.ShloMosaic.ValueIdx Cert.Lib.OnlineSoftmax Cert.ReferenceIdeal
open scoped BigOperators

variable (x : Spec.Sx.Idx → EReal) (wq wk wv w : Spec.Sw.Idx → EReal)

/-- A projection of real arrays is the inclusion of the real projection. -/
theorem proj_coe (hx : Spec.Real _ x) (hw : Spec.Real _ w) (i n : Fin 4096) :
    RefRead.proj x w i n = ((Spec.projR x w i n : ℝ) : EReal) := by
  unfold RefRead.proj Spec.projR
  rw [coe_finset_sum]
  refine Finset.sum_congr rfl fun d _ => ?_
  rw [EReal.coe_mul, ← hx (ix2 i d), ← hw (ix2 d n)]

/-- A score of real arrays is the inclusion of the real score. -/
theorem score_coe (hx : Spec.Real _ x) (hq : Spec.Real _ wq) (hk : Spec.Real _ wk) (i j : Fin 4096) :
    RefRead.score x wq wk i j = ((Spec.scoreR x wq wk i j : ℝ) : EReal) := by
  unfold RefRead.score Spec.scoreR
  rw [coe_finset_sum]
  refine Finset.sum_congr rfl fun n _ => ?_
  rw [EReal.coe_mul, proj_coe x wq hx hq, proj_coe x wk hx hk]

/-- The row maximum is the running maximum of the row's real scores over all columns. -/
theorem rowMax_eq (hx : Spec.Real _ x) (hq : Spec.Real _ wq) (hk : Spec.Real _ wk) (i : Fin 4096) :
    RefRead.rowMax x wq wk i = runMax (Spec.scoreR x wq wk i) Finset.univ := by
  unfold RefRead.rowMax runMax
  rw [max_bot_left]
  exact Finset.sup_congr rfl fun j _ => score_coe x wq wk hx hq hk i j

/-- A weight is the exponential of the real score less the running maximum. -/
theorem wgt_eq (hx : Spec.Real _ x) (hq : Spec.Real _ wq) (hk : Spec.Real _ wk) (i j : Fin 4096) :
    RefRead.wgt x wq wk i j
      = Ideal.exp (((Spec.scoreR x wq wk i j : ℝ) : EReal) - runMax (Spec.scoreR x wq wk i) Finset.univ) := by
  unfold RefRead.wgt
  rw [score_coe x wq wk hx hq hk, rowMax_eq x wq wk hx hq hk]

/-- The row sum is the running denominator over all columns. -/
theorem den_eq (hx : Spec.Real _ x) (hq : Spec.Real _ wq) (hk : Spec.Real _ wk) (i : Fin 4096) :
    RefRead.den x wq wk i = runDen (Spec.scoreR x wq wk i) Finset.univ := by
  unfold RefRead.den runDen
  rw [zero_add]
  exact Finset.sum_congr rfl fun j _ => wgt_eq x wq wk hx hq hk i j

/-- One entry: the one-pass sum of normalised weights times values is the quotient of the running forms. -/
theorem Grow_eq_KGrow (hx : Spec.Real _ x) (hq : Spec.Real _ wq) (hk : Spec.Real _ wk) (hv : Spec.Real _ wv)
    (i c : Fin 4096) : RefRead.Grow x wq wk wv i c = Spec.KGrow x wq wk wv i c := by
  unfold RefRead.Grow Spec.KGrow
  rw [quotient_eq _ _ Finset.univ Finset.univ_nonempty]
  refine Finset.sum_congr rfl fun j _ => ?_
  rw [wgt_eq x wq wk hx hq hk, den_eq x wq wk hx hq hk, proj_coe x wv hx hv]

/-- Under "every input entry is a real", the reference's function is the closed form. -/
theorem G_eq_KG (x : Spec.Sx.Idx → EReal) (wq wk wv : Spec.Sw.Idx → EReal) (hx : Spec.Real _ x) (hq : Spec.Real _ wq)
    (hk : Spec.Real _ wk) (hv : Spec.Real _ wv) :
    Cert.ReferenceIdeal.RefRead.G x wq wk wv = Cert.KernelIdeal.Spec.KG x wq wk wv := by
  funext idx
  obtain ⟨i, c, rfl⟩ : ∃ (i c : Fin 4096), idx = ix2 i c := ⟨idx 0, idx 1, eq_ix2 idx⟩
  rw [RefRead.G_ix2, Spec.KG_ix2]
  exact Grow_eq_KGrow x wq wk wv hx hq hk hv i c

end Cert.KernelIdeal.BridgeRef

end
-- ==== Proof.IdealValue.lean ====
/-
  The idealized kernel's whole run with its result named.  Under finite inputs the projection region leaves the
  three real matrices q = x·Wq, k = x·Wk, v = x·Wv, and the attention region leaves softmax attention of them,
  which is the closed form `Spec.KG` of the argument arrays.
-/
import proofs.«154024_j88905823027932_2_alg».proof.Proof.IdealRun
import proofs.«154024_j88905823027932_2_alg».proof.Proof.IdealAttnValue
import proofs.«154024_j88905823027932_2_alg».proof.Proof.IdealProjValue
import proofs.«154024_j88905823027932_2_alg».proof.Proof.IdealBridgeRef
import proofs.«154024_j88905823027932_2_alg».proof.Proof.IdealSpec

set_option maxRecDepth 16384

noncomputable section

namespace Cert.KernelIdeal.Hand

open Cert.KernelIdeal Cert.KernelIdeal.Gen
open Idealize.ShloMosaic Idealize.ShloMosaic.TcCoe ValueIdx
open Idealize.SL.Sem
open Cert.Lib.OnlineSoftmax
open Cert.KernelIdeal.Hand.ProjValue

variable (m : (ℓ : Loc nD τ sig) → Buf (Elt Ideal) ℓ) (ρ : Dev nD → PrngReg)

section
variable (c : Dev nD)
variable (hx : Spec.Real _ (m ((c.tc : Thread nD τ).loc main_arg0))) (hwq : Spec.Real _ (m ((c.tc : Thread nD τ).loc main_arg1)))
  (hwk : Spec.Real _ (m ((c.tc : Thread nD τ).loc main_arg2))) (hwv : Spec.Real _ (m ((c.tc : Thread nD τ).loc main_arg3)))

include hx hwq in
/-- The first projection, as the attention region finds it: the real matrix x·Wq. -/
theorem proj_q (i n : Fin 4096) : V1 m c main_v0_0 (ix2 i n) = ((Spec.projR (m ((c.tc : Thread nD τ).loc main_arg0)) (m ((c.tc : Thread nD τ).loc main_arg1)) i n : ℝ) : EReal) := by
  rw [V1_main_v0_0, arr4_eq]; show prodArr _ _ (ix2 i n) = _
  exact Cert.KernelIdeal.BridgeRef.proj_coe _ _ hx hwq i n
include hx hwk in
theorem proj_k (i n : Fin 4096) : V1 m c main_v0_1 (ix2 i n) = ((Spec.projR (m ((c.tc : Thread nD τ).loc main_arg0)) (m ((c.tc : Thread nD τ).loc main_arg2)) i n : ℝ) : EReal) := by
  rw [V1_main_v0_1, arr5_eq]; show prodArr _ _ (ix2 i n) = _
  exact Cert.KernelIdeal.BridgeRef.proj_coe _ _ hx hwk i n
include hx hwv in
theorem proj_v (i n : Fin 4096) : V1 m c main_v0_2 (ix2 i n) = ((Spec.projR (m ((c.tc : Thread nD τ).loc main_arg0)) (m ((c.tc : Thread nD τ).loc main_arg3)) i n : ℝ) : EReal) := by
  rw [V1_main_v0_2, arr6_eq]; show prodArr _ _ (ix2 i n) = _
  exact Cert.KernelIdeal.BridgeRef.proj_coe _ _ hx hwv i n

include hx hwq hwk hwv in
/-- The result array: the closed form of the four argument arrays. -/
theorem result_eq : (dat1 (V1 m) c).arrAt 3 cfg1.N
    = Spec.KG (m ((c.tc : Thread nD τ).loc main_arg0)) (m ((c.tc : Thread nD τ).loc main_arg1)) (m ((c.tc : Thread nD τ).loc main_arg2)) (m ((c.tc : Thread nD τ).loc main_arg3)) :=
  (attn_value (V1 m) c _ _ _ (proj_q m c hx hwq) (proj_k m c hx hwk) (proj_v m c hx hwv)).trans rfl
end

/-- Every weakly fair execution of the idealized kernel from a memory whose inputs are real terminates with the result
    array at `Spec.KG` of the argument arrays, the arguments unchanged. -/
theorem run_KG (hreal : ∀ c : Dev nD, Spec.Real _ (m ((c.tc : Thread nD τ).loc main_arg0)) ∧ Spec.Real _ (m ((c.tc : Thread nD τ).loc main_arg1)) ∧ Spec.Real _ (m ((c.tc : Thread nD τ).loc main_arg2)) ∧ Spec.Real _ (m ((c.tc : Thread nD τ).loc main_arg3))) :
    θ_run defs (onTc (τ := τ) (main (F := Ideal))) ⟨m, fun _ => 0, ρ⟩ (fun r => ∀ c : Dev nD,
      r.2.mem ((c.tc : Thread nD τ).loc main_v1) = Spec.KG (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1.trans (result_eq m c (hreal c).1 (hreal c).2.1 (hreal c).2.2.1 (hreal c).2.2.2), (h c).2⟩) (run_value m ρ)

end Cert.KernelIdeal.Hand

end
-- ==== Proof.IdealFinite.lean ====
/-
  The precondition `finite_inputs`, read back at the ideal values.

  At the ideal instance a float is an extended real. The printed predicate computes, for each of its four
  arguments `a`, the array `|a| < +∞` (the absolute value `max a (-a)`, compared strictly below the bit
  pattern `0x7F800000`, which denotes `⊤`), folds it by `and` over both axes from the constant `1`, and
  takes the `and` of the four folds. If the result is `1` then every fold is `1`, so every compared
  element is `1`, so `max (a i) (-(a i)) < ⊤` at every index `i`. Neither `⊤` nor `⊥` passes that test
  (`max ⊤ (-⊤) = ⊤` and `max ⊥ (-⊥) = ⊤`), so every element is a real number.
-/
import proofs.«154024_j88905823027932_2_alg».proof.Defs
import Idealize.ShloMosaic.Lib.ReduceAll
import Idealize.ShloMosaic.Lib.ValueIdx
import Idealize.ShloMosaic.PureOps.Ideal.Laws

noncomputable section

namespace Cert.KernelIdeal.Finite

open Idealize.ShloMosaic Idealize.SL.Sem

/-- The shape of a scalar has exactly one index (the empty tuple). -/
instance subsingleton_scalar_idx : Subsingleton Cert.Pre_finite_inputs.S_.Idx :=
  ⟨fun a b => funext fun d => d.elim0⟩

/-- The f32 pattern `0x7F800000` (sign 0, exponent all ones, fraction 0) denotes `+∞`. -/
theorem ofBits_inf_f32 : Ideal.ofBits .f32 0x7F800000#32 = (⊤ : EReal) := by
  simp [Ideal.ofBits, Ideal.ieee]

/-- An extended real whose absolute value `max a (-a)` is strictly below `⊤` is a real number:
    at `⊤` the maximum is `⊤`, at `⊥` it is `-⊥ = ⊤`, and `⊤ < ⊤` is false. -/
theorem real_of_abs_lt_top (a : EReal) (h : max a (-a) < ⊤) : ∃ r : ℝ, a = (r : EReal) := by
  induction a using EReal.rec with
  | bot => simp at h
  | top => simp at h
  | coe r => exact ⟨r, rfl⟩

/-- One element of the compared array: if `|a| < +∞` evaluates to the word `1` at the ideal values,
    then `a` is a real number. -/
theorem real_of_cmp_one (a : Ideal .f32)
    (h : FloatOps.cmpf .olt (FloatOps.hostAbsf a) (FloatOps.ofBits (F := Ideal) .f32 0x7F800000#32) = 1#1) :
    ∃ r : ℝ, (a : EReal) = (r : EReal) := by
  have h' : Ideal.cmp .olt (max (a : EReal) (-(a : EReal))) (Ideal.ofBits .f32 0x7F800000#32) = 1#1 := h
  rw [ofBits_inf_f32] at h'
  refine real_of_abs_lt_top a ?_
  by_contra hn
  simp [Ideal.cmp, hn] at h'

/-- One argument of the predicate, at any shape `s`: if the fold by `and` over all axes of the array
    `|x| < +∞` is `1`, every element of `x` is a real number. The fold being `1` makes every compared
    element `1` (the result has a single index), and the scalar `+∞` broadcast to `s` reads `+∞` at
    every index. -/
theorem real_of_all {s : Shape} {axes : List (Fin s.rank)}
    (hb : Cert.Pre_finite_inputs.S_.BroadcastsInDim s (![] : Fin 0 → Fin s.rank))
    (hr : s.ReducesTo axes Cert.Pre_finite_inputs.S_) (hS : 0 < Cert.Pre_finite_inputs.S_.numel)
    (x : FVec Ideal s .f32)
    (h : Host.reduce IntOp.andi
          (cmpf .olt (Host.absf x)
            (broadcastInDim s ![] hb (constant (F := Ideal) Cert.Pre_finite_inputs.S_ .f32 0x7F800000#32)))
          (constantI Cert.Pre_finite_inputs.S_ 1 1#1) hr hS ValueIdx.ix0 = 1#1) :
    ∀ i, ∃ r : ℝ, x i = (r : EReal) := by
  intro i
  have hi := Host.reduce_andi_all _ _ hr hS ValueIdx.ix0 h i
  exact real_of_cmp_one (x i) hi

/-- The precondition read back: if `finite_inputs` of four arrays is `1`, every element of each of
    them is a real number. -/
theorem real_of_pre [Cert.Pre_finite_inputs.Facts]
    (x : FVec Ideal Cert.Pre_finite_inputs.S4096x1024 .f32)
    (wq wk wv : FVec Ideal Cert.Pre_finite_inputs.S1024x4096 .f32)
    (h : Cert.Pre_finite_inputs.fn (F := Ideal) x wq wk wv = fun _ => 1#1) :
    (∀ i, ∃ r : ℝ, x i = (r : EReal)) ∧ (∀ i, ∃ r : ℝ, wq i = (r : EReal))
      ∧ (∀ i, ∃ r : ℝ, wk i = (r : EReal)) ∧ (∀ i, ∃ r : ℝ, wv i = (r : EReal)) := by
  have h0 := congrFun h ValueIdx.ix0
  dsimp only [Cert.Pre_finite_inputs.fn, Cert.Pre_finite_inputs.fn_part1] at h0
  -- the result is the `and` of the four folds, nested to the left
  obtain ⟨h012, h3⟩ := IntOp.andi_eq_one.1 h0
  obtain ⟨h01, h2⟩ := IntOp.andi_eq_one.1 h012
  obtain ⟨hx, h1⟩ := IntOp.andi_eq_one.1 h01
  exact ⟨real_of_all _ _ _ x hx, real_of_all _ _ _ wq h1, real_of_all _ _ _ wk h2, real_of_all _ _ _ wv h3⟩

/-- The same at the claim's own precondition: on every device, every element of each of the four argument
    arrays of the initial memory is a real number. -/
theorem real_of_Pre_KernelIdeal [Cert.KernelIdeal.Facts] [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal))
      ∧ (∀ i, ∃ r : ℝ, m ((c.tc : Thread Cert.KernelIdeal.nD Cert.KernelIdeal.τ).loc Cert.KernelIdeal.main_arg2) i = (r : EReal))
      ∧ (∀ i, ∃ r : ℝ, m ((c.tc : Thread Cert.KernelIdeal.nD Cert.KernelIdeal.τ).loc Cert.KernelIdeal.main_arg3) i = (r : EReal)) :=
  real_of_pre _ _ _ _ (hpre c)

end Cert.KernelIdeal.Finite

end
-- ==== Proof.lean ====
/-
  The certificate's claim.  The program is flash attention: a first region computes the three projections
  q = x·Wq, k = x·Wk, v = x·Wv, a second walks a 16 × 16 grid, keeping for each block of 256 query rows a running row
  maximum, denominator and weighted sum over the key blocks seen so far, and divides at the last key block.  The
  reference computes softmax(q·kᵀ)·v in one pass.

  Frames (both instances of the kernel): each region's body is run symbolically per control case, the attention
  region's invariant carries the three scratch buffers from point to point, and the two regions are chained from the
  launch contents (Proof/IdealRun.lean, Proof/BitsRun.lean).  The reference's frame is its run with the result dropped.
  Nothing was rewritten by the idealization, so `preserves` is trivial.
  Equality at the ideal instance: with every input a real (the precondition), the kernel's result is the closed form
  Σ_j e^{s_ij − M_i} v_jc / Σ_j e^{s_ij − M_i} by induction over the grid (the rescaling by e^{M_old − M_new} telescopes),
  and the reference's Σ_j (e^{s_ij − M_i} / L_i) v_jc is the same number because L_i is a nonzero real.
-/
import proofs.«154024_j88905823027932_2_alg».proof.Defs
import proofs.«154024_j88905823027932_2_alg».proof.Proof.BitsRun
import proofs.«154024_j88905823027932_2_alg».proof.Proof.IdealRun
import proofs.«154024_j88905823027932_2_alg».proof.Proof.IdealValue
import proofs.«154024_j88905823027932_2_alg».proof.Proof.IdealFinite
import proofs.«154024_j88905823027932_2_alg».proof.Proof.IdealBridgeRef
import proofs.«154024_j88905823027932_2_alg».proof.Proof.RefRead
import proofs.«154024_j88905823027932_2_alg».proof.Proof.Gen.Kernel
import proofs.«154024_j88905823027932_2_alg».proof.Proof.Gen.KernelIdeal
import proofs.«154024_j88905823027932_2_alg».proof.Proof.Gen.ReferenceIdeal
import proofs.«154024_j88905823027932_2_alg».proof.Proof.Gen.ReferenceIdeal.Run
import proofs.«154024_j88905823027932_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end at the closed form of the (agreeing, real) argument arrays. -/
theorem algebraic : Cert.algebraic_KernelIdeal_ReferenceIdeal := by
  intro m ρ m' ρ' hpre hagree
  have hfin := fun c => Cert.KernelIdeal.Finite.real_of_Pre_KernelIdeal m hpre c
  have hreal : ∀ c : Dev Cert.KernelIdeal.nD, Cert.KernelIdeal.Spec.Real _ (m ((c.tc : Thread Cert.KernelIdeal.nD Cert.KernelIdeal.τ).loc Cert.KernelIdeal.main_arg0)) ∧ Cert.KernelIdeal.Spec.Real _ (m ((c.tc : Thread Cert.KernelIdeal.nD Cert.KernelIdeal.τ).loc Cert.KernelIdeal.main_arg1))
      ∧ Cert.KernelIdeal.Spec.Real _ (m ((c.tc : Thread Cert.KernelIdeal.nD Cert.KernelIdeal.τ).loc Cert.KernelIdeal.main_arg2)) ∧ Cert.KernelIdeal.Spec.Real _ (m ((c.tc : Thread Cert.KernelIdeal.nD Cert.KernelIdeal.τ).loc Cert.KernelIdeal.main_arg3)) := fun c =>
    ⟨Cert.KernelIdeal.Spec.real_of_exists (hfin c).1, Cert.KernelIdeal.Spec.real_of_exists (hfin c).2.1,
     Cert.KernelIdeal.Spec.real_of_exists (hfin c).2.2.1, Cert.KernelIdeal.Spec.real_of_exists (hfin c).2.2.2⟩
  refine ⟨_, Cert.KernelIdeal.Hand.run_KG m ρ hreal, ?_⟩
  refine (θ_run Cert.ReferenceIdeal.defs _ _).mono (fun _ h c => ⟨?_, (h c).2⟩) (Cert.ReferenceIdeal.RefRead.run_G m' ρ')
  rw [(h c).1, (hagree c).1, (hagree c).2.1, (hagree c).2.2.1, (hagree c).2.2.2]
  exact Cert.KernelIdeal.BridgeRef.G_eq_KG _ _ _ _ (hreal c).1 (hreal c).2.1 (hreal c).2.2.1 (hreal c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
